-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x50 : Shape := ⟨2, ![50000, 50]⟩
abbrev S2x800000 : Shape := ⟨2, ![2, 800000]⟩
abbrev S50000 : Shape := ⟨1, ![50000]⟩
abbrev S128x50 : Shape := ⟨2, ![128, 50]⟩
abbrev S128 : Shape := ⟨1, ![128]⟩
abbrev S256x128 : Shape := ⟨2, ![256, 128]⟩
abbrev S256 : Shape := ⟨1, ![256]⟩
abbrev S512x256 : Shape := ⟨2, ![512, 256]⟩
abbrev S512 : Shape := ⟨1, ![512]⟩
abbrev S256x512 : Shape := ⟨2, ![256, 512]⟩
abbrev S128x256 : Shape := ⟨2, ![128, 256]⟩
abbrev S1x128 : Shape := ⟨2, ![1, 128]⟩
abbrev S1 : Shape := ⟨1, ![1]⟩
abbrev S_ : Shape := ⟨0, ![]⟩

class Facts : Prop where
  bcast_S_S50000x50 : S_.BroadcastsInDim S50000x50 (![] : Fin 0 → Fin S50000x50.rank)
  reducesTo_S50000x50_S_d0_1 : S50000x50.ReducesTo [0, 1] S_
  h_S_ : 0 < S_.numel
  bcast_S_S128x50 : S_.BroadcastsInDim S128x50 (![] : Fin 0 → Fin S128x50.rank)
  reducesTo_S128x50_S_d0_1 : S128x50.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S512x256 : S_.BroadcastsInDim S512x256 (![] : Fin 0 → Fin S512x256.rank)
  reducesTo_S512x256_S_d0_1 : S512x256.ReducesTo [0, 1] S_
  bcast_S_S512 : S_.BroadcastsInDim S512 (![] : Fin 0 → Fin S512.rank)
  reducesTo_S512_S_d0 : S512.ReducesTo [0] S_
  bcast_S_S256x512 : S_.BroadcastsInDim S256x512 (![] : Fin 0 → Fin S256x512.rank)
  reducesTo_S256x512_S_d0_1 : S256x512.ReducesTo [0, 1] S_
  bcast_S_S128x256 : S_.BroadcastsInDim S128x256 (![] : Fin 0 → Fin S128x256.rank)
  reducesTo_S128x256_S_d0_1 : S128x256.ReducesTo [0, 1] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg16 : FVec F S1x128 .f32) (main_arg17 : FVec F S1 .f32) (main_v63 : IVec S_ 1) (main_v67 : IVec S_ 1) : IVec S_ 1 :=
  let main_v68 : IVec S_ 1 := andi main_v63 main_v67
  let main_v69 : FVec F S1x128 .f32 := Host.absf main_arg16
  let main_cst_26 : FVec F S_ .f32 := constant S_ .f32 0x7F800000#32
  let main_v70 : FVec F S1x128 .f32 := broadcastInDim S1x128 ![] bcast_S_S1x128 main_cst_26
  let main_v71 : IVec S1x128 1 := cmpf .olt main_v69 main_v70
  let main_c_27 : IVec S_ 1 := constantI S_ 1 1#1
  let main_v72 : IVec S_ 1 := (fun x v => Host.reduce IntOp.andi x v reducesTo_S1x128_S_d0_1 h_S_) main_v71 main_c_27
  let main_v73 : IVec S_ 1 := andi main_v68 main_v72
  let main_v74 : FVec F S1 .f32 := Host.absf main_arg17
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg13 : FVec F S256 .f32) (main_arg14 : FVec F S128x256 .f32) (main_arg15 : FVec F S128 .f32) (main_arg16 : FVec F S1x128 .f32) (main_arg17 : FVec F S1 .f32) (main_v48 : IVec S_ 1) (main_v49 : FVec F S256x512 .f32) (main_v50 : FVec F S256x512 .f32) : IVec S_ 1 :=
  let main_v51 : IVec S256x512 1 := cmpf .olt main_v49 main_v50
  let main_c_19 : IVec S_ 1 := constantI S_ 1 1#1
  let main_v52 : IVec S_ 1 := (fun x v => Host.reduce IntOp.andi x v reducesTo_S256x512_S_d0_1 h_S_) main_v51 main_c_19
  let main_v53 : IVec S_ 1 := andi main_v48 main_v52
  let main_v54 : FVec F S256 .f32 := Host.absf main_arg13
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S128x256 .f32 := Host.absf main_arg14
  let main_cst_22 : FVec F S_ .f32 := constant S_ .f32 0x7F800000#32
  let main_v60 : FVec F S128x256 .f32 := broadcastInDim S128x256 ![] bcast_S_S128x256 main_cst_22
  let main_v61 : IVec S128x256 1 := cmpf .olt main_v59 main_v60
  let main_c_23 : IVec S_ 1 := constantI S_ 1 1#1
  let main_v62 : IVec S_ 1 := (fun x v => Host.reduce IntOp.andi x v reducesTo_S128x256_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_v63 main_v67

def fn_part2 {F : FTy → Type} [FloatOps F] (main_arg9 : FVec F S512x256 .f32) (main_arg10 : FVec F S512 .f32) (main_arg11 : FVec F S512x256 .f32) (main_arg12 : FVec F S256x512 .f32) (main_arg13 : FVec F S256 .f32) (main_arg14 : FVec F S128x256 .f32) (main_arg15 : FVec F S128 .f32) (main_arg16 : FVec F S1x128 .f32) (main_arg17 : FVec F S1 .f32) (main_v33 : IVec S_ 1) : IVec S_ 1 :=
  let main_v34 : FVec F S512x256 .f32 := Host.absf main_arg9
  let main_cst_12 : FVec F S_ .f32 := constant S_ .f32 0x7F800000#32
  let main_v35 : FVec F S512x256 .f32 := broadcastInDim S512x256 ![] bcast_S_S512x256 main_cst_12
  let main_v36 : IVec S512x256 1 := cmpf .olt main_v34 main_v35
  let main_c_13 : IVec S_ 1 := constantI S_ 1 1#1
  let main_v37 : IVec S_ 1 := (fun x v => Host.reduce IntOp.andi x v reducesTo_S512x256_S_d0_1 h_S_) main_v36 main_c_13
  let main_v38 : IVec S_ 1 := andi main_v33 main_v37
  let main_v39 : FVec F S512 .f32 := Host.absf main_arg10
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x256 .f32 := Host.absf main_arg11
  let main_cst_16 : FVec F S_ .f32 := constant S_ .f32 0x7F800000#32
  let main_v45 : FVec F S512x256 .f32 := broadcastInDim S512x256 ![] bcast_S_S512x256 main_cst_16
  let main_v46 : IVec S512x256 1 := cmpf .olt main_v44 main_v45
  let main_c_17 : IVec S_ 1 := constantI S_ 1 1#1
  let main_v47 : IVec S_ 1 := (fun x v => Host.reduce IntOp.andi x v reducesTo_S512x256_S_d0_1 h_S_) main_v46 main_c_17
  let main_v48 : IVec S_ 1 := andi main_v43 main_v47
  let main_v49 : FVec F S256x512 .f32 := Host.absf main_arg12
  let main_cst_18 : FVec F S_ .f32 := constant S_ .f32 0x7F800000#32
  let main_v50 : FVec F S256x512 .f32 := broadcastInDim S256x512 ![] bcast_S_S256x512 main_cst_18
  fn_part3 (F := F) main_arg13 main_arg14 main_arg15 main_arg16 main_arg17 main_v48 main_v49 main_v50

def fn_part1 {F : FTy → Type} [FloatOps F] (main_arg6 : FVec F S256x128 .f32) (main_arg7 : FVec F S256 .f32) (main_arg8 : FVec F S256x128 .f32) (main_arg9 : FVec F S512x256 .f32) (main_arg10 : FVec F S512 .f32) (main_arg11 : FVec F S512x256 .f32) (main_arg12 : FVec F S256x512 .f32) (main_arg13 : FVec F S256 .f32) (main_arg14 : FVec F S128x256 .f32) (main_arg15 : FVec F S128 .f32) (main_arg16 : FVec F S1x128 .f32) (main_arg17 : FVec F S1 .f32) (main_v13 : IVec S_ 1) (main_v16 : IVec S128x50 1) : IVec S_ 1 :=
  let main_c_5 : IVec S_ 1 := constantI S_ 1 1#1
  let main_v17 : IVec S_ 1 := (fun x v => Host.reduce IntOp.andi x v reducesTo_S128x50_S_d0_1 h_S_) main_v16 main_c_5
  let main_v18 : IVec S_ 1 := andi main_v13 main_v17
  let main_v19 : FVec F S256x128 .f32 := Host.absf main_arg6
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x128 .f32 := Host.absf main_arg8
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg9 main_arg10 main_arg11 main_arg12 main_arg13 main_arg14 main_arg15 main_arg16 main_arg17 main_v33

def fn {F : FTy → Type} [FloatOps F] (main_arg0 : FVec F S50000x50 .f32) (main_arg1 : IVec S2x800000 32) (main_arg2 : IVec S50000 32) (main_arg3 : FVec F S128x50 .f32) (main_arg4 : FVec F S128 .f32) (main_arg5 : FVec F S128x50 .f32) (main_arg6 : FVec F S256x128 .f32) (main_arg7 : FVec F S256 .f32) (main_arg8 : FVec F S256x128 .f32) (main_arg9 : FVec F S512x256 .f32) (main_arg10 : FVec F S512 .f32) (main_arg11 : FVec F S512x256 .f32) (main_arg12 : FVec F S256x512 .f32) (main_arg13 : FVec F S256 .f32) (main_arg14 : FVec F S128x256 .f32) (main_arg15 : FVec F S128 .f32) (main_arg16 : FVec F S1x128 .f32) (main_arg17 : FVec F S1 .f32) : IVec S_ 1 :=
  let main_v0 : FVec F S50000x50 .f32 := Host.absf main_arg0
  let main_cst : FVec F S_ .f32 := constant S_ .f32 0x7F800000#32
  let main_v1 : FVec F S50000x50 .f32 := broadcastInDim S50000x50 ![] bcast_S_S50000x50 main_cst
  let main_v2 : IVec S50000x50 1 := cmpf .olt main_v0 main_v1
  let main_c : IVec S_ 1 := constantI S_ 1 1#1
  let main_v3 : IVec S_ 1 := (fun x v => Host.reduce IntOp.andi x v reducesTo_S50000x50_S_d0_1 h_S_) main_v2 main_c
  let main_v4 : FVec F S128x50 .f32 := Host.absf main_arg3
  let main_cst_0 : FVec F S_ .f32 := constant S_ .f32 0x7F800000#32
  let main_v5 : FVec F S128x50 .f32 := broadcastInDim S128x50 ![] bcast_S_S128x50 main_cst_0
  let main_v6 : IVec S128x50 1 := cmpf .olt main_v4 main_v5
  let main_c_1 : IVec S_ 1 := constantI S_ 1 1#1
  let main_v7 : IVec S_ 1 := (fun x v => Host.reduce IntOp.andi x v reducesTo_S128x50_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x50 .f32 := Host.absf main_arg5
  let main_cst_4 : FVec F S_ .f32 := constant S_ .f32 0x7F800000#32
  let main_v15 : FVec F S128x50 .f32 := broadcastInDim S128x50 ![] bcast_S_S128x50 main_cst_4
  let main_v16 : IVec S128x50 1 := cmpf .olt main_v14 main_v15
  fn_part1 (F := F) main_arg6 main_arg7 main_arg8 main_arg9 main_arg10 main_arg11 main_arg12 main_arg13 main_arg14 main_arg15 main_arg16 main_arg17 main_v13 main_v16
-- ==== Kernel.lean ====
abbrev S50000x50 : Shape := ⟨2, ![50000, 50]⟩
abbrev S2x800000 : Shape := ⟨2, ![2, 800000]⟩
abbrev S50000 : Shape := ⟨1, ![50000]⟩
abbrev S128x50 : Shape := ⟨2, ![128, 50]⟩
abbrev S128 : Shape := ⟨1, ![128]⟩
abbrev S256x128 : Shape := ⟨2, ![256, 128]⟩
abbrev S256 : Shape := ⟨1, ![256]⟩
abbrev S512x256 : Shape := ⟨2, ![512, 256]⟩
abbrev S512 : Shape := ⟨1, ![512]⟩
abbrev S256x512 : Shape := ⟨2, ![256, 512]⟩
abbrev S128x256 : Shape := ⟨2, ![128, 256]⟩
abbrev S1x128 : Shape := ⟨2, ![1, 128]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S800000x50 : Shape := ⟨2, ![800000, 50]⟩
abbrev S50000x128 : Shape := ⟨2, ![50000, 128]⟩
abbrev S1000x50 : Shape := ⟨2, ![1000, 50]⟩
abbrev S1000x128 : Shape := ⟨2, ![1000, 128]⟩
abbrev S800000x128 : Shape := ⟨2, ![800000, 128]⟩
abbrev S1x256 : Shape := ⟨2, ![1, 256]⟩
abbrev S50000x256 : Shape := ⟨2, ![50000, 256]⟩
abbrev S1000x256 : Shape := ⟨2, ![1000, 256]⟩
abbrev S800000x256 : Shape := ⟨2, ![800000, 256]⟩
abbrev S1x512 : Shape := ⟨2, ![1, 512]⟩
abbrev S50000x512 : Shape := ⟨2, ![50000, 512]⟩
abbrev S1000x512 : Shape := ⟨2, ![1000, 512]⟩
abbrev S512x512 : Shape := ⟨2, ![512, 512]⟩
abbrev S512x1 : Shape := ⟨2, ![512, 1]⟩
abbrev S1x1 : Shape := ⟨2, ![1, 1]⟩
abbrev S512x128 : Shape := ⟨2, ![512, 128]⟩

abbrev nBuf : Space → Nat
  | .hbm => 106
  | .vmem => 35
  | .smem => 0
  | _ => 0

abbrev bufTy : (tb : Table) → Fin (tcTables nBuf tb) → BufTy
  | .hbm, ⟨0, _⟩ => ⟨S50000x50, .f32⟩
  | .hbm, ⟨1, _⟩ => ⟨S2x800000, .i32⟩
  | .hbm, ⟨2, _⟩ => ⟨S50000, .i32⟩
  | .hbm, ⟨3, _⟩ => ⟨S128x50, .f32⟩
  | .hbm, ⟨4, _⟩ => ⟨S128, .f32⟩
  | .hbm, ⟨5, _⟩ => ⟨S128x50, .f32⟩
  | .hbm, ⟨6, _⟩ => ⟨S256x128, .f32⟩
  | .hbm, ⟨7, _⟩ => ⟨S256, .f32⟩
  | .hbm, ⟨8, _⟩ => ⟨S256x128, .f32⟩
  | .hbm, ⟨9, _⟩ => ⟨S512x256, .f32⟩
  | .hbm, ⟨10, _⟩ => ⟨S512, .f32⟩
  | .hbm, ⟨11, _⟩ => ⟨S512x256, .f32⟩
  | .hbm, ⟨12, _⟩ => ⟨S256x512, .f32⟩
  | .hbm, ⟨13, _⟩ => ⟨S256, .f32⟩
  | .hbm, ⟨14, _⟩ => ⟨S128x256, .f32⟩
  | .hbm, ⟨15, _⟩ => ⟨S128, .f32⟩
  | .hbm, ⟨16, _⟩ => ⟨S1x128, .f32⟩
  | .hbm, ⟨17, _⟩ => ⟨S1, .f32⟩
  | .hbm, ⟨18, _⟩ => ⟨S1x800000, .i32⟩
  | .hbm, ⟨19, _⟩ => ⟨S800000, .i32⟩
  | .hbm, ⟨20, _⟩ => ⟨S1x800000, .i32⟩
  | .hbm, ⟨21, _⟩ => ⟨S800000, .i32⟩
  | .hbm, ⟨22, _⟩ => ⟨S_, .f32⟩
  | .hbm, ⟨23, _⟩ => ⟨S800000, .f32⟩
  | .hbm, ⟨24, _⟩ => ⟨S_, .f32⟩
  | .hbm, ⟨25, _⟩ => ⟨S50000, .f32⟩
  | .hbm, ⟨26, _⟩ => ⟨S800000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x50, .f32⟩
  | .hbm, ⟨44, _⟩ => ⟨S_, .f32⟩
  | .hbm, ⟨45, _⟩ => ⟨S50000x50, .f32⟩
  | .hbm, ⟨46, _⟩ => ⟨S800000x1, .i32⟩
  | .hbm, ⟨47, _⟩ => ⟨S50000x50, .f32⟩
  | .hbm, ⟨48, _⟩ => ⟨S50000x50, .f32⟩
  | .hbm, ⟨49, _⟩ => ⟨S50000x50, .f32⟩
  | .hbm, ⟨50, _⟩ => ⟨S1x128, .f32⟩
  | .hbm, ⟨51, _⟩ => ⟨S50000x128, .f32⟩
  | .hbm, ⟨52, _⟩ => ⟨S_, .i32⟩
  | .hbm, ⟨53, _⟩ => ⟨S800000, .i32⟩
  | .hbm, ⟨54, _⟩ => ⟨S800000, .i1⟩
  | .hbm, ⟨55, _⟩ => ⟨S_, .i32⟩
  | .hbm, ⟨56, _⟩ => ⟨S800000, .i32⟩
  | .hbm, ⟨57, _⟩ => ⟨S800000, .i32⟩
  | .hbm, ⟨58, _⟩ => ⟨S800000, .i32⟩
  | .hbm, ⟨59, _⟩ => ⟨S800000x1, .i32⟩
  | .hbm, ⟨60, _⟩ => ⟨S800000x128, .f32⟩
  | .hbm, ⟨61, _⟩ => ⟨S_, .f32⟩
  | .hbm, ⟨62, _⟩ => ⟨S50000x128, .f32⟩
  | .hbm, ⟨63, _⟩ => ⟨S800000x1, .i32⟩
  | .hbm, ⟨64, _⟩ => ⟨S50000x128, .f32⟩
  | .hbm, ⟨65, _⟩ => ⟨S50000x128, .f32⟩
  | .hbm, ⟨66, _⟩ => ⟨S50000x128, .f32⟩
  | .hbm, ⟨67, _⟩ => ⟨S1x256, .f32⟩
  | .hbm, ⟨68, _⟩ => ⟨S50000x256, .f32⟩
  | .hbm, ⟨69, _⟩ => ⟨S_, .i32⟩
  | .hbm, ⟨70, _⟩ => ⟨S800000, .i32⟩
  | .hbm, ⟨71, _⟩ => ⟨S800000, .i1⟩
  | .hbm, ⟨72, _⟩ => ⟨S_, .i32⟩
  | .hbm, ⟨73, _⟩ => ⟨S800000, .i32⟩
  | .hbm, ⟨74, _⟩ => ⟨S800000, .i32⟩
  | .hbm, ⟨75, _⟩ => ⟨S800000, .i32⟩
  | .hbm, ⟨76, _⟩ => ⟨S800000x1, .i32⟩
  | .hbm, ⟨77, _⟩ => ⟨S800000x256, .f32⟩
  | .hbm, ⟨78, _⟩ => ⟨S_, .f32⟩
  | .hbm, ⟨79, _⟩ => ⟨S50000x256, .f32⟩
  | .hbm, ⟨80, _⟩ => ⟨S800000x1, .i32⟩
  | .hbm, ⟨81, _⟩ => ⟨S50000x256, .f32⟩
  | .hbm, ⟨82, _⟩ => ⟨S50000x256, .f32⟩
  | .hbm, ⟨83, _⟩ => ⟨S50000x256, .f32⟩
  | .hbm, ⟨84, _⟩ => ⟨S1x512, .f32⟩
  | .hbm, ⟨85, _⟩ => ⟨S50000x512, .f32⟩
  | .hbm, ⟨86, _⟩ => ⟨S_, .f32⟩
  | .hbm, ⟨87, _⟩ => ⟨S512x512, .f32⟩
  | .hbm, ⟨88, _⟩ => ⟨S50000x1, .i32⟩
  | .hbm, ⟨89, _⟩ => ⟨S512x512, .f32⟩
  | .hbm, ⟨90, _⟩ => ⟨S_, .f32⟩
  | .hbm, ⟨91, _⟩ => ⟨S50000, .f32⟩
  | .hbm, ⟨92, _⟩ => ⟨S_, .f32⟩
  | .hbm, ⟨93, _⟩ => ⟨S512, .f32⟩
  | .hbm, ⟨94, _⟩ => ⟨S50000x1, .i32⟩
  | .hbm, ⟨95, _⟩ => ⟨S512, .f32⟩
  | .hbm, ⟨96, _⟩ => ⟨S_, .f32⟩
  | .hbm, ⟨97, _⟩ => ⟨S512, .f32⟩
  | .hbm, ⟨98, _⟩ => ⟨S512, .f32⟩
  | .hbm, ⟨99, _⟩ => ⟨S512x1, .f32⟩
  | .hbm, ⟨100, _⟩ => ⟨S512x512, .f32⟩
  | .hbm, ⟨101, _⟩ => ⟨S512x512, .f32⟩
  | .hbm, ⟨102, _⟩ => ⟨S1x256, .f32⟩
  | .hbm, ⟨103, _⟩ => ⟨S1x128, .f32⟩
  | .hbm, ⟨104, _⟩ => ⟨S1x1, .f32⟩
  | .hbm, ⟨105, _⟩ => ⟨S512x1, .f32⟩
  | .local _ .vmem, ⟨0, _⟩ => ⟨S1000x50, .f32⟩
  | .local _ .vmem, ⟨1, _⟩ => ⟨S1000x50, .f32⟩
  | .local _ .vmem, ⟨2, _⟩ => ⟨S1000x50, .f32⟩
  | .local _ .vmem, ⟨3, _⟩ => ⟨S1000x50, .f32⟩
  | .local _ .vmem, ⟨4, _⟩ => ⟨S128x50, .f32⟩
  | .local _ .vmem, ⟨5, _⟩ => ⟨S1x128, .f32⟩
  | .local _ .vmem, ⟨6, _⟩ => ⟨S128x50, .f32⟩
  | .local _ .vmem, ⟨7, _⟩ => ⟨S1000x128, .f32⟩
  | .local _ .vmem, ⟨8, _⟩ => ⟨S1000x128, .f32⟩
  | .local _ .vmem, ⟨9, _⟩ => ⟨S1000x128, .f32⟩
  | .local _ .vmem, ⟨10, _⟩ => ⟨S1000x128, .f32⟩
  | .local _ .vmem, ⟨11, _⟩ => ⟨S1000x128, .f32⟩
  | .local _ .vmem, ⟨12, _⟩ => ⟨S1000x128, .f32⟩
  | .local _ .vmem, ⟨13, _⟩ => ⟨S256x128, .f32⟩
  | .local _ .vmem, ⟨14, _⟩ => ⟨S1x256, .f32⟩
  | .local _ .vmem, ⟨15, _⟩ => ⟨S256x128, .f32⟩
  | .local _ .vmem, ⟨16, _⟩ => ⟨S1000x256, .f32⟩
  | .local _ .vmem, ⟨17, _⟩ => ⟨S1000x256, .f32⟩
  | .local _ .vmem, ⟨18, _⟩ => ⟨S1000x256, .f32⟩
  | .local _ .vmem, ⟨19, _⟩ => ⟨S1000x256, .f32⟩
  | .local _ .vmem, ⟨20, _⟩ => ⟨S1000x256, .f32⟩
  | .local _ .vmem, ⟨21, _⟩ => ⟨S1000x256, .f32⟩
  | .local _ .vmem, ⟨22, _⟩ => ⟨S512x256, .f32⟩
  | .local _ .vmem, ⟨23, _⟩ => ⟨S1x512, .f32⟩
  | .local _ .vmem, ⟨24, _⟩ => ⟨S512x256, .f32⟩
  | .local _ .vmem, ⟨25, _⟩ => ⟨S1000x512, .f32⟩
  | .local _ .vmem, ⟨26, _⟩ => ⟨S1000x512, .f32⟩
  | .local _ .vmem, ⟨27, _⟩ => ⟨S512x512, .f32⟩
  | .local _ .vmem, ⟨28, _⟩ => ⟨S256x512, .f32⟩
  | .local _ .vmem, ⟨29, _⟩ => ⟨S1x256, .f32⟩
  | .local _ .vmem, ⟨30, _⟩ => ⟨S128x256, .f32⟩
  | .local _ .vmem, ⟨31, _⟩ => ⟨S1x128, .f32⟩
  | .local _ .vmem, ⟨32, _⟩ => ⟨S1x128, .f32⟩
  | .local _ .vmem, ⟨33, _⟩ => ⟨S1x1, .f32⟩
  | .local _ .vmem, ⟨34, _⟩ => ⟨S512x1, .f32⟩
  | _, _ => ⟨S50000x50, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_cst_0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_1 : Ref sig .tc := ⟨.hbm, 28, rfl⟩
abbrev main_v8 : Ref sig .tc := ⟨.hbm, 29, rfl⟩
abbrev main_v9 : Ref sig .tc := ⟨.hbm, 30, rfl⟩
abbrev main_cst_2 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_c : Ref sig .tc := ⟨.hbm, 35, rfl⟩
abbrev main_v13 : Ref sig .tc := ⟨.hbm, 36, rfl⟩
abbrev main_v14 : Ref sig .tc := ⟨.hbm, 37, rfl⟩
abbrev main_c_3 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_cst_4 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_c_5 : Ref sig .tc := ⟨.hbm, 52, rfl⟩
abbrev main_v27 : Ref sig .tc := ⟨.hbm, 53, rfl⟩
abbrev main_v28 : Ref sig .tc := ⟨.hbm, 54, rfl⟩
abbrev main_c_6 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_7 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_c_8 : Ref sig .tc := ⟨.hbm, 69, rfl⟩
abbrev main_v41 : Ref sig .tc := ⟨.hbm, 70, rfl⟩
abbrev main_v42 : Ref sig .tc := ⟨.hbm, 71, rfl⟩
abbrev main_c_9 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_10 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_11 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_12 : Ref sig .tc := ⟨.hbm, 90, rfl⟩
abbrev main_v58 : Ref sig .tc := ⟨.hbm, 91, rfl⟩
abbrev main_cst_13 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_14 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg6_0 : Ref sig .tc := ⟨.vmem, 33, rfl⟩
abbrev cc3_stg7_0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem1_0 : DmaSem sig := 28
abbrev cc3_sem2_0 : DmaSem sig := 29
abbrev cc3_sem3_0 : DmaSem sig := 30
abbrev cc3_sem4_0 : DmaSem sig := 31
abbrev cc3_sem5_0 : DmaSem sig := 32
abbrev cc3_sem6_0 : DmaSem sig := 33
abbrev cc3_sem7_0 : DmaSem sig := 34

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x50 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x50 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x50 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x50 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S512x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S512x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1000x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S512x512 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S256x512 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S512x1 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x50 : S_.BroadcastsInDim S50000x50 (![] : Fin 0 → Fin S50000x50.rank)
  bcast_S50000x1_S50000x50_0_1 : S50000x1.BroadcastsInDim S50000x50 (![0, 1] : Fin 2 → Fin S50000x50.rank)
  shapeCasts_S128_S1x128 : S128.ShapeCasts S1x128
  inb_S1000x50_S1000x50_0_0 : ∀ a, (![0, 0] : Fin 2 → Nat) a + S1000x50.size a ≤ S1000x50.size a
  h_S1000x50 : 0 < S1000x50.numel
  shapeCasts_S1000x50_S1000x50 : S1000x50.ShapeCasts S1000x50
  bitsLt_bf16_f32 : FTy.bits .bf16 < FTy.bits .f32
  inb_S128x50_S128x50_0_0 : ∀ a, (![0, 0] : Fin 2 → Nat) a + S128x50.size a ≤ S128x50.size a
  h_S128x50 : 0 < S128x50.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  inb_S1000x128_S1000x128_0_0 : ∀ a, (![0, 0] : Fin 2 → Nat) a + S1000x128.size a ≤ S1000x128.size a
  h_S1000x128 : 0 < S1000x128.numel
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S256_S1x256 : S256.ShapeCasts S1x256
  shapeCasts_S1000x128_S1000x128 : S1000x128.ShapeCasts S1000x128
  inb_S256x128_S256x128_0_0 : ∀ a, (![0, 0] : Fin 2 → Nat) a + S256x128.size a ≤ S256x128.size a
  h_S256x128 : 0 < S256x128.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  inb_S1000x256_S1000x256_0_0 : ∀ a, (![0, 0] : Fin 2 → Nat) a + S1000x256.size a ≤ S1000x256.size a
  h_S1000x256 : 0 < S1000x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  shapeCasts_S512_S1x512 : S512.ShapeCasts S1x512
  shapeCasts_S1000x256_S1000x256 : S1000x256.ShapeCasts S1000x256
  inb_S512x256_S512x256_0_0 : ∀ a, (![0, 0] : Fin 2 → Nat) a + S512x256.size a ≤ S512x256.size a
  h_S512x256 : 0 < S512x256.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  inb_S1000x512_S1000x512_0_0 : ∀ a, (![0, 0] : Fin 2 → Nat) a + S1000x512.size a ≤ S1000x512.size a
  h_S1000x512 : 0 < S1000x512.numel
  bcast_S_S512x512 : S_.BroadcastsInDim S512x512 (![] : Fin 0 → Fin S512x512.rank)
  bcast_S_S512 : S_.BroadcastsInDim S512 (![] : Fin 0 → Fin S512.rank)
  bcast_S512_S512x1_0 : S512.BroadcastsInDim S512x1 (![0] : Fin 1 → Fin S512x1.rank)
  bcast_S512x1_S512x512_0_1 : S512x1.BroadcastsInDim S512x512 (![0, 1] : Fin 2 → Fin S512x512.rank)
  shapeCasts_S1_S1x1 : S1.ShapeCasts S1x1
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S256x512_S256x512_0_0 : ∀ a, (![0, 0] : Fin 2 → Nat) a + S256x512.size a ≤ S256x512.size a
  h_S256x512 : 0 < S256x512.numel
  inb_S128x256_S128x256_0_0 : ∀ a, (![0, 0] : Fin 2 → Nat) a + S128x256.size a ≤ S128x256.size a
  h_S128x256 : 0 < S128x256.numel
  broadcasts_S1x256_S512x256 : S1x256.Broadcasts S512x256
  broadcasts_S1x128_S512x128 : S1x128.Broadcasts S512x128
  reduces_S512x128_S512 : S512x128.Reduces [1] S512
  shapeCasts_S512_S512x1 : S512.ShapeCasts S512x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  scatter_S50000_S800000x1_S800000_n_0_0_1_wf : ScatterDims.WF S50000 S800000x1 S800000 [] [0] [0] 1
  gather_S50000x50_S800000x1_S800000x50_1_0_n_n_0_1_150_wf : GatherDims.WF S50000x50 S800000x1 S800000x50 [1] [0] [] [0] [] 1 ![1, 50]
  scatter_S50000x50_S800000x1_S800000x50_1_0_0_1_wf : ScatterDims.WF S50000x50 S800000x1 S800000x50 [1] [0] [0] 1
  dot_S1000x50_S128x50_S1000x128_1_1_0_0_n_n_wf : DotDims.WF S1000x50 S128x50 S1000x128 [1] [1] [0] [0] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S1000x128_S256x128_S1000x256_1_1_0_0_n_n_wf : DotDims.WF S1000x128 S256x128 S1000x256 [1] [1] [0] [0] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S1000x256_S512x256_S1000x512_1_1_0_0_n_n_wf : DotDims.WF S1000x256 S512x256 S1000x512 [1] [1] [0] [0] [] []
  scatter_S512x512_S50000x1_S50000x512_1_0_0_1_wf : ScatterDims.WF S512x512 S50000x1 S50000x512 [1] [0] [0] 1
  scatter_S512_S50000x1_S50000_n_0_0_1_wf : ScatterDims.WF S512 S50000x1 S50000 [] [0] [0] 1
  dot_S512x512_S256x512_S512x256_1_1_0_0_n_n_wf : DotDims.WF S512x512 S256x512 S512x256 [1] [1] [0] [0] [] []
  dot_S512x256_S128x256_S512x128_1_1_0_0_n_n_wf : DotDims.WF S512x256 S128x256 S512x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x50.size a ≤ S50000x50.size a
  hwx0_0 : ∀ i : grid0.Coords, EltTy.bits .f32 = 32 ∨ (Rect.block (s := S50000x50) S1000x50.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x50.size a ≤ S50000x50.size a
  hwx0_1 : ∀ i : grid0.Coords, EltTy.bits .f32 = 32 ∨ (Rect.block (s := S50000x50) S1000x50.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x50.size a ≤ S128x50.size a
  hwx0_2 : ∀ i : grid0.Coords, EltTy.bits .f32 = 32 ∨ (Rect.block (s := S128x50) S128x50.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x50.size a ≤ S128x50.size a
  hwx0_4 : ∀ i : grid0.Coords, EltTy.bits .f32 = 32 ∨ (Rect.block (s := S128x50) S128x50.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x128.size a ≤ S50000x128.size a
  hwx0_5 : ∀ i : grid0.Coords, EltTy.bits .f32 = 32 ∨ (Rect.block (s := S50000x128) S1000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S50000x128.size a
  hwx1_0 : ∀ i : grid1.Coords, EltTy.bits .f32 = 32 ∨ (Rect.block (s := S50000x128) S1000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x128.size a ≤ S50000x128.size a
  hwx1_1 : ∀ i : grid1.Coords, EltTy.bits .f32 = 32 ∨ (Rect.block (s := S50000x128) S1000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x128.size a ≤ S256x128.size a
  hwx1_4 : ∀ i : grid1.Coords, EltTy.bits .f32 = 32 ∨ (Rect.block (s := S256x128) S256x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1000x256.size a ≤ S50000x256.size a
  hwx1_5 : ∀ i : grid1.Coords, EltTy.bits .f32 = 32 ∨ (Rect.block (s := S50000x256) S1000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x256.size a ≤ S50000x256.size a
  hwx2_0 : ∀ i : grid2.Coords, EltTy.bits .f32 = 32 ∨ (Rect.block (s := S50000x256) S1000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x256.size a ≤ S50000x256.size a
  hwx2_1 : ∀ i : grid2.Coords, EltTy.bits .f32 = 32 ∨ (Rect.block (s := S50000x256) S1000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512x256.size a ≤ S512x256.size a
  hwx2_2 : ∀ i : grid2.Coords, EltTy.bits .f32 = 32 ∨ (Rect.block (s := S512x256) S512x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x512.size a ≤ S1x512.size a
  hwx2_3 : ∀ i : grid2.Coords, EltTy.bits .f32 = 32 ∨ (Rect.block (s := S1x512) S1x512.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S512x256.size a ≤ S512x256.size a
  hwx2_4 : ∀ i : grid2.Coords, EltTy.bits .f32 = 32 ∨ (Rect.block (s := S512x256) S512x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1000x512.size a ≤ S50000x512.size a
  hwx2_5 : ∀ i : grid2.Coords, EltTy.bits .f32 = 32 ∨ (Rect.block (s := S50000x512) S1000x512.size (cc2_transform_5 i) (hinb2_5 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S512x512.size a ≤ S512x512.size a
  hwx3_0 : ∀ i : grid3.Coords, EltTy.bits .f32 = 32 ∨ (Rect.block (s := S512x512) S512x512.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x512.size a ≤ S256x512.size a
  hwx3_1 : ∀ i : grid3.Coords, EltTy.bits .f32 = 32 ∨ (Rect.block (s := S256x512) S256x512.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x256.size a ≤ S128x256.size a
  hwx3_3 : ∀ i : grid3.Coords, EltTy.bits .f32 = 32 ∨ (Rect.block (s := S128x256) S128x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x1.size a ≤ S1x1.size a
  hwx3_6 : ∀ i : grid3.Coords, EltTy.bits .f32 = 32 ∨ (Rect.block (s := S1x1) S1x1.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S512x1.size a ≤ S512x1.size a
  hwx3_7 : ∀ i : grid3.Coords, EltTy.bits .f32 = 32 ∨ (Rect.block (s := S512x1) S512x1.size (cc3_transform_7 i) (hinb3_7 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x50_S800000x1_S800000x50_1_0_n_n_0_1_150 : GatherDims S50000x50 S800000x1 S800000x50 where
  offsetDims := [1]
  collapsedSliceDims := [0]
  operandBatchingDims := []
  startIndicesBatchingDims := []
  startIndexMap := [0]
  indexVectorDim := 1
  sliceSizes := ![1, 50]
  wf := gather_S50000x50_S800000x1_S800000x50_1_0_n_n_0_1_150_wf
def scatter_S50000x50_S800000x1_S800000x50_1_0_0_1 : ScatterDims S50000x50 S800000x1 S800000x50 where
  updateWindowDims := [1]
  insertedWindowDims := [0]
  scatterDimsToOperandDims := [0]
  indexVectorDim := 1
  wf := scatter_S50000x50_S800000x1_S800000x50_1_0_0_1_wf
def dot_S1000x50_S128x50_S1000x128_1_1_0_0_n_n : DotDims S1000x50 S128x50 S1000x128 where
  lhsContracting := [1]
  rhsContracting := [1]
  lhsNonContracting := [0]
  rhsNonContracting := [0]
  lhsBatch := []
  rhsBatch := []
  wf := dot_S1000x50_S128x50_S1000x128_1_1_0_0_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S1000x128_S256x128_S1000x256_1_1_0_0_n_n : DotDims S1000x128 S256x128 S1000x256 where
  lhsContracting := [1]
  rhsContracting := [1]
  lhsNonContracting := [0]
  rhsNonContracting := [0]
  lhsBatch := []
  rhsBatch := []
  wf := dot_S1000x128_S256x128_S1000x256_1_1_0_0_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S1000x256_S512x256_S1000x512_1_1_0_0_n_n : DotDims S1000x256 S512x256 S1000x512 where
  lhsContracting := [1]
  rhsContracting := [1]
  lhsNonContracting := [0]
  rhsNonContracting := [0]
  lhsBatch := []
  rhsBatch := []
  wf := dot_S1000x256_S512x256_S1000x512_1_1_0_0_n_n_wf
def scatter_S512x512_S50000x1_S50000x512_1_0_0_1 : ScatterDims S512x512 S50000x1 S50000x512 where
  updateWindowDims := [1]
  insertedWindowDims := [0]
  scatterDimsToOperandDims := [0]
  indexVectorDim := 1
  wf := scatter_S512x512_S50000x1_S50000x512_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x512_S256x512_S512x256_1_1_0_0_n_n : DotDims S512x512 S256x512 S512x256 where
  lhsContracting := [1]
  rhsContracting := [1]
  lhsNonContracting := [0]
  rhsNonContracting := [0]
  lhsBatch := []
  rhsBatch := []
  wf := dot_S512x512_S256x512_S512x256_1_1_0_0_n_n_wf
def dot_S512x256_S128x256_S512x128_1_1_0_0_n_n : DotDims S512x256 S128x256 S512x128 where
  lhsContracting := [1]
  rhsContracting := [1]
  lhsNonContracting := [0]
  rhsNonContracting := [0]
  lhsBatch := []
  rhsBatch := []
  wf := dot_S512x256_S128x256_S512x128_1_1_0_0_n_n_wf

abbrev win0_0 : Pipeline.Window sig grid0 :=
  Pipeline.Window.ofSpec (Memref.whole main_v24) S1000x50.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1000x50.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x50.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x50.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S1000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S1000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S256x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S1000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v52) S1000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S1000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S512x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v53) S1x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S512x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v54) S1000x512.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v66) S512x512.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg12) S256x512.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v67) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg14) S128x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v68) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg16) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v69) S1x1.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v70) S512x1.size cc3_transform_7 reads3_7 true true 1 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S50000x50 : Shape := ⟨2, ![50000, 50]⟩
abbrev S2x800000 : Shape := ⟨2, ![2, 800000]⟩
abbrev S50000 : Shape := ⟨1, ![50000]⟩
abbrev S128x50 : Shape := ⟨2, ![128, 50]⟩
abbrev S128 : Shape := ⟨1, ![128]⟩
abbrev S256x128 : Shape := ⟨2, ![256, 128]⟩
abbrev S256 : Shape := ⟨1, ![256]⟩
abbrev S512x256 : Shape := ⟨2, ![512, 256]⟩
abbrev S512 : Shape := ⟨1, ![512]⟩
abbrev S256x512 : Shape := ⟨2, ![256, 512]⟩
abbrev S128x256 : Shape := ⟨2, ![128, 256]⟩
abbrev S1x128 : Shape := ⟨2, ![1, 128]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S800000x50 : Shape := ⟨2, ![800000, 50]⟩
abbrev S50x128 : Shape := ⟨2, ![50, 128]⟩
abbrev S50000x128 : Shape := ⟨2, ![50000, 128]⟩
abbrev S800000x128 : Shape := ⟨2, ![800000, 128]⟩
abbrev S50000x256 : Shape := ⟨2, ![50000, 256]⟩
abbrev S1x256 : Shape := ⟨2, ![1, 256]⟩
abbrev S800000x256 : Shape := ⟨2, ![800000, 256]⟩
abbrev S50000x512 : Shape := ⟨2, ![50000, 512]⟩
abbrev S1x512 : Shape := ⟨2, ![1, 512]⟩
abbrev S512x512 : Shape := ⟨2, ![512, 512]⟩
abbrev S512x1 : Shape := ⟨2, ![512, 1]⟩
abbrev S512x128 : Shape := ⟨2, ![512, 128]⟩
abbrev S128x1 : Shape := ⟨2, ![128, 1]⟩
abbrev S1x1 : Shape := ⟨2, ![1, 1]⟩

abbrev nBuf : Space → Nat
  | .hbm => 162
  | .vmem => 0
  | .smem => 0
  | _ => 0

abbrev hbmTy0_0 (i : Nat) : BufTy := match i % 128 with
  | 0 => ⟨S50000x50, .f32⟩
  | 1 => ⟨S2x800000, .i32⟩
  | 2 => ⟨S50000, .i32⟩
  | 3 => ⟨S128x50, .f32⟩
  | 4 => ⟨S128, .f32⟩
  | 5 => ⟨S128x50, .f32⟩
  | 6 => ⟨S256x128, .f32⟩
  | 7 => ⟨S256, .f32⟩
  | 8 => ⟨S256x128, .f32⟩
  | 9 => ⟨S512x256, .f32⟩
  | 10 => ⟨S512, .f32⟩
  | 11 => ⟨S512x256, .f32⟩
  | 12 => ⟨S256x512, .f32⟩
  | 13 => ⟨S256, .f32⟩
  | 14 => ⟨S128x256, .f32⟩
  | 15 => ⟨S128, .f32⟩
  | 16 => ⟨S1x128, .f32⟩
  | 17 => ⟨S1, .f32⟩
  | 18 => ⟨S1x800000, .i32⟩
  | 19 => ⟨S800000, .i32⟩
  | 20 => ⟨S1x800000, .i32⟩
  | 21 => ⟨S800000, .i32⟩
  | 22 => ⟨S_, .f32⟩
  | 23 => ⟨S800000, .f32⟩
  | 24 => ⟨S_, .f32⟩
  | 25 => ⟨S50000, .f32⟩
  | 26 => ⟨S800000x1, .i32⟩
  | 27 => ⟨S50000, .f32⟩
  | 28 => ⟨S_, .f32⟩
  | 29 => ⟨S50000, .f32⟩
  | 30 => ⟨S50000, .f32⟩
  | 31 => ⟨S_, .f32⟩
  | 32 => ⟨S50000, .f32⟩
  | 33 => ⟨S50000, .f32⟩
  | 34 => ⟨S50000x1, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000x50, .f32⟩
  | 44 => ⟨S_, .f32⟩
  | 45 => ⟨S50000x50, .f32⟩
  | 46 => ⟨S800000x1, .i32⟩
  | 47 => ⟨S50000x50, .f32⟩
  | 48 => ⟨S50000x50, .f32⟩
  | 49 => ⟨S50000x50, .f32⟩
  | 50 => ⟨S50x128, .f32⟩
  | 51 => ⟨S50000x128, .f32⟩
  | 52 => ⟨S1x128, .f32⟩
  | 53 => ⟨S50000x128, .f32⟩
  | 54 => ⟨S50000x128, .f32⟩
  | 55 => ⟨S50x128, .f32⟩
  | 56 => ⟨S50000x128, .f32⟩
  | 57 => ⟨S50000x128, .f32⟩
  | 58 => ⟨S_, .f32⟩
  | 59 => ⟨S50000x128, .f32⟩
  | 60 => ⟨S50000x128, .i1⟩
  | 61 => ⟨S_, .f32⟩
  | 62 => ⟨S50000x128, .f32⟩
  | 63 => ⟨S50000x128, .f32⟩
  | 64 => ⟨S50000x128, .f32⟩
  | 65 => ⟨S_, .i32⟩
  | 66 => ⟨S800000, .i32⟩
  | 67 => ⟨S800000, .i1⟩
  | 68 => ⟨S_, .i32⟩
  | 69 => ⟨S800000, .i32⟩
  | 70 => ⟨S800000, .i32⟩
  | 71 => ⟨S800000, .i32⟩
  | 72 => ⟨S800000x1, .i32⟩
  | 73 => ⟨S800000x128, .f32⟩
  | 74 => ⟨S_, .f32⟩
  | 75 => ⟨S50000x128, .f32⟩
  | 76 => ⟨S800000x1, .i32⟩
  | 77 => ⟨S50000x128, .f32⟩
  | 78 => ⟨S50000x128, .f32⟩
  | 79 => ⟨S50000x128, .f32⟩
  | 80 => ⟨S128x256, .f32⟩
  | 81 => ⟨S50000x256, .f32⟩
  | 82 => ⟨S1x256, .f32⟩
  | 83 => ⟨S50000x256, .f32⟩
  | 84 => ⟨S50000x256, .f32⟩
  | 85 => ⟨S128x256, .f32⟩
  | 86 => ⟨S50000x256, .f32⟩
  | 87 => ⟨S50000x256, .f32⟩
  | 88 => ⟨S_, .f32⟩
  | 89 => ⟨S50000x256, .f32⟩
  | 90 => ⟨S50000x256, .f32⟩
  | 91 => ⟨S_, .i32⟩
  | 92 => ⟨S800000, .i32⟩
  | 93 => ⟨S800000, .i1⟩
  | 94 => ⟨S_, .i32⟩
  | 95 => ⟨S800000, .i32⟩
  | 96 => ⟨S800000, .i32⟩
  | 97 => ⟨S800000, .i32⟩
  | 98 => ⟨S800000x1, .i32⟩
  | 99 => ⟨S800000x256, .f32⟩
  | 100 => ⟨S_, .f32⟩
  | 101 => ⟨S50000x256, .f32⟩
  | 102 => ⟨S800000x1, .i32⟩
  | 103 => ⟨S50000x256, .f32⟩
  | 104 => ⟨S50000x256, .f32⟩
  | 105 => ⟨S50000x256, .f32⟩
  | 106 => ⟨S256x512, .f32⟩
  | 107 => ⟨S50000x512, .f32⟩
  | 108 => ⟨S1x512, .f32⟩
  | 109 => ⟨S50000x512, .f32⟩
  | 110 => ⟨S50000x512, .f32⟩
  | 111 => ⟨S256x512, .f32⟩
  | 112 => ⟨S50000x512, .f32⟩
  | 113 => ⟨S50000x512, .f32⟩
  | 114 => ⟨S_, .f32⟩
  | 115 => ⟨S50000x512, .f32⟩
  | 116 => ⟨S50000x512, .f32⟩
  | 117 => ⟨S_, .f32⟩
  | 118 => ⟨S512x512, .f32⟩
  | 119 => ⟨S50000x1, .i32⟩
  | 120 => ⟨S512x512, .f32⟩
  | 121 => ⟨S_, .f32⟩
  | 122 => ⟨S50000, .f32⟩
  | 123 => ⟨S_, .f32⟩
  | 124 => ⟨S512, .f32⟩
  | 125 => ⟨S50000x1, .i32⟩
  | 126 => ⟨S512, .f32⟩
  | 127 => ⟨S_, .f32⟩
  | _ => ⟨S50000x50, .f32⟩

abbrev hbmTy0_1 (i : Nat) : BufTy := match i % 128 with
  | 0 => ⟨S512, .f32⟩
  | 1 => ⟨S512, .f32⟩
  | 2 => ⟨S512x1, .f32⟩
  | 3 => ⟨S512x512, .f32⟩
  | 4 => ⟨S512x512, .f32⟩
  | 5 => ⟨S512x256, .f32⟩
  | 6 => ⟨S512x256, .f32⟩
  | 7 => ⟨S1x256, .f32⟩
  | 8 => ⟨S512x256, .f32⟩
  | 9 => ⟨S512x256, .f32⟩
  | 10 => ⟨S_, .f32⟩
  | 11 => ⟨S512x256, .f32⟩
  | 12 => ⟨S512x256, .f32⟩
  | 13 => ⟨S256x128, .f32⟩
  | 14 => ⟨S512x128, .f32⟩
  | 15 => ⟨S1x128, .f32⟩
  | 16 => ⟨S512x128, .f32⟩
  | 17 => ⟨S512x128, .f32⟩
  | 18 => ⟨S_, .f32⟩
  | 19 => ⟨S512x128, .f32⟩
  | 20 => ⟨S512x128, .f32⟩
  | 21 => ⟨S128x1, .f32⟩
  | 22 => ⟨S512x1, .f32⟩
  | 23 => ⟨S1x1, .f32⟩
  | 24 => ⟨S512x1, .f32⟩
  | 25 => ⟨S512x1, .f32⟩
  | 26 => ⟨S512x1, .f32⟩
  | 27 => ⟨S512x1, .f32⟩
  | 28 => ⟨S_, .f32⟩
  | 29 => ⟨S512x1, .f32⟩
  | 30 => ⟨S512x1, .f32⟩
  | 31 => ⟨S_, .f32⟩
  | 32 => ⟨S512x1, .f32⟩
  | 33 => ⟨S512x1, .f32⟩
  | _ => ⟨S50000x50, .f32⟩

abbrev hbmTy (i : Nat) : BufTy := match i / 128 with
  | 0 => hbmTy0_0 i
  | 1 => hbmTy0_1 i
  | _ => ⟨S50000x50, .f32⟩

abbrev bufTy : (tb : Table) → Fin (tcTables nBuf tb) → BufTy
  | .hbm, ⟨i, _⟩ => hbmTy i
  | _, _ => ⟨S50000x50, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_cst_0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_1 : Ref sig .tc := ⟨.hbm, 28, rfl⟩
abbrev main_v8 : Ref sig .tc := ⟨.hbm, 29, rfl⟩
abbrev main_v9 : Ref sig .tc := ⟨.hbm, 30, rfl⟩
abbrev main_cst_2 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_c : Ref sig .tc := ⟨.hbm, 35, rfl⟩
abbrev main_v13 : Ref sig .tc := ⟨.hbm, 36, rfl⟩
abbrev main_v14 : Ref sig .tc := ⟨.hbm, 37, rfl⟩
abbrev main_c_3 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_cst_4 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_call0_cst : Ref sig .tc := ⟨.hbm, 58, rfl⟩
abbrev main_call0_v0 : Ref sig .tc := ⟨.hbm, 59, rfl⟩
abbrev main_call0_v1 : Ref sig .tc := ⟨.hbm, 60, rfl⟩
abbrev main_call0_cst_0 : Ref sig .tc := ⟨.hbm, 61, rfl⟩
abbrev main_call0_v2 : Ref sig .tc := ⟨.hbm, 62, rfl⟩
abbrev main_call0_v3 : Ref sig .tc := ⟨.hbm, 63, rfl⟩
abbrev main_v33 : Ref sig .tc := ⟨.hbm, 64, rfl⟩
abbrev main_c_5 : Ref sig .tc := ⟨.hbm, 65, rfl⟩
abbrev main_v34 : Ref sig .tc := ⟨.hbm, 66, rfl⟩
abbrev main_v35 : Ref sig .tc := ⟨.hbm, 67, rfl⟩
abbrev main_c_6 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_cst_7 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_call1_cst : Ref sig .tc := ⟨.hbm, 88, rfl⟩
abbrev main_call1_v0 : Ref sig .tc := ⟨.hbm, 89, rfl⟩
abbrev main_v54 : Ref sig .tc := ⟨.hbm, 90, rfl⟩
abbrev main_c_8 : Ref sig .tc := ⟨.hbm, 91, rfl⟩
abbrev main_v55 : Ref sig .tc := ⟨.hbm, 92, rfl⟩
abbrev main_v56 : Ref sig .tc := ⟨.hbm, 93, rfl⟩
abbrev main_c_9 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_cst_10 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_call2_cst : Ref sig .tc := ⟨.hbm, 114, rfl⟩
abbrev main_call2_v0 : Ref sig .tc := ⟨.hbm, 115, rfl⟩
abbrev main_v75 : Ref sig .tc := ⟨.hbm, 116, rfl⟩
abbrev main_cst_11 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_cst_12 : Ref sig .tc := ⟨.hbm, 121, rfl⟩
abbrev main_v79 : Ref sig .tc := ⟨.hbm, 122, rfl⟩
abbrev main_cst_13 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_cst_14 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_call3_cst : Ref sig .tc := ⟨.hbm, 138, rfl⟩
abbrev main_call3_v0 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_call4_cst : Ref sig .tc := ⟨.hbm, 146, rfl⟩
abbrev main_call4_v0 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_cst_15 : Ref sig .tc := ⟨.hbm, 156, rfl⟩
abbrev main_v107 : Ref sig .tc := ⟨.hbm, 157, rfl⟩
abbrev main_v108 : Ref sig .tc := ⟨.hbm, 158, rfl⟩
abbrev main_cst_16 : Ref sig .tc := ⟨.hbm, 159, rfl⟩
abbrev main_v109 : Ref sig .tc := ⟨.hbm, 160, rfl⟩
abbrev main_v110 : Ref sig .tc := ⟨.hbm, 161, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x50 : S_.BroadcastsInDim S50000x50 (![] : Fin 0 → Fin S50000x50.rank)
  bcast_S50000x1_S50000x50_0_1 : S50000x1.BroadcastsInDim S50000x50 (![0, 1] : Fin 2 → Fin S50000x50.rank)
  transposes_S128x50_S50x128_1_0 : S128x50.Transposes [1, 0] S50x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  transposes_S256x128_S128x256_1_0 : S256x128.Transposes [1, 0] S128x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  transposes_S512x256_S256x512_1_0 : S512x256.Transposes [1, 0] S256x512
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  bcast_S_S50000x512 : S_.BroadcastsInDim S50000x512 (![] : Fin 0 → Fin S50000x512.rank)
  bcast_S_S512x512 : S_.BroadcastsInDim S512x512 (![] : Fin 0 → Fin S512x512.rank)
  bcast_S_S512 : S_.BroadcastsInDim S512 (![] : Fin 0 → Fin S512.rank)
  bcast_S512_S512x1_0 : S512.BroadcastsInDim S512x1 (![0] : Fin 1 → Fin S512x1.rank)
  bcast_S512x1_S512x512_0_1 : S512x1.BroadcastsInDim S512x512 (![0, 1] : Fin 2 → Fin S512x512.rank)
  transposes_S256x512_S512x256_1_0 : S256x512.Transposes [1, 0] S512x256
  bcast_S1x256_S512x256_0_1 : S1x256.BroadcastsInDim S512x256 (![0, 1] : Fin 2 → Fin S512x256.rank)
  bcast_S_S512x256 : S_.BroadcastsInDim S512x256 (![] : Fin 0 → Fin S512x256.rank)
  transposes_S128x256_S256x128_1_0 : S128x256.Transposes [1, 0] S256x128
  bcast_S1x128_S512x128_0_1 : S1x128.BroadcastsInDim S512x128 (![0, 1] : Fin 2 → Fin S512x128.rank)
  bcast_S_S512x128 : S_.BroadcastsInDim S512x128 (![] : Fin 0 → Fin S512x128.rank)
  transposes_S1x128_S128x1_1_0 : S1x128.Transposes [1, 0] S128x1
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  bcast_S_S512x1 : S_.BroadcastsInDim S512x1 (![] : Fin 0 → Fin S512x1.rank)
  scatter_S50000_S800000x1_S800000_n_0_0_1_wf : ScatterDims.WF S50000 S800000x1 S800000 [] [0] [0] 1
  gather_S50000x50_S800000x1_S800000x50_1_0_n_n_0_1_150_wf : GatherDims.WF S50000x50 S800000x1 S800000x50 [1] [0] [] [0] [] 1 ![1, 50]
  scatter_S50000x50_S800000x1_S800000x50_1_0_0_1_wf : ScatterDims.WF S50000x50 S800000x1 S800000x50 [1] [0] [0] 1
  dot_S50000x50_S50x128_S50000x128_1_0_0_1_n_n_wf : DotDims.WF S50000x50 S50x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x512_S50000x512_1_0_0_1_n_n_wf : DotDims.WF S50000x256 S256x512 S50000x512 [1] [0] [0] [1] [] []
  scatter_S512x512_S50000x1_S50000x512_1_0_0_1_wf : ScatterDims.WF S512x512 S50000x1 S50000x512 [1] [0] [0] 1
  scatter_S512_S50000x1_S50000_n_0_0_1_wf : ScatterDims.WF S512 S50000x1 S50000 [] [0] [0] 1
  dot_S512x512_S512x256_S512x256_1_0_0_1_n_n_wf : DotDims.WF S512x512 S512x256 S512x256 [1] [0] [0] [1] [] []
  dot_S512x256_S256x128_S512x128_1_0_0_1_n_n_wf : DotDims.WF S512x256 S256x128 S512x128 [1] [0] [0] [1] [] []
  dot_S512x128_S128x1_S512x1_1_0_0_1_n_n_wf : DotDims.WF S512x128 S128x1 S512x1 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x50_S800000x1_S800000x50_1_0_n_n_0_1_150 : GatherDims S50000x50 S800000x1 S800000x50 where
  offsetDims := [1]
  collapsedSliceDims := [0]
  operandBatchingDims := []
  startIndicesBatchingDims := []
  startIndexMap := [0]
  indexVectorDim := 1
  sliceSizes := ![1, 50]
  wf := gather_S50000x50_S800000x1_S800000x50_1_0_n_n_0_1_150_wf
def scatter_S50000x50_S800000x1_S800000x50_1_0_0_1 : ScatterDims S50000x50 S800000x1 S800000x50 where
  updateWindowDims := [1]
  insertedWindowDims := [0]
  scatterDimsToOperandDims := [0]
  indexVectorDim := 1
  wf := scatter_S50000x50_S800000x1_S800000x50_1_0_0_1_wf
def dot_S50000x50_S50x128_S50000x128_1_0_0_1_n_n : DotDims S50000x50 S50x128 S50000x128 where
  lhsContracting := [1]
  rhsContracting := [0]
  lhsNonContracting := [0]
  rhsNonContracting := [1]
  lhsBatch := []
  rhsBatch := []
  wf := dot_S50000x50_S50x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x512_S50000x512_1_0_0_1_n_n : DotDims S50000x256 S256x512 S50000x512 where
  lhsContracting := [1]
  rhsContracting := [0]
  lhsNonContracting := [0]
  rhsNonContracting := [1]
  lhsBatch := []
  rhsBatch := []
  wf := dot_S50000x256_S256x512_S50000x512_1_0_0_1_n_n_wf
def scatter_S512x512_S50000x1_S50000x512_1_0_0_1 : ScatterDims S512x512 S50000x1 S50000x512 where
  updateWindowDims := [1]
  insertedWindowDims := [0]
  scatterDimsToOperandDims := [0]
  indexVectorDim := 1
  wf := scatter_S512x512_S50000x1_S50000x512_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

class Facts : Prop extends Facts₀ where

variable [Facts]
-- ==== Proof.KRun.lean ====
/-
  The idealized kernel program's run with its result named: from any launch memory with zero counters,
  every weakly fair execution of the entry function on the TensorCores terminates without fault, and in
  every final state the result buffer holds the last boundary's contents `W8` at that buffer, while each of
  the eighteen argument arrays holds what it was launched with.
-/
import proofs.«174828_j31147102831272_2_alg».proof.Proof.Gen.KernelIdeal.Frame
import Idealize.ShloMosaic.PureOps.Ideal

set_option maxRecDepth 16384

noncomputable section

namespace Cert.Sage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Generic

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run at any float model: the final state is read against the last thread state, which holds every
    unscoped buffer at the last boundary's contents; the result buffer is one of them, and each argument's
    contents there walk back to the launch memory. -/
theorem kernel_run_at : θ_run defs (onTc (τ := τ) (main (F := F))) ⟨m, fun _ => 0, ρ⟩ (fun r => ∀ c : Dev nD,
      r.2.mem ((c.tc : Thread nD τ).loc main_v70) = W8 m ρ c (Proc.devRef .tc main_v70)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v70 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c),
       (h c _ (mem_uc main_arg16 (by decide))).trans (W8_main_arg16 m ρ c),
       (h c _ (mem_uc main_arg17 (by decide))).trans (W8_main_arg17 m ρ c)⟩)

end Generic

/-- The run over the extended reals. -/
theorem kernel_run (m : (ℓ : Loc nD τ sig) → Buf (Elt Ideal) ℓ) (ρ : Dev nD → PrngReg) :
    θ_run (Cert.KernelIdeal.defs (F := Ideal)) (onTc (τ := τ) (Cert.KernelIdeal.main (F := Ideal))) ⟨m, fun _ => 0, ρ⟩ (fun r => ∀ c : Dev nD,
      r.2.mem ((c.tc : Thread nD τ).loc main_v70) = W8 m ρ c (Proc.devRef .tc main_v70)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  kernel_run_at (F := Ideal) m ρ

end Cert.Sage

end
-- ==== Proof.Spec.lean ====
/-
  The mathematics both programs compute, written once over the extended reals.

  A graph layer takes the neighbour average `agg` and the node features `x` (both N × Ci), two weight
  matrices `Wl`, `Wr` (Co × Ci) and a bias `b` (Co), and returns at node `r`, channel `c`

      act ( Σₖ agg[r,k]·Wl[c,k]  +  Σₖ x[r,k]·Wr[c,k]  +  b[c] ).

  The readout takes the pooled features (512 graphs × 512 channels) through two such affine maps with
  a clamp at zero, then a single output channel and the logistic function.
-/
import Idealize.ShloMosaic.PureOps.Ideal
import Idealize.ShloMosaic.PureOps.Ideal.Laws
import Idealize.ShloMosaic.Lib.ValueIdx

noncomputable section

open scoped BigOperators

namespace Cert.Sage

open Idealize.ShloMosaic Idealize.ShloMosaic.ValueIdx

/-- An `a × b` matrix shape. -/
abbrev Mat (a b : ℕ) : Shape := ⟨2, ![a, b]⟩

/-- The value the zero word denotes. -/
def zero32 : EReal := Ideal.ofBits .f32 0x00000000#32

/-- The value the slope's word (the float nearest 1/100) denotes. -/
def slope : EReal := Ideal.ofBits .f32 0x3C23D70A#32

/-- The leaky clamp written with the strict test: `z` where `z > 0`, `slope · z` elsewhere. -/
def leaky (z : EReal) : EReal := Scalar.select (Ideal.cmp .ogt z zero32) z (slope * z)

/-- The leaky clamp written with the weak test: `z` where `z ≥ 0`, `slope · z` elsewhere. -/
def leakyGe (z : EReal) : EReal := Scalar.select (Ideal.cmp .oge z zero32) z (slope * z)

/-- The clamp at zero. -/
def relu (z : EReal) : EReal := max z zero32

/-- A layer before its activation, at node `r` and channel `c`. -/
def pre {N Ci Co : ℕ} (agg x : FVec Ideal (Mat N Ci) .f32) (Wl : FVec Ideal (Mat Co Ci) .f32)
    (b : Fin Co → EReal) (Wr : FVec Ideal (Mat Co Ci) .f32) (r : Fin N) (c : Fin Co) : EReal :=
  (∑ k : Fin Ci, agg (ix2 r k) * Wl (ix2 c k)) + (∑ k : Fin Ci, x (ix2 r k) * Wr (ix2 c k)) + b c

/-- A layer: the activation of `pre`, index by index. -/
def layer {N Ci Co : ℕ} (act : EReal → EReal) (agg x : FVec Ideal (Mat N Ci) .f32)
    (Wl : FVec Ideal (Mat Co Ci) .f32) (b : Fin Co → EReal) (Wr : FVec Ideal (Mat Co Ci) .f32) :
    FVec Ideal (Mat N Co) .f32 :=
  fun i => act (pre agg x Wl b Wr (i 0) (i 1))

/-- The readout's first hidden value at graph `r`, channel `c`. -/
def hid1 (xp : FVec Ideal (Mat 512 512) .f32) (W1 : FVec Ideal (Mat 256 512) .f32) (b1 : Fin 256 → EReal)
    (r : Fin 512) (c : Fin 256) : EReal :=
  relu ((∑ k : Fin 512, xp (ix2 r k) * W1 (ix2 c k)) + b1 c)

/-- The readout's second hidden value at graph `r`, channel `c`. -/
def hid2 (xp : FVec Ideal (Mat 512 512) .f32) (W1 : FVec Ideal (Mat 256 512) .f32) (b1 : Fin 256 → EReal)
    (W2 : FVec Ideal (Mat 128 256) .f32) (b2 : Fin 128 → EReal) (r : Fin 512) (c : Fin 128) : EReal :=
  relu ((∑ k : Fin 256, hid1 xp W1 b1 r k * W2 (ix2 c k)) + b2 c)

/-- The readout: one probability per graph. -/
def readout (xp : FVec Ideal (Mat 512 512) .f32) (W1 : FVec Ideal (Mat 256 512) .f32) (b1 : Fin 256 → EReal)
    (W2 : FVec Ideal (Mat 128 256) .f32) (b2 : Fin 128 → EReal) (wo : Fin 128 → EReal) (bo : EReal) :
    FVec Ideal (Mat 512 1) .f32 :=
  fun i => Ideal.logistic ((∑ k : Fin 128, hid2 xp W1 b1 W2 b2 (i 0) k * wo k) + bo)

/-- The two spellings of the leaky clamp agree: they differ only in which branch is taken at `z = 0`,
    where both branches give `0`. -/
theorem leaky_eq_leakyGe (z : EReal) : leaky z = leakyGe z := by
  unfold leaky leakyGe Scalar.select Ideal.cmp zero32
  rw [Ideal.ofBits_zero_f32]
  by_cases h : (0 : EReal) < z
  · simp [h, h.le]
  · by_cases h0 : z = 0
    · subst h0; simp
    · have hle : ¬ (0 : EReal) ≤ z := fun hz => h (lt_of_le_of_ne hz (Ne.symm h0))
      simp [h, hle]

end Cert.Sage

end
-- ==== Proof.Host.lean ====
/-
  The host side both programs share, as functions of whole arrays: the two rows of the edge list, the
  reciprocal in-degree column, the neighbour average of a feature matrix (gather the source rows, add them
  into the destination rows, scale each row by the reciprocal in-degree), and the mean pool over graphs.
  They are kept closed: neither program's proof opens a scatter or a gather, only feeds equal arrays in.
  `network` composes them with the three layers and the readout of the specification.
-/
import proofs.«174828_j31147102831272_2_alg».proof.KernelIdeal
import proofs.«174828_j31147102831272_2_alg».proof.Proof.Gen.KernelIdeal
import proofs.«174828_j31147102831272_2_alg».proof.Proof.Spec

noncomputable section

namespace Cert.Sage

open Idealize.ShloMosaic Idealize.ShloMosaic.ValueIdx Cert.KernelIdeal Cert.KernelIdeal.Facts₀

variable {F : FTy → Type} [FloatOps F]

/-- Row 0 of the edge list: the source node of every edge. -/
def srcIds (e : (⟨S2x800000, .i32⟩ : BufTy).Contents (Elt F)) : (⟨S800000, .i32⟩ : BufTy).Contents (Elt F) :=
  shapeCast S800000 (extractStridedSlice S1x800000 ![0, 0] e slices_S2x800000_S1x800000_0_0) shapeCasts_S1x800000_S800000

/-- Row 1 of the edge list: the destination node of every edge. -/
def dstIds (e : (⟨S2x800000, .i32⟩ : BufTy).Contents (Elt F)) : (⟨S800000, .i32⟩ : BufTy).Contents (Elt F) :=
  shapeCast S800000 (extractStridedSlice S1x800000 ![1, 0] e slices_S2x800000_S1x800000_1_0) shapeCasts_S1x800000_S800000

/-- `1 / max(in-degree, 1)` per node, as a column. -/
def degInv (dst : (⟨S800000, .i32⟩ : BufTy).Contents (Elt F)) : (⟨S50000x1, .f32⟩ : BufTy).Contents (Elt F) :=
  broadcastInDim S50000x1 ![0] bcast_S50000_S50000x1_0
    (Host.divf (broadcastInDim S50000 ![] bcast_S_S50000 (constant S_ .f32 0x3F800000#32))
      (maximumf
        (Host.scatterAdd scatter_S50000_S800000x1_S800000_n_0_0_1
          (broadcastInDim S50000 ![] bcast_S_S50000 (constant S_ .f32 0x00000000#32))
          (broadcastInDim S800000x1 ![0] bcast_S800000_S800000x1_0 dst)
          (broadcastInDim S800000 ![] bcast_S_S800000 (constant S_ .f32 0x3F800000#32)))
        (broadcastInDim S50000 ![] bcast_S_S50000 (constant S_ .f32 0x3F800000#32))))

/-- A negative node id counts from the end. -/
def wrapIds (src : (⟨S800000, .i32⟩ : BufTy).Contents (Elt F)) : (⟨S800000x1, .i32⟩ : BufTy).Contents (Elt F) :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- The neighbour average of 50-channel features. -/
def agg50 (x : (⟨S50000x50, .f32⟩ : BufTy).Contents (Elt F)) (src dst : (⟨S800000, .i32⟩ : BufTy).Contents (Elt F))
    (dinv : (⟨S50000x1, .f32⟩ : BufTy).Contents (Elt F)) : (⟨S50000x50, .f32⟩ : BufTy).Contents (Elt F) :=
  mulf
    (Host.scatterAdd scatter_S50000x50_S800000x1_S800000x50_1_0_0_1
      (broadcastInDim S50000x50 ![] bcast_S_S50000x50 (constant S_ .f32 0x00000000#32))
      (broadcastInDim S800000x1 ![0] bcast_S800000_S800000x1_0 dst)
      (Host.gather gather_S50000x50_S800000x1_S800000x50_1_0_n_n_0_1_150 x (wrapIds src)))
    (broadcastInDim S50000x50 ![0, 1] bcast_S50000x1_S50000x50_0_1 dinv)

/-- The neighbour average of 128-channel features. -/
def agg128 (x : (⟨S50000x128, .f32⟩ : BufTy).Contents (Elt F)) (src dst : (⟨S800000, .i32⟩ : BufTy).Contents (Elt F))
    (dinv : (⟨S50000x1, .f32⟩ : BufTy).Contents (Elt F)) : (⟨S50000x128, .f32⟩ : BufTy).Contents (Elt F) :=
  mulf
    (Host.scatterAdd scatter_S50000x128_S800000x1_S800000x128_1_0_0_1
      (broadcastInDim S50000x128 ![] bcast_S_S50000x128 (constant S_ .f32 0x00000000#32))
      (broadcastInDim S800000x1 ![0] bcast_S800000_S800000x1_0 dst)
      (Host.gather gather_S50000x128_S800000x1_S800000x128_1_0_n_n_0_1_1128 x (wrapIds src)))
    (broadcastInDim S50000x128 ![0, 1] bcast_S50000x1_S50000x128_0_1 dinv)

/-- The neighbour average of 256-channel features. -/
def agg256 (x : (⟨S50000x256, .f32⟩ : BufTy).Contents (Elt F)) (src dst : (⟨S800000, .i32⟩ : BufTy).Contents (Elt F))
    (dinv : (⟨S50000x1, .f32⟩ : BufTy).Contents (Elt F)) : (⟨S50000x256, .f32⟩ : BufTy).Contents (Elt F) :=
  mulf
    (Host.scatterAdd scatter_S50000x256_S800000x1_S800000x256_1_0_0_1
      (broadcastInDim S50000x256 ![] bcast_S_S50000x256 (constant S_ .f32 0x00000000#32))
      (broadcastInDim S800000x1 ![0] bcast_S800000_S800000x1_0 dst)
      (Host.gather gather_S50000x256_S800000x1_S800000x256_1_0_n_n_0_1_1256 x (wrapIds src)))
    (broadcastInDim S50000x256 ![0, 1] bcast_S50000x1_S50000x256_0_1 dinv)

/-- The mean of the node features of each graph: the per-graph sums over the per-graph node counts (at least 1). -/
def pool (x : (⟨S50000x512, .f32⟩ : BufTy).Contents (Elt F)) (batch : (⟨S50000, .i32⟩ : BufTy).Contents (Elt F)) :
    (⟨S512x512, .f32⟩ : BufTy).Contents (Elt F) :=
  Host.divf
    (Host.scatterAdd scatter_S512x512_S50000x1_S50000x512_1_0_0_1
      (broadcastInDim S512x512 ![] bcast_S_S512x512 (constant S_ .f32 0x00000000#32))
      (broadcastInDim S50000x1 ![0] bcast_S50000_S50000x1_0 batch) x)
    (broadcastInDim S512x512 ![0, 1] bcast_S512x1_S512x512_0_1
      (broadcastInDim S512x1 ![0] bcast_S512_S512x1_0
        (maximumf
          (Host.scatterAdd scatter_S512_S50000x1_S50000_n_0_0_1
            (broadcastInDim S512 ![] bcast_S_S512 (constant S_ .f32 0x00000000#32))
            (broadcastInDim S50000x1 ![0] bcast_S50000_S50000x1_0 batch)
            (broadcastInDim S50000 ![] bcast_S_S50000 (constant S_ .f32 0x3F800000#32)))
          (broadcastInDim S512 ![] bcast_S_S512 (constant S_ .f32 0x3F800000#32)))))

/-- The whole network at the extended reals, from the eighteen argument arrays. -/
def network (x : FVec Ideal S50000x50 .f32) (e : (⟨S2x800000, .i32⟩ : BufTy).Contents (Elt Ideal))
    (batch : (⟨S50000, .i32⟩ : BufTy).Contents (Elt Ideal))
    (Wl1 : FVec Ideal S128x50 .f32) (bl1 : FVec Ideal S128 .f32) (Wr1 : FVec Ideal S128x50 .f32)
    (Wl2 : FVec Ideal S256x128 .f32) (bl2 : FVec Ideal S256 .f32) (Wr2 : FVec Ideal S256x128 .f32)
    (Wl3 : FVec Ideal S512x256 .f32) (bl3 : FVec Ideal S512 .f32) (Wr3 : FVec Ideal S512x256 .f32)
    (Wf1 : FVec Ideal S256x512 .f32) (bf1 : FVec Ideal S256 .f32) (Wf2 : FVec Ideal S128x256 .f32)
    (bf2 : FVec Ideal S128 .f32) (Wo : FVec Ideal S1x128 .f32) (bo : FVec Ideal S1 .f32) : FVec Ideal S512x1 .f32 :=
  let src := srcIds (F := Ideal) e
  let dst := dstIds (F := Ideal) e
  let dinv := degInv (F := Ideal) dst
  let x1 : FVec Ideal S50000x128 .f32 := layer leaky (agg50 (F := Ideal) x src dst dinv) x Wl1 (fun q => bl1 (ix1 q)) Wr1
  let x2 : FVec Ideal S50000x256 .f32 := layer relu (agg128 (F := Ideal) x1 src dst dinv) x1 Wl2 (fun q => bl2 (ix1 q)) Wr2
  let x3 : FVec Ideal S50000x512 .f32 := layer relu (agg256 (F := Ideal) x2 src dst dinv) x2 Wl3 (fun q => bl3 (ix1 q)) Wr3
  readout (pool (F := Ideal) x3 batch) Wf1 (fun q => bf1 (ix1 q)) Wf2 (fun q => bf2 (ix1 q)) (fun q => Wo (ix2 0 q)) (bo (ix1 0))

end Cert.Sage

end
-- ==== Proof.KChainHead.lean ====
/-
  The first half of the idealized kernel program's data flow, read boundary by boundary: from the launch
  memory through the first stretch of host operations, the first layer's region, the second stretch and the
  second layer's region.  Each boundary's contents at a buffer are written as a closed expression in the
  argument arrays: the two rows of the edge list, the reciprocal in-degree column, the neighbour averages and the
  two layers of the specification.  A host stretch is read once, over an arbitrary valuation of the buffers; a
  region's exit holds its closed form (taken as a hypothesis) at its output array and the entry contents at every
  buffer none of its windows names.
-/
import proofs.«174828_j31147102831272_2_alg».proof.Proof.Gen.KernelIdeal.Frame
import proofs.«174828_j31147102831272_2_alg».proof.Proof.Host
import Idealize.ShloMosaic.Lib.ValueLayout

noncomputable section

namespace Cert.Sage

open Idealize.ShloMosaic Idealize.ShloMosaic.TcCoe Idealize.ShloMosaic.ValueIdx
open Cert.KernelIdeal Cert.KernelIdeal.Facts₀ Cert.KernelIdeal.Gen

/-! ## The host stretches, over any contents of the buffers -/

section Host

variable (V : Valuation τ sig (Elt Ideal))

/-! ### Before the first region -/

theorem host0_v1 : StableHlo.after (hostOps0 (F := Ideal)) V (Proc.devRef .tc main_v1)
    = srcIds (F := Ideal) (V (Proc.devRef .tc main_arg1)) := by
  after_results_simp
  rfl

theorem host0_v3 : StableHlo.after (hostOps0 (F := Ideal)) V (Proc.devRef .tc main_v3)
    = dstIds (F := Ideal) (V (Proc.devRef .tc main_arg1)) := by
  after_results_simp
  rfl

theorem host0_v12 : StableHlo.after (hostOps0 (F := Ideal)) V (Proc.devRef .tc main_v12)
    = degInv (F := Ideal) (dstIds (F := Ideal) (V (Proc.devRef .tc main_arg1))) := by
  after_results_simp
  rfl

theorem host0_v24 : StableHlo.after (hostOps0 (F := Ideal)) V (Proc.devRef .tc main_v24)
    = agg50 (F := Ideal) (V (Proc.devRef .tc main_arg0)) (srcIds (F := Ideal) (V (Proc.devRef .tc main_arg1)))
        (dstIds (F := Ideal) (V (Proc.devRef .tc main_arg1))) (degInv (F := Ideal) (dstIds (F := Ideal) (V (Proc.devRef .tc main_arg1)))) := by
  after_results_simp
  rfl

theorem host0_v25 : StableHlo.after (hostOps0 (F := Ideal)) V (Proc.devRef .tc main_v25)
    = fun i => shapeCast S1x128 (V (Proc.devRef .tc main_arg4)) Facts₀.shapeCasts_S128_S1x128 i := by
  after_results_simp
  rfl

theorem host0_keep_arg0 : StableHlo.after (hostOps0 (F := Ideal)) V (Proc.devRef .tc main_arg0) = V (Proc.devRef .tc main_arg0) := by
  after_results_simp
theorem host0_keep_arg2 : StableHlo.after (hostOps0 (F := Ideal)) V (Proc.devRef .tc main_arg2) = V (Proc.devRef .tc main_arg2) := by
  after_results_simp
theorem host0_keep_arg3 : StableHlo.after (hostOps0 (F := Ideal)) V (Proc.devRef .tc main_arg3) = V (Proc.devRef .tc main_arg3) := by
  after_results_simp
theorem host0_keep_arg5 : StableHlo.after (hostOps0 (F := Ideal)) V (Proc.devRef .tc main_arg5) = V (Proc.devRef .tc main_arg5) := by
  after_results_simp
theorem host0_keep_arg6 : StableHlo.after (hostOps0 (F := Ideal)) V (Proc.devRef .tc main_arg6) = V (Proc.devRef .tc main_arg6) := by
  after_results_simp
theorem host0_keep_arg7 : StableHlo.after (hostOps0 (F := Ideal)) V (Proc.devRef .tc main_arg7) = V (Proc.devRef .tc main_arg7) := by
  after_results_simp
theorem host0_keep_arg8 : StableHlo.after (hostOps0 (F := Ideal)) V (Proc.devRef .tc main_arg8) = V (Proc.devRef .tc main_arg8) := by
  after_results_simp
theorem host0_keep_arg9 : StableHlo.after (hostOps0 (F := Ideal)) V (Proc.devRef .tc main_arg9) = V (Proc.devRef .tc main_arg9) := by
  after_results_simp
theorem host0_keep_arg10 : StableHlo.after (hostOps0 (F := Ideal)) V (Proc.devRef .tc main_arg10) = V (Proc.devRef .tc main_arg10) := by
  after_results_simp
theorem host0_keep_arg11 : StableHlo.after (hostOps0 (F := Ideal)) V (Proc.devRef .tc main_arg11) = V (Proc.devRef .tc main_arg11) := by
  after_results_simp
theorem host0_keep_arg12 : StableHlo.after (hostOps0 (F := Ideal)) V (Proc.devRef .tc main_arg12) = V (Proc.devRef .tc main_arg12) := by
  after_results_simp
theorem host0_keep_arg13 : StableHlo.after (hostOps0 (F := Ideal)) V (Proc.devRef .tc main_arg13) = V (Proc.devRef .tc main_arg13) := by
  after_results_simp
theorem host0_keep_arg14 : StableHlo.after (hostOps0 (F := Ideal)) V (Proc.devRef .tc main_arg14) = V (Proc.devRef .tc main_arg14) := by
  after_results_simp
theorem host0_keep_arg15 : StableHlo.after (hostOps0 (F := Ideal)) V (Proc.devRef .tc main_arg15) = V (Proc.devRef .tc main_arg15) := by
  after_results_simp
theorem host0_keep_arg16 : StableHlo.after (hostOps0 (F := Ideal)) V (Proc.devRef .tc main_arg16) = V (Proc.devRef .tc main_arg16) := by
  after_results_simp
theorem host0_keep_arg17 : StableHlo.after (hostOps0 (F := Ideal)) V (Proc.devRef .tc main_arg17) = V (Proc.devRef .tc main_arg17) := by
  after_results_simp

/-! ### Between the first and the second region -/

theorem host1_v38 : StableHlo.after (hostOps1 (F := Ideal)) V (Proc.devRef .tc main_v38)
    = agg128 (F := Ideal) (V (Proc.devRef .tc main_v26)) (V (Proc.devRef .tc main_v1)) (V (Proc.devRef .tc main_v3)) (V (Proc.devRef .tc main_v12)) := by
  after_results_simp
  rfl

theorem host1_v39 : StableHlo.after (hostOps1 (F := Ideal)) V (Proc.devRef .tc main_v39)
    = fun i => shapeCast S1x256 (V (Proc.devRef .tc main_arg7)) Facts₀.shapeCasts_S256_S1x256 i := by
  after_results_simp
  rfl

theorem host1_keep_v26 : StableHlo.after (hostOps1 (F := Ideal)) V (Proc.devRef .tc main_v26) = V (Proc.devRef .tc main_v26) := by
  after_results_simp
theorem host1_keep_v1 : StableHlo.after (hostOps1 (F := Ideal)) V (Proc.devRef .tc main_v1) = V (Proc.devRef .tc main_v1) := by
  after_results_simp
theorem host1_keep_v3 : StableHlo.after (hostOps1 (F := Ideal)) V (Proc.devRef .tc main_v3) = V (Proc.devRef .tc main_v3) := by
  after_results_simp
theorem host1_keep_v12 : StableHlo.after (hostOps1 (F := Ideal)) V (Proc.devRef .tc main_v12) = V (Proc.devRef .tc main_v12) := by
  after_results_simp
theorem host1_keep_arg2 : StableHlo.after (hostOps1 (F := Ideal)) V (Proc.devRef .tc main_arg2) = V (Proc.devRef .tc main_arg2) := by
  after_results_simp
theorem host1_keep_arg6 : StableHlo.after (hostOps1 (F := Ideal)) V (Proc.devRef .tc main_arg6) = V (Proc.devRef .tc main_arg6) := by
  after_results_simp
theorem host1_keep_arg8 : StableHlo.after (hostOps1 (F := Ideal)) V (Proc.devRef .tc main_arg8) = V (Proc.devRef .tc main_arg8) := by
  after_results_simp
theorem host1_keep_arg9 : StableHlo.after (hostOps1 (F := Ideal)) V (Proc.devRef .tc main_arg9) = V (Proc.devRef .tc main_arg9) := by
  after_results_simp
theorem host1_keep_arg10 : StableHlo.after (hostOps1 (F := Ideal)) V (Proc.devRef .tc main_arg10) = V (Proc.devRef .tc main_arg10) := by
  after_results_simp
theorem host1_keep_arg11 : StableHlo.after (hostOps1 (F := Ideal)) V (Proc.devRef .tc main_arg11) = V (Proc.devRef .tc main_arg11) := by
  after_results_simp
theorem host1_keep_arg12 : StableHlo.after (hostOps1 (F := Ideal)) V (Proc.devRef .tc main_arg12) = V (Proc.devRef .tc main_arg12) := by
  after_results_simp
theorem host1_keep_arg13 : StableHlo.after (hostOps1 (F := Ideal)) V (Proc.devRef .tc main_arg13) = V (Proc.devRef .tc main_arg13) := by
  after_results_simp
theorem host1_keep_arg14 : StableHlo.after (hostOps1 (F := Ideal)) V (Proc.devRef .tc main_arg14) = V (Proc.devRef .tc main_arg14) := by
  after_results_simp
theorem host1_keep_arg15 : StableHlo.after (hostOps1 (F := Ideal)) V (Proc.devRef .tc main_arg15) = V (Proc.devRef .tc main_arg15) := by
  after_results_simp
theorem host1_keep_arg16 : StableHlo.after (hostOps1 (F := Ideal)) V (Proc.devRef .tc main_arg16) = V (Proc.devRef .tc main_arg16) := by
  after_results_simp
theorem host1_keep_arg17 : StableHlo.after (hostOps1 (F := Ideal)) V (Proc.devRef .tc main_arg17) = V (Proc.devRef .tc main_arg17) := by
  after_results_simp

end Host

/-! ## The closed expressions -/

section Chain

variable (m : (ℓ : Loc nD τ sig) → Buf (Elt Ideal) ℓ) (ρ : Dev nD → PrngReg) (c : Dev nD)

/-- The source node of every edge, from the launched edge list. -/
def kSrc : (⟨S800000, .i32⟩ : BufTy).Contents (Elt Ideal) := srcIds (F := Ideal) (m ((c.tc : Thread nD τ).loc main_arg1))
/-- The destination node of every edge, from the launched edge list. -/
def kDst : (⟨S800000, .i32⟩ : BufTy).Contents (Elt Ideal) := dstIds (F := Ideal) (m ((c.tc : Thread nD τ).loc main_arg1))
/-- The reciprocal in-degree column. -/
def kDinv : (⟨S50000x1, .f32⟩ : BufTy).Contents (Elt Ideal) := degInv (F := Ideal) (kDst m c)
/-- The first layer's output, from the launched arrays. -/
def kX1 : FVec Ideal S50000x128 .f32 :=
  layer leaky (agg50 (F := Ideal) (m ((c.tc : Thread nD τ).loc main_arg0)) (kSrc m c) (kDst m c) (kDinv m c)) (m ((c.tc : Thread nD τ).loc main_arg0))
    (m ((c.tc : Thread nD τ).loc main_arg3)) (fun q => (m ((c.tc : Thread nD τ).loc main_arg4) : FVec Ideal S128 .f32) (ix1 q)) (m ((c.tc : Thread nD τ).loc main_arg5))
/-- The second layer's output, from the launched arrays. -/
def kX2 : FVec Ideal S50000x256 .f32 :=
  layer relu (agg128 (F := Ideal) (kX1 m c) (kSrc m c) (kDst m c) (kDinv m c)) (kX1 m c)
    (m ((c.tc : Thread nD τ).loc main_arg6)) (fun q => (m ((c.tc : Thread nD τ).loc main_arg7) : FVec Ideal S256 .f32) (ix1 q)) (m ((c.tc : Thread nD τ).loc main_arg8))

/-! ## The first region's entry -/

theorem w1_v1 : W1 m ρ c (Proc.devRef .tc main_v1) = kSrc m c := host0_v1 (W0 m ρ c)
theorem w1_v3 : W1 m ρ c (Proc.devRef .tc main_v3) = kDst m c := host0_v3 (W0 m ρ c)
theorem w1_v12 : W1 m ρ c (Proc.devRef .tc main_v12) = kDinv m c := host0_v12 (W0 m ρ c)
theorem w1_v24 : W1 m ρ c (Proc.devRef .tc main_v24)
    = agg50 (F := Ideal) (m ((c.tc : Thread nD τ).loc main_arg0)) (kSrc m c) (kDst m c) (kDinv m c) := host0_v24 (W0 m ρ c)
theorem w1_v25 : W1 m ρ c (Proc.devRef .tc main_v25)
    = fun i => shapeCast S1x128 (m ((c.tc : Thread nD τ).loc main_arg4)) Facts₀.shapeCasts_S128_S1x128 i := host0_v25 (W0 m ρ c)
theorem w1_arg0 : W1 m ρ c (Proc.devRef .tc main_arg0) = m ((c.tc : Thread nD τ).loc main_arg0) := host0_keep_arg0 (W0 m ρ c)
theorem w1_arg3 : W1 m ρ c (Proc.devRef .tc main_arg3) = m ((c.tc : Thread nD τ).loc main_arg3) := host0_keep_arg3 (W0 m ρ c)
theorem w1_arg5 : W1 m ρ c (Proc.devRef .tc main_arg5) = m ((c.tc : Thread nD τ).loc main_arg5) := host0_keep_arg5 (W0 m ρ c)

/-! ## The first region's exit -/

theorem w2_v26 (h0 : ∀ (V : (c : Dev nD) → (b : Ref sig .tc) → Buf (Elt Ideal) ((c : Thread nD τ).loc b)) (c : Dev nD),
      (dat0 (F := Ideal) V c).arrAt 5 cfg0.N
        = layer leaky (V c main_v24) (V c main_arg0) (V c main_arg3) (fun q => V c main_v25 (ix2 0 q)) (V c main_arg5)) :
    W2 m ρ c (Proc.devRef .tc main_v26) = kX1 m c := by
  refine (W2_arr m ρ c 5).trans ((h0 (V1 m ρ) c).trans ?_)
  show layer leaky (W1 m ρ c (Proc.devRef .tc main_v24)) (W1 m ρ c (Proc.devRef .tc main_arg0)) (W1 m ρ c (Proc.devRef .tc main_arg3))
      (fun q => W1 m ρ c (Proc.devRef .tc main_v25) (ix2 0 q)) (W1 m ρ c (Proc.devRef .tc main_arg5)) = _
  rw [w1_v24, w1_arg0, w1_arg3, w1_arg5, w1_v25]
  unfold kX1
  simp only [shapeCast_a_1a_apply]
theorem w2_v1 : W2 m ρ c (Proc.devRef .tc main_v1) = kSrc m c :=
  (W2_of_ne m ρ c main_v1 (by decide)).trans (w1_v1 m ρ c)
theorem w2_v3 : W2 m ρ c (Proc.devRef .tc main_v3) = kDst m c :=
  (W2_of_ne m ρ c main_v3 (by decide)).trans (w1_v3 m ρ c)
theorem w2_v12 : W2 m ρ c (Proc.devRef .tc main_v12) = kDinv m c :=
  (W2_of_ne m ρ c main_v12 (by decide)).trans (w1_v12 m ρ c)
theorem w2_arg7 : W2 m ρ c (Proc.devRef .tc main_arg7) = m ((c.tc : Thread nD τ).loc main_arg7) :=
  (W2_of_ne m ρ c main_arg7 (by decide)).trans (host0_keep_arg7 (W0 m ρ c))

/-! ## The second region's entry -/

theorem w3_v26 (h0 : ∀ (V : (c : Dev nD) → (b : Ref sig .tc) → Buf (Elt Ideal) ((c : Thread nD τ).loc b)) (c : Dev nD),
      (dat0 (F := Ideal) V c).arrAt 5 cfg0.N
        = layer leaky (V c main_v24) (V c main_arg0) (V c main_arg3) (fun q => V c main_v25 (ix2 0 q)) (V c main_arg5)) :
    W3 m ρ c (Proc.devRef .tc main_v26) = kX1 m c :=
  (host1_keep_v26 (W2 m ρ c)).trans (w2_v26 m ρ c h0)
theorem w3_v38 (h0 : ∀ (V : (c : Dev nD) → (b : Ref sig .tc) → Buf (Elt Ideal) ((c : Thread nD τ).loc b)) (c : Dev nD),
      (dat0 (F := Ideal) V c).arrAt 5 cfg0.N
        = layer leaky (V c main_v24) (V c main_arg0) (V c main_arg3) (fun q => V c main_v25 (ix2 0 q)) (V c main_arg5)) :
    W3 m ρ c (Proc.devRef .tc main_v38) = agg128 (F := Ideal) (kX1 m c) (kSrc m c) (kDst m c) (kDinv m c) := by
  refine (host1_v38 (W2 m ρ c)).trans ?_
  rw [w2_v26 m ρ c h0, w2_v1, w2_v3, w2_v12]
theorem w3_v39 : W3 m ρ c (Proc.devRef .tc main_v39)
    = fun i => shapeCast S1x256 (m ((c.tc : Thread nD τ).loc main_arg7)) Facts₀.shapeCasts_S256_S1x256 i := by
  refine (host1_v39 (W2 m ρ c)).trans ?_
  rw [w2_arg7]
theorem w3_arg6 : W3 m ρ c (Proc.devRef .tc main_arg6) = m ((c.tc : Thread nD τ).loc main_arg6) :=
  (host1_keep_arg6 (W2 m ρ c)).trans ((W2_of_ne m ρ c main_arg6 (by decide)).trans (host0_keep_arg6 (W0 m ρ c)))
theorem w3_arg8 : W3 m ρ c (Proc.devRef .tc main_arg8) = m ((c.tc : Thread nD τ).loc main_arg8) :=
  (host1_keep_arg8 (W2 m ρ c)).trans ((W2_of_ne m ρ c main_arg8 (by decide)).trans (host0_keep_arg8 (W0 m ρ c)))

/-! ## The second region's exit -/

theorem w4_v40 (h0 : ∀ (V : (c : Dev nD) → (b : Ref sig .tc) → Buf (Elt Ideal) ((c : Thread nD τ).loc b)) (c : Dev nD),
      (dat0 (F := Ideal) V c).arrAt 5 cfg0.N
        = layer leaky (V c main_v24) (V c main_arg0) (V c main_arg3) (fun q => V c main_v25 (ix2 0 q)) (V c main_arg5))
    (h1 : ∀ (V : (c : Dev nD) → (b : Ref sig .tc) → Buf (Elt Ideal) ((c : Thread nD τ).loc b)) (c : Dev nD),
      (dat1 (F := Ideal) V c).arrAt 5 cfg1.N
        = layer relu (V c main_v38) (V c main_v26) (V c main_arg6) (fun q => V c main_v39 (ix2 0 q)) (V c main_arg8)) :
    W4 m ρ c (Proc.devRef .tc main_v40) = kX2 m c := by
  refine (W4_arr m ρ c 5).trans ((h1 (V3 m ρ) c).trans ?_)
  show layer relu (W3 m ρ c (Proc.devRef .tc main_v38)) (W3 m ρ c (Proc.devRef .tc main_v26)) (W3 m ρ c (Proc.devRef .tc main_arg6))
      (fun q => W3 m ρ c (Proc.devRef .tc main_v39) (ix2 0 q)) (W3 m ρ c (Proc.devRef .tc main_arg8)) = _
  rw [w3_v38 m ρ c h0, w3_v26 m ρ c h0, w3_arg6, w3_arg8, w3_v39]
  unfold kX2
  simp only [shapeCast_a_1a_apply]
theorem w4_v1 : W4 m ρ c (Proc.devRef .tc main_v1) = kSrc m c :=
  (W4_of_ne m ρ c main_v1 (by decide)).trans ((host1_keep_v1 (W2 m ρ c)).trans (w2_v1 m ρ c))
theorem w4_v3 : W4 m ρ c (Proc.devRef .tc main_v3) = kDst m c :=
  (W4_of_ne m ρ c main_v3 (by decide)).trans ((host1_keep_v3 (W2 m ρ c)).trans (w2_v3 m ρ c))
theorem w4_v12 : W4 m ρ c (Proc.devRef .tc main_v12) = kDinv m c :=
  (W4_of_ne m ρ c main_v12 (by decide)).trans ((host1_keep_v12 (W2 m ρ c)).trans (w2_v12 m ρ c))
theorem w4_arg2 : W4 m ρ c (Proc.devRef .tc main_arg2) = m ((c.tc : Thread nD τ).loc main_arg2) :=
  (W4_of_ne m ρ c main_arg2 (by decide)).trans ((host1_keep_arg2 (W2 m ρ c)).trans
    ((W2_of_ne m ρ c main_arg2 (by decide)).trans (host0_keep_arg2 (W0 m ρ c))))
theorem w4_arg9 : W4 m ρ c (Proc.devRef .tc main_arg9) = m ((c.tc : Thread nD τ).loc main_arg9) :=
  (W4_of_ne m ρ c main_arg9 (by decide)).trans ((host1_keep_arg9 (W2 m ρ c)).trans
    ((W2_of_ne m ρ c main_arg9 (by decide)).trans (host0_keep_arg9 (W0 m ρ c))))
theorem w4_arg10 : W4 m ρ c (Proc.devRef .tc main_arg10) = m ((c.tc : Thread nD τ).loc main_arg10) :=
  (W4_of_ne m ρ c main_arg10 (by decide)).trans ((host1_keep_arg10 (W2 m ρ c)).trans
    ((W2_of_ne m ρ c main_arg10 (by decide)).trans (host0_keep_arg10 (W0 m ρ c))))
theorem w4_arg11 : W4 m ρ c (Proc.devRef .tc main_arg11) = m ((c.tc : Thread nD τ).loc main_arg11) :=
  (W4_of_ne m ρ c main_arg11 (by decide)).trans ((host1_keep_arg11 (W2 m ρ c)).trans
    ((W2_of_ne m ρ c main_arg11 (by decide)).trans (host0_keep_arg11 (W0 m ρ c))))
theorem w4_arg12 : W4 m ρ c (Proc.devRef .tc main_arg12) = m ((c.tc : Thread nD τ).loc main_arg12) :=
  (W4_of_ne m ρ c main_arg12 (by decide)).trans ((host1_keep_arg12 (W2 m ρ c)).trans
    ((W2_of_ne m ρ c main_arg12 (by decide)).trans (host0_keep_arg12 (W0 m ρ c))))
theorem w4_arg13 : W4 m ρ c (Proc.devRef .tc main_arg13) = m ((c.tc : Thread nD τ).loc main_arg13) :=
  (W4_of_ne m ρ c main_arg13 (by decide)).trans ((host1_keep_arg13 (W2 m ρ c)).trans
    ((W2_of_ne m ρ c main_arg13 (by decide)).trans (host0_keep_arg13 (W0 m ρ c))))
theorem w4_arg14 : W4 m ρ c (Proc.devRef .tc main_arg14) = m ((c.tc : Thread nD τ).loc main_arg14) :=
  (W4_of_ne m ρ c main_arg14 (by decide)).trans ((host1_keep_arg14 (W2 m ρ c)).trans
    ((W2_of_ne m ρ c main_arg14 (by decide)).trans (host0_keep_arg14 (W0 m ρ c))))
theorem w4_arg15 : W4 m ρ c (Proc.devRef .tc main_arg15) = m ((c.tc : Thread nD τ).loc main_arg15) :=
  (W4_of_ne m ρ c main_arg15 (by decide)).trans ((host1_keep_arg15 (W2 m ρ c)).trans
    ((W2_of_ne m ρ c main_arg15 (by decide)).trans (host0_keep_arg15 (W0 m ρ c))))
theorem w4_arg16 : W4 m ρ c (Proc.devRef .tc main_arg16) = m ((c.tc : Thread nD τ).loc main_arg16) :=
  (W4_of_ne m ρ c main_arg16 (by decide)).trans ((host1_keep_arg16 (W2 m ρ c)).trans
    ((W2_of_ne m ρ c main_arg16 (by decide)).trans (host0_keep_arg16 (W0 m ρ c))))
theorem w4_arg17 : W4 m ρ c (Proc.devRef .tc main_arg17) = m ((c.tc : Thread nD τ).loc main_arg17) :=
  (W4_of_ne m ρ c main_arg17 (by decide)).trans ((host1_keep_arg17 (W2 m ρ c)).trans
    ((W2_of_ne m ρ c main_arg17 (by decide)).trans (host0_keep_arg17 (W0 m ρ c))))

end Chain

end Cert.Sage

end
-- ==== Proof.KChainTail.lean ====
/-
  From the second layer's output to the result: the third layer's neighbour average is the shared host
  function of the second layer's output, the third layer's kernel writes the layer's closed form, the mean pool
  is the shared host function of that, and the readout kernel writes the readout's closed form.  Buffers a
  segment does not write are carried across it unchanged.
-/
import proofs.«174828_j31147102831272_2_alg».proof.Proof.Gen.KernelIdeal.Frame
import proofs.«174828_j31147102831272_2_alg».proof.Proof.Host
import Idealize.ShloMosaic.Lib.StableHlo.Run
import Idealize.ShloMosaic.Lib.ValueLayout

noncomputable section

namespace Cert.Sage

open Idealize.ShloMosaic Idealize.ShloMosaic.TcCoe Idealize.ShloMosaic.ValueIdx Idealize.ShloMosaic.StableHlo
open Idealize.SL.Sem
open Cert.KernelIdeal Cert.KernelIdeal.Gen Cert.KernelIdeal.Facts₀

variable (m : (ℓ : Loc nD τ sig) → Buf (Elt Ideal) ℓ) (ρ : Dev nD → PrngReg) (c : Dev nD)

/-! ## The two last stretches of host operations, over any contents they start from -/

section Host

variable (V : Valuation τ sig (Elt Ideal))

/-- The third neighbour average is the shared function of the second layer's output, the edge rows and the
    reciprocal in-degree. -/
theorem host2_v52 : StableHlo.after (hostOps2 (F := Ideal)) V (Proc.devRef .tc main_v52)
    = agg256 (F := Ideal) (V (Proc.devRef .tc main_v40)) (V (Proc.devRef .tc main_v1)) (V (Proc.devRef .tc main_v3))
        (V (Proc.devRef .tc main_v12)) := by
  after_results_simp; rfl

/-- The third bias enters its kernel as a one-row matrix. -/
theorem host2_v53 : StableHlo.after (hostOps2 (F := Ideal)) V (Proc.devRef .tc main_v53)
    = fun i => shapeCast S1x512 (V (Proc.devRef .tc main_arg10)) Facts₀.shapeCasts_S512_S1x512 i := by
  after_results_simp; rfl

theorem host2_keep_v40 : StableHlo.after (hostOps2 (F := Ideal)) V (Proc.devRef .tc main_v40) = V (Proc.devRef .tc main_v40) := by after_results_simp
theorem host2_keep_arg2 : StableHlo.after (hostOps2 (F := Ideal)) V (Proc.devRef .tc main_arg2) = V (Proc.devRef .tc main_arg2) := by after_results_simp
theorem host2_keep_arg9 : StableHlo.after (hostOps2 (F := Ideal)) V (Proc.devRef .tc main_arg9) = V (Proc.devRef .tc main_arg9) := by after_results_simp
theorem host2_keep_arg11 : StableHlo.after (hostOps2 (F := Ideal)) V (Proc.devRef .tc main_arg11) = V (Proc.devRef .tc main_arg11) := by after_results_simp
theorem host2_keep_arg12 : StableHlo.after (hostOps2 (F := Ideal)) V (Proc.devRef .tc main_arg12) = V (Proc.devRef .tc main_arg12) := by after_results_simp
theorem host2_keep_arg13 : StableHlo.after (hostOps2 (F := Ideal)) V (Proc.devRef .tc main_arg13) = V (Proc.devRef .tc main_arg13) := by after_results_simp
theorem host2_keep_arg14 : StableHlo.after (hostOps2 (F := Ideal)) V (Proc.devRef .tc main_arg14) = V (Proc.devRef .tc main_arg14) := by after_results_simp
theorem host2_keep_arg15 : StableHlo.after (hostOps2 (F := Ideal)) V (Proc.devRef .tc main_arg15) = V (Proc.devRef .tc main_arg15) := by after_results_simp
theorem host2_keep_arg16 : StableHlo.after (hostOps2 (F := Ideal)) V (Proc.devRef .tc main_arg16) = V (Proc.devRef .tc main_arg16) := by after_results_simp
theorem host2_keep_arg17 : StableHlo.after (hostOps2 (F := Ideal)) V (Proc.devRef .tc main_arg17) = V (Proc.devRef .tc main_arg17) := by after_results_simp

/-- The pooled features are the shared mean pool of the third layer's output. -/
theorem host3_v66 : StableHlo.after (hostOps3 (F := Ideal)) V (Proc.devRef .tc main_v66)
    = pool (F := Ideal) (V (Proc.devRef .tc main_v54)) (V (Proc.devRef .tc main_arg2)) := by
  after_results_simp; rfl

theorem host3_v67 : StableHlo.after (hostOps3 (F := Ideal)) V (Proc.devRef .tc main_v67)
    = fun i => shapeCast S1x256 (V (Proc.devRef .tc main_arg13)) Facts₀.shapeCasts_S256_S1x256 i := by
  after_results_simp; rfl

theorem host3_v68 : StableHlo.after (hostOps3 (F := Ideal)) V (Proc.devRef .tc main_v68)
    = fun i => shapeCast S1x128 (V (Proc.devRef .tc main_arg15)) Facts₀.shapeCasts_S128_S1x128 i := by
  after_results_simp; rfl

theorem host3_v69 : StableHlo.after (hostOps3 (F := Ideal)) V (Proc.devRef .tc main_v69)
    = fun i => shapeCast S1x1 (V (Proc.devRef .tc main_arg17)) Facts₀.shapeCasts_S1_S1x1 i := by
  after_results_simp; rfl

theorem host3_keep_arg12 : StableHlo.after (hostOps3 (F := Ideal)) V (Proc.devRef .tc main_arg12) = V (Proc.devRef .tc main_arg12) := by after_results_simp
theorem host3_keep_arg14 : StableHlo.after (hostOps3 (F := Ideal)) V (Proc.devRef .tc main_arg14) = V (Proc.devRef .tc main_arg14) := by after_results_simp
theorem host3_keep_arg16 : StableHlo.after (hostOps3 (F := Ideal)) V (Proc.devRef .tc main_arg16) = V (Proc.devRef .tc main_arg16) := by after_results_simp

end Host

/-! ## From the second layer's output to the result -/

section Chain

variable
  (h2 : ∀ (V : (c : Dev nD) → (b : Ref sig .tc) → Buf (Elt Ideal) ((c : Thread nD τ).loc b)) (c : Dev nD),
    (dat2 (F := Ideal) V c).arrAt 5 cfg2.N
      = layer relu (V c main_v52) (V c main_v40) (V c main_arg9) (fun q => V c main_v53 (ix2 0 q)) (V c main_arg11))
  (h3 : ∀ (V : (c : Dev nD) → (b : Ref sig .tc) → Buf (Elt Ideal) ((c : Thread nD τ).loc b)) (c : Dev nD),
    (dat3 (F := Ideal) V c).arrAt 7 cfg3.N
      = readout (V c main_v66) (V c main_arg12) (fun q => V c main_v67 (ix2 0 q)) (V c main_arg14)
          (fun q => V c main_v68 (ix2 0 q)) (fun q => V c main_arg16 (ix2 0 q)) (V c main_v69 (ix2 0 0)))
include h2 h3

/-- THE RESULT from the second layer's output: the third layer of its neighbour average, pooled per graph, through
    the readout. -/
theorem tail_value
    (X2 : FVec Ideal S50000x256 .f32) (src dst : (⟨S800000, .i32⟩ : BufTy).Contents (Elt Ideal))
    (dinv : (⟨S50000x1, .f32⟩ : BufTy).Contents (Elt Ideal))
    (A2 : (⟨S50000, .i32⟩ : BufTy).Contents (Elt Ideal))
    (A9 : FVec Ideal S512x256 .f32) (A10 : FVec Ideal S512 .f32) (A11 : FVec Ideal S512x256 .f32)
    (A12 : FVec Ideal S256x512 .f32) (A13 : FVec Ideal S256 .f32) (A14 : FVec Ideal S128x256 .f32)
    (A15 : FVec Ideal S128 .f32) (A16 : FVec Ideal S1x128 .f32) (A17 : FVec Ideal S1 .f32)
    (e40 : W4 m ρ c (Proc.devRef .tc main_v40) = X2) (e1 : W4 m ρ c (Proc.devRef .tc main_v1) = src)
    (e3 : W4 m ρ c (Proc.devRef .tc main_v3) = dst) (e12 : W4 m ρ c (Proc.devRef .tc main_v12) = dinv)
    (a2 : W4 m ρ c (Proc.devRef .tc main_arg2) = A2) (a9 : W4 m ρ c (Proc.devRef .tc main_arg9) = A9)
    (a10 : W4 m ρ c (Proc.devRef .tc main_arg10) = A10) (a11 : W4 m ρ c (Proc.devRef .tc main_arg11) = A11)
    (a12 : W4 m ρ c (Proc.devRef .tc main_arg12) = A12) (a13 : W4 m ρ c (Proc.devRef .tc main_arg13) = A13)
    (a14 : W4 m ρ c (Proc.devRef .tc main_arg14) = A14) (a15 : W4 m ρ c (Proc.devRef .tc main_arg15) = A15)
    (a16 : W4 m ρ c (Proc.devRef .tc main_arg16) = A16) (a17 : W4 m ρ c (Proc.devRef .tc main_arg17) = A17) :
    W8 m ρ c (Proc.devRef .tc main_v70)
      = readout (pool (F := Ideal) (layer relu (agg256 (F := Ideal) X2 src dst dinv) X2 A9 (fun q => A10 (ix1 q)) A11) A2)
          A12 (fun q => A13 (ix1 q)) A14 (fun q => A15 (ix1 q)) (fun q => A16 (ix2 0 q)) (A17 (ix1 0)) := by
  -- the third stretch of host operations, from the second layer's exit
  have f52 : W5 m ρ c (Proc.devRef .tc main_v52) = agg256 (F := Ideal) X2 src dst dinv :=
    (host2_v52 (W4 m ρ c)).trans (by rw [e40, e1, e3, e12])
  have f40 : W5 m ρ c (Proc.devRef .tc main_v40) = X2 := (host2_keep_v40 (W4 m ρ c)).trans e40
  have f9 : W5 m ρ c (Proc.devRef .tc main_arg9) = A9 := (host2_keep_arg9 (W4 m ρ c)).trans a9
  have f11 : W5 m ρ c (Proc.devRef .tc main_arg11) = A11 := (host2_keep_arg11 (W4 m ρ c)).trans a11
  have f53 : (fun q : Fin 512 => (W5 m ρ c (Proc.devRef .tc main_v53) : S1x512.Idx → EReal) (ix2 0 q))
      = fun q => A10 (ix1 q) := by
    funext q
    rw [show W5 m ρ c (Proc.devRef .tc main_v53) = _ from host2_v53 (W4 m ρ c), a10]
    exact shapeCast_a_1a_apply _ _ 0 q
  -- the third layer's kernel
  have g54 : W6 m ρ c (Proc.devRef .tc main_v54)
      = layer relu (agg256 (F := Ideal) X2 src dst dinv) X2 A9 (fun q => A10 (ix1 q)) A11 := by
    refine (W6_arr m ρ c 5).trans ((h2 (V5 m ρ) c).trans ?_)
    show layer relu (W5 m ρ c (Proc.devRef .tc main_v52)) (W5 m ρ c (Proc.devRef .tc main_v40))
      (W5 m ρ c (Proc.devRef .tc main_arg9)) (fun q => W5 m ρ c (Proc.devRef .tc main_v53) (ix2 0 q))
      (W5 m ρ c (Proc.devRef .tc main_arg11)) = _
    rw [f52, f40, f9, f11, f53]
  have g2 : W6 m ρ c (Proc.devRef .tc main_arg2) = A2 :=
    (W6_of_ne m ρ c main_arg2 (by decide)).trans ((host2_keep_arg2 (W4 m ρ c)).trans a2)
  have g12 : W6 m ρ c (Proc.devRef .tc main_arg12) = A12 :=
    (W6_of_ne m ρ c main_arg12 (by decide)).trans ((host2_keep_arg12 (W4 m ρ c)).trans a12)
  have g13 : W6 m ρ c (Proc.devRef .tc main_arg13) = A13 :=
    (W6_of_ne m ρ c main_arg13 (by decide)).trans ((host2_keep_arg13 (W4 m ρ c)).trans a13)
  have g14 : W6 m ρ c (Proc.devRef .tc main_arg14) = A14 :=
    (W6_of_ne m ρ c main_arg14 (by decide)).trans ((host2_keep_arg14 (W4 m ρ c)).trans a14)
  have g15 : W6 m ρ c (Proc.devRef .tc main_arg15) = A15 :=
    (W6_of_ne m ρ c main_arg15 (by decide)).trans ((host2_keep_arg15 (W4 m ρ c)).trans a15)
  have g16 : W6 m ρ c (Proc.devRef .tc main_arg16) = A16 :=
    (W6_of_ne m ρ c main_arg16 (by decide)).trans ((host2_keep_arg16 (W4 m ρ c)).trans a16)
  have g17 : W6 m ρ c (Proc.devRef .tc main_arg17) = A17 :=
    (W6_of_ne m ρ c main_arg17 (by decide)).trans ((host2_keep_arg17 (W4 m ρ c)).trans a17)
  -- the last stretch of host operations
  have k66 : W7 m ρ c (Proc.devRef .tc main_v66)
      = pool (F := Ideal) (layer relu (agg256 (F := Ideal) X2 src dst dinv) X2 A9 (fun q => A10 (ix1 q)) A11) A2 :=
    (host3_v66 (W6 m ρ c)).trans (by rw [g54, g2])
  have k12 : W7 m ρ c (Proc.devRef .tc main_arg12) = A12 := (host3_keep_arg12 (W6 m ρ c)).trans g12
  have k14 : W7 m ρ c (Proc.devRef .tc main_arg14) = A14 := (host3_keep_arg14 (W6 m ρ c)).trans g14
  have k16 : W7 m ρ c (Proc.devRef .tc main_arg16) = A16 := (host3_keep_arg16 (W6 m ρ c)).trans g16
  have k67 : (fun q : Fin 256 => (W7 m ρ c (Proc.devRef .tc main_v67) : S1x256.Idx → EReal) (ix2 0 q))
      = fun q => A13 (ix1 q) := by
    funext q
    rw [show W7 m ρ c (Proc.devRef .tc main_v67) = _ from host3_v67 (W6 m ρ c), g13]
    exact shapeCast_a_1a_apply _ _ 0 q
  have k68 : (fun q : Fin 128 => (W7 m ρ c (Proc.devRef .tc main_v68) : S1x128.Idx → EReal) (ix2 0 q))
      = fun q => A15 (ix1 q) := by
    funext q
    rw [show W7 m ρ c (Proc.devRef .tc main_v68) = _ from host3_v68 (W6 m ρ c), g15]
    exact shapeCast_a_1a_apply _ _ 0 q
  have k69 : (W7 m ρ c (Proc.devRef .tc main_v69) : S1x1.Idx → EReal) (ix2 0 0) = A17 (ix1 0) := by
    rw [show W7 m ρ c (Proc.devRef .tc main_v69) = _ from host3_v69 (W6 m ρ c), g17]
    exact shapeCast_a_1a_apply _ _ 0 0
  -- the readout kernel
  refine (W8_arr m ρ c 7).trans ((h3 (V7 m ρ) c).trans ?_)
  show readout (W7 m ρ c (Proc.devRef .tc main_v66)) (W7 m ρ c (Proc.devRef .tc main_arg12))
    (fun q => W7 m ρ c (Proc.devRef .tc main_v67) (ix2 0 q)) (W7 m ρ c (Proc.devRef .tc main_arg14))
    (fun q => W7 m ρ c (Proc.devRef .tc main_v68) (ix2 0 q)) (fun q => W7 m ρ c (Proc.devRef .tc main_arg16) (ix2 0 q))
    (W7 m ρ c (Proc.devRef .tc main_v69) (ix2 0 0)) = _
  rw [k66, k12, k14, k16, k67, k68, k69]

end Chain

end Cert.Sage
end
-- ==== Proof.LayerBody.lean ====
/-
  The arithmetic of one graph layer on a block of rows, read at an index written by coordinates, at the
  ideal values, for any extents.

  A product whose dimension numbers contract axis 1 of BOTH operands (the right operand is stored with
  one row per output channel: [R, K] · [J, K] → [R, J]) and which accumulates into the zero matrix is,
  at `(p, q)`, the sum over `k` of the left operand at `(p, k)` times the right operand at `(q, k)`.
  Two such products added, plus a bias row `[1, J]` copied down the rows, is the layer before its
  activation (`Cert.Sage.pre`), in the same grouping `(Σ + Σ) + b`.  The two activations, a select on
  the strict test against zero between `z` and `slope · z`, and a maximum with zero, are pointwise.
-/
import Idealize.ShloMosaic.Lib.ValueIdx
import Idealize.ShloMosaic.Lib.ValueLayout
import Idealize.ShloMosaic.Lib.Pipeline.Value
import Idealize.ShloMosaic.PureOps.Ideal.Laws
import proofs.«174828_j31147102831272_2_alg».proof.Proof.Spec

noncomputable section

open scoped BigOperators

namespace Cert.Sage

open Idealize.ShloMosaic Idealize.ShloMosaic.ValueIdx

/-- The zero offsets of a whole-buffer rectangle of a matrix, spelt as a list and as a constant function. -/
theorem offsets_zero : (![0, 0] : Fin 2 → Nat) = fun _ => 0 :=
  funext fun a => match a with | ⟨0, _⟩ => rfl | ⟨1, _⟩ => rfl

/-! ## The product with the right operand stored by output channel -/

/-- The dimension numbers of a product contracting axis 1 of both operands. -/
abbrev dimsT {m k n : ℕ}
    (w : DotDims.WF ⟨2, ![m, k]⟩ ⟨2, ![n, k]⟩ ⟨2, ![m, n]⟩ [1] [1] [0] [0] [] []) :
    DotDims ⟨2, ![m, k]⟩ ⟨2, ![n, k]⟩ ⟨2, ![m, n]⟩ :=
  ⟨[1], [1], [0], [0], [], [], w⟩

/-- THE PRODUCT AT `(a, b)`, accumulated into zero: the sum over the contracted coordinate `c` of the
    left operand at `(a, c)` times the right operand at `(b, c)`. -/
theorem matmulT_zero_apply {m k n : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    FloatOps.matmul (dimsT w) prec A B (constant (F := Ideal) ⟨2, ![m, n]⟩ .f32 0x00000000#32) (ix2 a b)
      = ∑ c : Fin k, A (ix2 a c) * B (ix2 b c) := by
  rw [Ideal.matmul_constant_zero_apply, ← Equiv.sum_comp (contrEquiv1 (dimsT w) k rfl rfl).symm]
  refine Finset.sum_congr rfl fun c _ => ?_
  have hc := contrEquiv1_symm_val (dimsT w) k rfl rfl c
  have l0 : ∀ q : (dimsT w).contr.Idx, ((dimsT w).lhsIdx (ix2 a b) q (0 : Fin 2)).val = a.val := fun q => by
    unfold DotDims.lhsIdx
    rw [dif_neg (show ¬(0 : Fin 2) ∈ (dimsT w).lhsBatch from List.not_mem_nil),
      dif_pos (show (0 : Fin 2) ∈ (dimsT w).lhsNonContracting from List.mem_singleton.mpr rfl)]
    rfl
  have r0 : ∀ q : (dimsT w).contr.Idx, ((dimsT w).rhsIdx (ix2 a b) q (0 : Fin 2)).val = b.val := fun q => by
    unfold DotDims.rhsIdx
    rw [dif_neg (show ¬(0 : Fin 2) ∈ (dimsT w).rhsBatch from List.not_mem_nil),
      dif_pos (show (0 : Fin 2) ∈ (dimsT w).rhsNonContracting from List.mem_singleton.mpr rfl)]
    rfl
  have el : (dimsT w).lhsIdx (ix2 a b) ((contrEquiv1 (dimsT w) k rfl rfl).symm c) = ix2 a c := by
    funext ax; apply Fin.ext
    match ax with
    | ⟨0, _⟩ => exact l0 _
    | ⟨1, _⟩ => exact ((dimsT w).lhsIdx_val_of_single (cl := (1 : Fin 2)) rfl _ _).trans hc
  have er : (dimsT w).rhsIdx (ix2 a b) ((contrEquiv1 (dimsT w) k rfl rfl).symm c) = ix2 b c := by
    funext ax; apply Fin.ext
    match ax with
    | ⟨0, _⟩ => exact r0 _
    | ⟨1, _⟩ => exact ((dimsT w).rhsIdx_val_of_single (cr := (1 : Fin 2)) rfl _ _).trans hc
  rw [el, er]

/-! ## The layer before its activation -/

/-- Two products into zero added, plus a bias row copied down the rows, at `(p, q)`: the layer's value
    before the activation, `(Σₖ A[p,k]·Wl[q,k] + Σₖ X[p,k]·Wr[q,k]) + b[q]`. -/
theorem pre_at {R Ci Co : ℕ} {φ₁ φ₂ : FTy}
    (w : DotDims.WF ⟨2, ![R, Ci]⟩ ⟨2, ![Co, Ci]⟩ ⟨2, ![R, Co]⟩ [1] [1] [0] [0] [] [])
    (prec : Option ContractPrecision)
    (A X : FVec Ideal ⟨2, ![R, Ci]⟩ φ₁) (Wl Wr : FVec Ideal ⟨2, ![Co, Ci]⟩ φ₂)
    (b : FVec Ideal ⟨2, ![1, Co]⟩ .f32) (hb : (⟨2, ![1, Co]⟩ : Shape).Broadcasts ⟨2, ![R, Co]⟩)
    (p : Fin R) (q : Fin Co) :
    (addf (addf (matmul (dimsT w) prec A Wl (constant (F := Ideal) ⟨2, ![R, Co]⟩ .f32 0x00000000#32))
                (matmul (dimsT w) prec X Wr (constant (F := Ideal) ⟨2, ![R, Co]⟩ .f32 0x00000000#32)))
          (broadcastTo ⟨2, ![R, Co]⟩ b hb) : FVec Ideal ⟨2, ![R, Co]⟩ .f32) (ix2 p q)
      = (∑ k : Fin Ci, A (ix2 p k) * Wl (ix2 q k)) + (∑ k : Fin Ci, X (ix2 p k) * Wr (ix2 q k))
          + b (ix2 (0 : Fin 1) q) := by
  rw [addf_apply, addf_apply, broadcastTo_1b_ab_apply]
  exact congrArg₂ (· + ·) (congrArg₂ (· + ·) (matmulT_zero_apply w prec A Wl p q) (matmulT_zero_apply w prec X Wr p q)) rfl

/-! ## The activations, pointwise -/

/-- The select on the strict test against the zero word, between `z` and the slope's word times `z`,
    at an index where `z` is `y`: the leaky clamp of `y`. -/
theorem leaky_at {S : Shape} (z : FVec Ideal S .f32) (i : S.Idx) (y : EReal) (h : z i = y) :
    select (cmpf .ogt z (broadcast S (Scalar.ofBits (F := Ideal) .f32 0x00000000#32))) z
        (mulf (broadcast S (Scalar.ofBits (F := Ideal) .f32 0x3C23D70A#32)) z) i = leaky y := by
  subst h; rfl

/-- The maximum with the zero word at an index where `z` is `y`: the clamp at zero of `y`. -/
theorem relu_at {S : Shape} (z : FVec Ideal S .f32) (i : S.Idx) (y : EReal) (h : z i = y) :
    maximumf z (broadcast S (Scalar.ofBits (F := Ideal) .f32 0x00000000#32)) i = relu y := by
  subst h; rfl

end Cert.Sage

end
-- ==== Proof.Region0.lean ====
/-
  Region 0 of the idealized kernel program: what the output array holds after the region's 50 grid points.

  Point `t` loads rows `1000·t … 1000·t + 999` of the neighbour average and of the features (both
  50000 × 50), the whole of the two weight matrices (128 × 50) and of the bias row (1 × 128), and stores
  rows `1000·t …` of the output (50000 × 128).  The body's arithmetic on the block is two products
  contracting the channel axis of both operands, added, plus the bias row copied down the rows, then
  the select between `z` and `slope · z` on the strict test `z > 0`; at row `p` of the block and channel `q` that is the layer
  `leaky (Σₖ agg[1000·t + p, k]·Wl[q, k] + Σₖ x[1000·t + p, k]·Wr[q, k] + b[q])`.  The 50 blocks tile the
  50000 rows (row `r` is in the block of point `r / 1000`), so the array ends holding the layer of the
  arrays the region finds, index by index.
-/
import proofs.«174828_j31147102831272_2_alg».proof.Proof.Gen.KernelIdeal.Frame
import proofs.«174828_j31147102831272_2_alg».proof.Proof.LayerBody
import Idealize.ShloMosaic.Lib.Pipeline.Value

noncomputable section

open scoped BigOperators

namespace Cert.Sage

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The body's arithmetic at row `p` of the block and channel `q`. -/
theorem pay0_at (x0 x1 : Vec Ideal S1000x50 .f32) (x2 x4 : Vec Ideal S128x50 .f32) (x3 : Vec Ideal S1x128 .f32)
    (p : Fin 1000) (q : Fin 128) :
    k0_pay1 (F := Ideal) x0 x1 x2 x4 x3 (ix2 p q)
      = leaky ((∑ k : Fin 50, x0 (ix2 p k) * x2 (ix2 q k)) + (∑ k : Fin 50, x1 (ix2 p k) * x4 (ix2 q k))
          + x3 (ix2 (0 : Fin 1) q)) := by
  unfold k0_pay1
  refine leaky_at _ _ _ ?_
  rw [shapeCast_self, shapeCast_self]
  exact pre_at dot_S1000x50_S128x50_S1000x128_1_1_0_0_n_n_wf none x0 x1 x2 x4 x3 broadcasts_S1x128_S1000x128 p q

/-- The layer of the arrays the region finds. -/
abbrev G0 (c : Dev nD) : FVec Ideal (Mat 50000 128) .f32 :=
  layer leaky (V c main_v24) (V c main_arg0) (V c main_arg3) (fun q => V c main_v25 (ix2 (0 : Fin 1) q)) (V c main_arg5)

/-- The printed index maps over the grid: a row window's block index is the point, a whole window's is zero. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Window 0's block at point `t` is rows `1000·t …` of the neighbour average. -/
theorem blk0_0_at (c : Dev nD) (t : Fin cfg0.N) (p : Fin 1000) (k : Fin 50) (r : Fin 50000)
    (hr : r.val = t.val * 1000 + p.val) :
    (iblk0 V c 0 t : Vec Ideal S1000x50 .f32) (ix2 p k) = (V c main_v24 : S50000x50.Idx → EReal) (ix2 r k) := by
  obtain ⟨e0, e1, -⟩ := idx_facts0 t
  unfold iblk0
  rw [View.read_apply]
  show V c main_v24 _ = V c main_v24 _
  refine congrArg _ (funext fun a => Fin.ext ?_)
  match a with
  | ⟨0, _⟩ => show win0_0.index t (0 : Fin 2) * 1000 + 1 * p.val = r.val; omega
  | ⟨1, _⟩ => show win0_0.index t (1 : Fin 2) * 50 + 1 * k.val = k.val; omega

/-- Window 1's block at point `t` is rows `1000·t …` of the features. -/
theorem blk0_1_at (c : Dev nD) (t : Fin cfg0.N) (p : Fin 1000) (k : Fin 50) (r : Fin 50000)
    (hr : r.val = t.val * 1000 + p.val) :
    (iblk0 V c 1 t : Vec Ideal S1000x50 .f32) (ix2 p k) = (V c main_arg0 : S50000x50.Idx → EReal) (ix2 r k) := by
  obtain ⟨-, -, e0, e1, -⟩ := idx_facts0 t
  unfold iblk0
  rw [View.read_apply]
  show V c main_arg0 _ = V c main_arg0 _
  refine congrArg _ (funext fun a => Fin.ext ?_)
  match a with
  | ⟨0, _⟩ => show win0_1.index t (0 : Fin 2) * 1000 + 1 * p.val = r.val; omega
  | ⟨1, _⟩ => show win0_1.index t (1 : Fin 2) * 50 + 1 * k.val = k.val; omega

/-- Window 2's block at every point is the whole left weight matrix. -/
theorem blk0_2_at (c : Dev nD) (t : Fin cfg0.N) (q : Fin 128) (k : Fin 50) :
    (iblk0 V c 2 t : Vec Ideal S128x50 .f32) (ix2 q k) = (V c main_arg3 : S128x50.Idx → EReal) (ix2 q k) := by
  obtain ⟨-, -, -, -, e0, e1, -⟩ := idx_facts0 t
  unfold iblk0
  rw [View.read_apply]
  show V c main_arg3 _ = V c main_arg3 _
  refine congrArg _ (funext fun a => Fin.ext ?_)
  match a with
  | ⟨0, _⟩ => show win0_2.index t (0 : Fin 2) * 128 + 1 * q.val = q.val; omega
  | ⟨1, _⟩ => show win0_2.index t (1 : Fin 2) * 50 + 1 * k.val = k.val; omega

/-- Window 3's block at every point is the whole bias row. -/
theorem blk0_3_at (c : Dev nD) (t : Fin cfg0.N) (q : Fin 128) :
    (iblk0 V c 3 t : Vec Ideal S1x128 .f32) (ix2 (0 : Fin 1) q) = (V c main_v25 : S1x128.Idx → EReal) (ix2 (0 : Fin 1) q) := by
  obtain ⟨-, -, -, -, -, -, e0, e1, -⟩ := idx_facts0 t
  unfold iblk0
  rw [View.read_apply]
  show V c main_v25 _ = V c main_v25 _
  refine congrArg _ (funext fun a => Fin.ext ?_)
  match a with
  | ⟨0, _⟩ => show win0_3.index t (0 : Fin 2) * 1 + 1 * 0 = 0; omega
  | ⟨1, _⟩ => show win0_3.index t (1 : Fin 2) * 128 + 1 * q.val = q.val; omega

/-- Window 4's block at every point is the whole right weight matrix. -/
theorem blk0_4_at (c : Dev nD) (t : Fin cfg0.N) (q : Fin 128) (k : Fin 50) :
    (iblk0 V c 4 t : Vec Ideal S128x50 .f32) (ix2 q k) = (V c main_arg5 : S128x50.Idx → EReal) (ix2 q k) := by
  obtain ⟨-, -, -, -, -, -, -, -, e0, e1, -⟩ := idx_facts0 t
  unfold iblk0
  rw [View.read_apply]
  show V c main_arg5 _ = V c main_arg5 _
  refine congrArg _ (funext fun a => Fin.ext ?_)
  match a with
  | ⟨0, _⟩ => show win0_4.index t (0 : Fin 2) * 128 + 1 * q.val = q.val; omega
  | ⟨1, _⟩ => show win0_4.index t (1 : Fin 2) * 50 + 1 * k.val = k.val; omega

/-- What the body leaves in the output's buffer at point `t`, at row `p` of the block and channel `q`: the layer
    at row `1000·t + p`. -/
theorem out0_at (c : Dev nD) (t : Fin cfg0.N) (p : Fin 1000) (q : Fin 128) (r : Fin 50000)
    (hr : r.val = t.val * 1000 + p.val) :
    out0_5 (iblk0 V c 0 t) (iblk0 V c 1 t) (iblk0 V c 2 t) (iblk0 V c 3 t) (iblk0 V c 4 t) (ix2 p q)
      = G0 V c (ix2 r q) := by
  unfold out0_5
  rw [View.canon_unit_zero offsets_zero]
  simp only [View.ld_unit_zero (S := S1000x50) offsets_zero, View.ld_unit_zero (S := S128x50) offsets_zero,
    View.ld_unit_zero (S := S1x128) offsets_zero]
  refine (pay0_at (iblk0 V c 0 t) (iblk0 V c 1 t) (iblk0 V c 2 t) (iblk0 V c 4 t) (iblk0 V c 3 t) p q).trans ?_
  show leaky _ = leaky (pre (V c main_v24) (V c main_arg0) (V c main_arg3) (fun q => V c main_v25 (ix2 (0 : Fin 1) q))
    (V c main_arg5) r q)
  unfold pre
  refine congrArg leaky (congrArg₂ (· + ·) (congrArg₂ (· + ·)
    (Finset.sum_congr rfl fun k _ => ?_) (Finset.sum_congr rfl fun k _ => ?_)) (blk0_3_at V c t q))
  · rw [blk0_0_at V c t p k r hr, blk0_2_at V c t q k]
  · rw [blk0_1_at V c t p k r hr, blk0_4_at V c t q k]

/-- WHAT POINT `t` WRITES BACK is block `t` of the layer of the arrays the region finds. -/
theorem flushed0_eq (c : Dev nD) (t : Fin cfg0.N) :
    (dat0 V c).flushed 5 t = ((cfg0.win 5).blk t).view.read (Elt Ideal) (G0 V c) := by
  show (cfg0.win 5).cut (grid0.coords t) ((dat0 V c).after 5 t) = _
  rw [after0_5]
  obtain ⟨-, -, -, -, -, -, -, -, -, -, e0, e1⟩ := idx_facts0 t
  have hN : cfg0.N = 50 := N_0
  have ht : t.val < 50 := hN ▸ t.isLt
  funext j
  obtain ⟨p, q, rfl⟩ : ∃ (p : Fin 1000) (q : Fin 128), j = ix2 p q := ⟨j 0, j 1, eq_ix2 j⟩
  rw [View.read_apply]
  refine (out0_at V c t p q ⟨t.val * 1000 + p.val, by omega⟩ rfl).trans ?_
  refine congrArg _ (funext fun a => Fin.ext ?_)
  match a with
  | ⟨0, _⟩ => show t.val * 1000 + p.val = win0_5.index t (0 : Fin 2) * 1000 + 1 * p.val; omega
  | ⟨1, _⟩ => show q.val = win0_5.index t (1 : Fin 2) * 128 + 1 * q.val; omega

/-- An index of the output array is in point `t`'s block iff each coordinate is in the block's range on its axis. -/
theorem mem_blk0 (t : Fin cfg0.N) (i : S50000x128.Idx) :
    i ∈ ((cfg0.win 5).blk t).view.set ↔ ∀ a : Fin 2, win0_5.index t a * S1000x128.size a ≤ (i a).val
      ∧ (i a).val < win0_5.index t a * S1000x128.size a + S1000x128.size a := by
  show i ∈ ((View.whole main_v26).slice (win0_5.rect t)).set ↔ _
  rw [View.set_slice_whole, Rect.mem_set_unit]
  exact Iff.rfl

/-- THE OUTPUT ARRAY after the region's 50 points is the layer of the arrays the region finds: row `r` is in the
    block of point `r / 1000`, so the blocks cover the array. -/
theorem region0_arr (c : Dev Cert.KernelIdeal.nD) :
    (Cert.KernelIdeal.Gen.dat0 (F := Ideal) V c).arrAt 5 Cert.KernelIdeal.cfg0.N
      = layer leaky (V c main_v24) (V c main_arg0) (V c main_arg3) (fun q => V c main_v25 (ix2 0 q)) (V c main_arg5) :=
  (dat0 V c).arrAt_eq_of_cover 5 (G0 V c) (fun t _ => flushed0_eq V c t) fun i => by
    have hi0 : (i 0).val < 50000 := (i 0).isLt
    have hi1 : (i 1).val < 128 := (i 1).isLt
    have hN : cfg0.N = 50 := N_0
    obtain ⟨t, ht⟩ : ∃ t : Fin cfg0.N, t.val = (i 0).val / 1000 := ⟨⟨(i 0).val / 1000, by rw [hN]; omega⟩, rfl⟩
    obtain ⟨-, -, -, -, -, -, -, -, -, -, e0, e1⟩ := idx_facts0 t
    refine ⟨t, flush0_5 t, ?_⟩
    rw [mem_blk0]
    intro a
    match a with
    | ⟨0, _⟩ =>
      show win0_5.index t (0 : Fin 2) * 1000 ≤ (i 0).val ∧ (i 0).val < win0_5.index t (0 : Fin 2) * 1000 + 1000
      omega
    | ⟨1, _⟩ =>
      show win0_5.index t (1 : Fin 2) * 128 ≤ (i 1).val ∧ (i 1).val < win0_5.index t (1 : Fin 2) * 128 + 128
      omega

end Cert.Sage

end
-- ==== Proof.Region1.lean ====
/-
  Region 1 of the idealized kernel program: what the output array holds after the region's 50 grid points.

  Point `t` loads rows `1000·t … 1000·t + 999` of the neighbour average and of the features (both
  50000 × 128), the whole of the two weight matrices (256 × 128) and of the bias row (1 × 256), and stores
  rows `1000·t …` of the output (50000 × 256).  The body's arithmetic on the block is two products
  contracting the channel axis of both operands, added, plus the bias row copied down the rows, then
  the maximum with zero; at row `p` of the block and channel `q` that is the layer
  `relu (Σₖ agg[1000·t + p, k]·Wl[q, k] + Σₖ x[1000·t + p, k]·Wr[q, k] + b[q])`.  The 50 blocks tile the
  50000 rows (row `r` is in the block of point `r / 1000`), so the array ends holding the layer of the
  arrays the region finds, index by index.
-/
import proofs.«174828_j31147102831272_2_alg».proof.Proof.Gen.KernelIdeal.Frame
import proofs.«174828_j31147102831272_2_alg».proof.Proof.LayerBody
import Idealize.ShloMosaic.Lib.Pipeline.Value

noncomputable section

open scoped BigOperators

namespace Cert.Sage

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The body's arithmetic at row `p` of the block and channel `q`. -/
theorem pay1_at (x0 x1 : Vec Ideal S1000x128 .f32) (x2 x4 : Vec Ideal S256x128 .f32) (x3 : Vec Ideal S1x256 .f32)
    (p : Fin 1000) (q : Fin 256) :
    k1_pay1 (F := Ideal) x0 x1 x2 x4 x3 (ix2 p q)
      = relu ((∑ k : Fin 128, x0 (ix2 p k) * x2 (ix2 q k)) + (∑ k : Fin 128, x1 (ix2 p k) * x4 (ix2 q k))
          + x3 (ix2 (0 : Fin 1) q)) := by
  unfold k1_pay1
  refine relu_at _ _ _ ?_
  rw [shapeCast_self, shapeCast_self, shapeCast_self]
  exact pre_at dot_S1000x128_S256x128_S1000x256_1_1_0_0_n_n_wf none x0 x1 x2 x4 x3 broadcasts_S1x256_S1000x256 p q

/-- The layer of the arrays the region finds. -/
abbrev G1 (c : Dev nD) : FVec Ideal (Mat 50000 256) .f32 :=
  layer relu (V c main_v38) (V c main_v26) (V c main_arg6) (fun q => V c main_v39 (ix2 (0 : Fin 1) q)) (V c main_arg8)

/-- The printed index maps over the grid: a row window's block index is the point, a whole window's is zero. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Window 0's block at point `t` is rows `1000·t …` of the neighbour average. -/
theorem blk1_0_at (c : Dev nD) (t : Fin cfg1.N) (p : Fin 1000) (k : Fin 128) (r : Fin 50000)
    (hr : r.val = t.val * 1000 + p.val) :
    (iblk1 V c 0 t : Vec Ideal S1000x128 .f32) (ix2 p k) = (V c main_v38 : S50000x128.Idx → EReal) (ix2 r k) := by
  obtain ⟨e0, e1, -⟩ := idx_facts1 t
  unfold iblk1
  rw [View.read_apply]
  show V c main_v38 _ = V c main_v38 _
  refine congrArg _ (funext fun a => Fin.ext ?_)
  match a with
  | ⟨0, _⟩ => show win1_0.index t (0 : Fin 2) * 1000 + 1 * p.val = r.val; omega
  | ⟨1, _⟩ => show win1_0.index t (1 : Fin 2) * 128 + 1 * k.val = k.val; omega

/-- Window 1's block at point `t` is rows `1000·t …` of the features. -/
theorem blk1_1_at (c : Dev nD) (t : Fin cfg1.N) (p : Fin 1000) (k : Fin 128) (r : Fin 50000)
    (hr : r.val = t.val * 1000 + p.val) :
    (iblk1 V c 1 t : Vec Ideal S1000x128 .f32) (ix2 p k) = (V c main_v26 : S50000x128.Idx → EReal) (ix2 r k) := by
  obtain ⟨-, -, e0, e1, -⟩ := idx_facts1 t
  unfold iblk1
  rw [View.read_apply]
  show V c main_v26 _ = V c main_v26 _
  refine congrArg _ (funext fun a => Fin.ext ?_)
  match a with
  | ⟨0, _⟩ => show win1_1.index t (0 : Fin 2) * 1000 + 1 * p.val = r.val; omega
  | ⟨1, _⟩ => show win1_1.index t (1 : Fin 2) * 128 + 1 * k.val = k.val; omega

/-- Window 2's block at every point is the whole left weight matrix. -/
theorem blk1_2_at (c : Dev nD) (t : Fin cfg1.N) (q : Fin 256) (k : Fin 128) :
    (iblk1 V c 2 t : Vec Ideal S256x128 .f32) (ix2 q k) = (V c main_arg6 : S256x128.Idx → EReal) (ix2 q k) := by
  obtain ⟨-, -, -, -, e0, e1, -⟩ := idx_facts1 t
  unfold iblk1
  rw [View.read_apply]
  show V c main_arg6 _ = V c main_arg6 _
  refine congrArg _ (funext fun a => Fin.ext ?_)
  match a with
  | ⟨0, _⟩ => show win1_2.index t (0 : Fin 2) * 256 + 1 * q.val = q.val; omega
  | ⟨1, _⟩ => show win1_2.index t (1 : Fin 2) * 128 + 1 * k.val = k.val; omega

/-- Window 3's block at every point is the whole bias row. -/
theorem blk1_3_at (c : Dev nD) (t : Fin cfg1.N) (q : Fin 256) :
    (iblk1 V c 3 t : Vec Ideal S1x256 .f32) (ix2 (0 : Fin 1) q) = (V c main_v39 : S1x256.Idx → EReal) (ix2 (0 : Fin 1) q) := by
  obtain ⟨-, -, -, -, -, -, e0, e1, -⟩ := idx_facts1 t
  unfold iblk1
  rw [View.read_apply]
  show V c main_v39 _ = V c main_v39 _
  refine congrArg _ (funext fun a => Fin.ext ?_)
  match a with
  | ⟨0, _⟩ => show win1_3.index t (0 : Fin 2) * 1 + 1 * 0 = 0; omega
  | ⟨1, _⟩ => show win1_3.index t (1 : Fin 2) * 256 + 1 * q.val = q.val; omega

/-- Window 4's block at every point is the whole right weight matrix. -/
theorem blk1_4_at (c : Dev nD) (t : Fin cfg1.N) (q : Fin 256) (k : Fin 128) :
    (iblk1 V c 4 t : Vec Ideal S256x128 .f32) (ix2 q k) = (V c main_arg8 : S256x128.Idx → EReal) (ix2 q k) := by
  obtain ⟨-, -, -, -, -, -, -, -, e0, e1, -⟩ := idx_facts1 t
  unfold iblk1
  rw [View.read_apply]
  show V c main_arg8 _ = V c main_arg8 _
  refine congrArg _ (funext fun a => Fin.ext ?_)
  match a with
  | ⟨0, _⟩ => show win1_4.index t (0 : Fin 2) * 256 + 1 * q.val = q.val; omega
  | ⟨1, _⟩ => show win1_4.index t (1 : Fin 2) * 128 + 1 * k.val = k.val; omega

/-- What the body leaves in the output's buffer at point `t`, at row `p` of the block and channel `q`: the layer
    at row `1000·t + p`. -/
theorem out1_at (c : Dev nD) (t : Fin cfg1.N) (p : Fin 1000) (q : Fin 256) (r : Fin 50000)
    (hr : r.val = t.val * 1000 + p.val) :
    out1_5 (iblk1 V c 0 t) (iblk1 V c 1 t) (iblk1 V c 2 t) (iblk1 V c 3 t) (iblk1 V c 4 t) (ix2 p q)
      = G1 V c (ix2 r q) := by
  unfold out1_5
  rw [View.canon_unit_zero offsets_zero]
  simp only [View.ld_unit_zero (S := S1000x128) offsets_zero, View.ld_unit_zero (S := S256x128) offsets_zero,
    View.ld_unit_zero (S := S1x256) offsets_zero]
  refine (pay1_at (iblk1 V c 0 t) (iblk1 V c 1 t) (iblk1 V c 2 t) (iblk1 V c 4 t) (iblk1 V c 3 t) p q).trans ?_
  show relu _ = relu (pre (V c main_v38) (V c main_v26) (V c main_arg6) (fun q => V c main_v39 (ix2 (0 : Fin 1) q))
    (V c main_arg8) r q)
  unfold pre
  refine congrArg relu (congrArg₂ (· + ·) (congrArg₂ (· + ·)
    (Finset.sum_congr rfl fun k _ => ?_) (Finset.sum_congr rfl fun k _ => ?_)) (blk1_3_at V c t q))
  · rw [blk1_0_at V c t p k r hr, blk1_2_at V c t q k]
  · rw [blk1_1_at V c t p k r hr, blk1_4_at V c t q k]

/-- WHAT POINT `t` WRITES BACK is block `t` of the layer of the arrays the region finds. -/
theorem flushed1_eq (c : Dev nD) (t : Fin cfg1.N) :
    (dat1 V c).flushed 5 t = ((cfg1.win 5).blk t).view.read (Elt Ideal) (G1 V c) := by
  show (cfg1.win 5).cut (grid1.coords t) ((dat1 V c).after 5 t) = _
  rw [after1_5]
  obtain ⟨-, -, -, -, -, -, -, -, -, -, e0, e1⟩ := idx_facts1 t
  have hN : cfg1.N = 50 := N_1
  have ht : t.val < 50 := hN ▸ t.isLt
  funext j
  obtain ⟨p, q, rfl⟩ : ∃ (p : Fin 1000) (q : Fin 256), j = ix2 p q := ⟨j 0, j 1, eq_ix2 j⟩
  rw [View.read_apply]
  refine (out1_at V c t p q ⟨t.val * 1000 + p.val, by omega⟩ rfl).trans ?_
  refine congrArg _ (funext fun a => Fin.ext ?_)
  match a with
  | ⟨0, _⟩ => show t.val * 1000 + p.val = win1_5.index t (0 : Fin 2) * 1000 + 1 * p.val; omega
  | ⟨1, _⟩ => show q.val = win1_5.index t (1 : Fin 2) * 256 + 1 * q.val; omega

/-- An index of the output array is in point `t`'s block iff each coordinate is in the block's range on its axis. -/
theorem mem_blk1 (t : Fin cfg1.N) (i : S50000x256.Idx) :
    i ∈ ((cfg1.win 5).blk t).view.set ↔ ∀ a : Fin 2, win1_5.index t a * S1000x256.size a ≤ (i a).val
      ∧ (i a).val < win1_5.index t a * S1000x256.size a + S1000x256.size a := by
  show i ∈ ((View.whole main_v40).slice (win1_5.rect t)).set ↔ _
  rw [View.set_slice_whole, Rect.mem_set_unit]
  exact Iff.rfl

/-- THE OUTPUT ARRAY after the region's 50 points is the layer of the arrays the region finds: row `r` is in the
    block of point `r / 1000`, so the blocks cover the array. -/
theorem region1_arr (c : Dev Cert.KernelIdeal.nD) :
    (Cert.KernelIdeal.Gen.dat1 (F := Ideal) V c).arrAt 5 Cert.KernelIdeal.cfg1.N
      = layer relu (V c main_v38) (V c main_v26) (V c main_arg6) (fun q => V c main_v39 (ix2 0 q)) (V c main_arg8) :=
  (dat1 V c).arrAt_eq_of_cover 5 (G1 V c) (fun t _ => flushed1_eq V c t) fun i => by
    have hi0 : (i 0).val < 50000 := (i 0).isLt
    have hi1 : (i 1).val < 256 := (i 1).isLt
    have hN : cfg1.N = 50 := N_1
    obtain ⟨t, ht⟩ : ∃ t : Fin cfg1.N, t.val = (i 0).val / 1000 := ⟨⟨(i 0).val / 1000, by rw [hN]; omega⟩, rfl⟩
    obtain ⟨-, -, -, -, -, -, -, -, -, -, e0, e1⟩ := idx_facts1 t
    refine ⟨t, flush1_5 t, ?_⟩
    rw [mem_blk1]
    intro a
    match a with
    | ⟨0, _⟩ =>
      show win1_5.index t (0 : Fin 2) * 1000 ≤ (i 0).val ∧ (i 0).val < win1_5.index t (0 : Fin 2) * 1000 + 1000
      omega
    | ⟨1, _⟩ =>
      show win1_5.index t (1 : Fin 2) * 256 ≤ (i 1).val ∧ (i 1).val < win1_5.index t (1 : Fin 2) * 256 + 256
      omega

end Cert.Sage

end
-- ==== Proof.Region2.lean ====
/-
  Region 2 of the idealized kernel program: what the output array holds after the region's 50 grid points.

  Point `t` loads rows `1000·t … 1000·t + 999` of the neighbour average and of the features (both
  50000 × 256), the whole of the two weight matrices (512 × 256) and of the bias row (1 × 512), and stores
  rows `1000·t …` of the output (50000 × 512).  The body's arithmetic on the block is two products
  contracting the channel axis of both operands, added, plus the bias row copied down the rows, then
  the maximum with zero; at row `p` of the block and channel `q` that is the layer
  `relu (Σₖ agg[1000·t + p, k]·Wl[q, k] + Σₖ x[1000·t + p, k]·Wr[q, k] + b[q])`.  The 50 blocks tile the
  50000 rows (row `r` is in the block of point `r / 1000`), so the array ends holding the layer of the
  arrays the region finds, index by index.
-/
import proofs.«174828_j31147102831272_2_alg».proof.Proof.Gen.KernelIdeal.Frame
import proofs.«174828_j31147102831272_2_alg».proof.Proof.LayerBody
import Idealize.ShloMosaic.Lib.Pipeline.Value

noncomputable section

open scoped BigOperators

namespace Cert.Sage

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The body's arithmetic at row `p` of the block and channel `q`. -/
theorem pay2_at (x0 x1 : Vec Ideal S1000x256 .f32) (x2 x4 : Vec Ideal S512x256 .f32) (x3 : Vec Ideal S1x512 .f32)
    (p : Fin 1000) (q : Fin 512) :
    k2_pay1 (F := Ideal) x0 x1 x2 x4 x3 (ix2 p q)
      = relu ((∑ k : Fin 256, x0 (ix2 p k) * x2 (ix2 q k)) + (∑ k : Fin 256, x1 (ix2 p k) * x4 (ix2 q k))
          + x3 (ix2 (0 : Fin 1) q)) := by
  unfold k2_pay1
  refine relu_at _ _ _ ?_
  rw [shapeCast_self, shapeCast_self, shapeCast_self]
  exact pre_at dot_S1000x256_S512x256_S1000x512_1_1_0_0_n_n_wf none x0 x1 x2 x4 x3 broadcasts_S1x512_S1000x512 p q

/-- The layer of the arrays the region finds. -/
abbrev G2 (c : Dev nD) : FVec Ideal (Mat 50000 512) .f32 :=
  layer relu (V c main_v52) (V c main_v40) (V c main_arg9) (fun q => V c main_v53 (ix2 (0 : Fin 1) q)) (V c main_arg11)

/-- The printed index maps over the grid: a row window's block index is the point, a whole window's is zero. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Window 0's block at point `t` is rows `1000·t …` of the neighbour average. -/
theorem blk2_0_at (c : Dev nD) (t : Fin cfg2.N) (p : Fin 1000) (k : Fin 256) (r : Fin 50000)
    (hr : r.val = t.val * 1000 + p.val) :
    (iblk2 V c 0 t : Vec Ideal S1000x256 .f32) (ix2 p k) = (V c main_v52 : S50000x256.Idx → EReal) (ix2 r k) := by
  obtain ⟨e0, e1, -⟩ := idx_facts2 t
  unfold iblk2
  rw [View.read_apply]
  show V c main_v52 _ = V c main_v52 _
  refine congrArg _ (funext fun a => Fin.ext ?_)
  match a with
  | ⟨0, _⟩ => show win2_0.index t (0 : Fin 2) * 1000 + 1 * p.val = r.val; omega
  | ⟨1, _⟩ => show win2_0.index t (1 : Fin 2) * 256 + 1 * k.val = k.val; omega

/-- Window 1's block at point `t` is rows `1000·t …` of the features. -/
theorem blk2_1_at (c : Dev nD) (t : Fin cfg2.N) (p : Fin 1000) (k : Fin 256) (r : Fin 50000)
    (hr : r.val = t.val * 1000 + p.val) :
    (iblk2 V c 1 t : Vec Ideal S1000x256 .f32) (ix2 p k) = (V c main_v40 : S50000x256.Idx → EReal) (ix2 r k) := by
  obtain ⟨-, -, e0, e1, -⟩ := idx_facts2 t
  unfold iblk2
  rw [View.read_apply]
  show V c main_v40 _ = V c main_v40 _
  refine congrArg _ (funext fun a => Fin.ext ?_)
  match a with
  | ⟨0, _⟩ => show win2_1.index t (0 : Fin 2) * 1000 + 1 * p.val = r.val; omega
  | ⟨1, _⟩ => show win2_1.index t (1 : Fin 2) * 256 + 1 * k.val = k.val; omega

/-- Window 2's block at every point is the whole left weight matrix. -/
theorem blk2_2_at (c : Dev nD) (t : Fin cfg2.N) (q : Fin 512) (k : Fin 256) :
    (iblk2 V c 2 t : Vec Ideal S512x256 .f32) (ix2 q k) = (V c main_arg9 : S512x256.Idx → EReal) (ix2 q k) := by
  obtain ⟨-, -, -, -, e0, e1, -⟩ := idx_facts2 t
  unfold iblk2
  rw [View.read_apply]
  show V c main_arg9 _ = V c main_arg9 _
  refine congrArg _ (funext fun a => Fin.ext ?_)
  match a with
  | ⟨0, _⟩ => show win2_2.index t (0 : Fin 2) * 512 + 1 * q.val = q.val; omega
  | ⟨1, _⟩ => show win2_2.index t (1 : Fin 2) * 256 + 1 * k.val = k.val; omega

/-- Window 3's block at every point is the whole bias row. -/
theorem blk2_3_at (c : Dev nD) (t : Fin cfg2.N) (q : Fin 512) :
    (iblk2 V c 3 t : Vec Ideal S1x512 .f32) (ix2 (0 : Fin 1) q) = (V c main_v53 : S1x512.Idx → EReal) (ix2 (0 : Fin 1) q) := by
  obtain ⟨-, -, -, -, -, -, e0, e1, -⟩ := idx_facts2 t
  unfold iblk2
  rw [View.read_apply]
  show V c main_v53 _ = V c main_v53 _
  refine congrArg _ (funext fun a => Fin.ext ?_)
  match a with
  | ⟨0, _⟩ => show win2_3.index t (0 : Fin 2) * 1 + 1 * 0 = 0; omega
  | ⟨1, _⟩ => show win2_3.index t (1 : Fin 2) * 512 + 1 * q.val = q.val; omega

/-- Window 4's block at every point is the whole right weight matrix. -/
theorem blk2_4_at (c : Dev nD) (t : Fin cfg2.N) (q : Fin 512) (k : Fin 256) :
    (iblk2 V c 4 t : Vec Ideal S512x256 .f32) (ix2 q k) = (V c main_arg11 : S512x256.Idx → EReal) (ix2 q k) := by
  obtain ⟨-, -, -, -, -, -, -, -, e0, e1, -⟩ := idx_facts2 t
  unfold iblk2
  rw [View.read_apply]
  show V c main_arg11 _ = V c main_arg11 _
  refine congrArg _ (funext fun a => Fin.ext ?_)
  match a with
  | ⟨0, _⟩ => show win2_4.index t (0 : Fin 2) * 512 + 1 * q.val = q.val; omega
  | ⟨1, _⟩ => show win2_4.index t (1 : Fin 2) * 256 + 1 * k.val = k.val; omega

/-- What the body leaves in the output's buffer at point `t`, at row `p` of the block and channel `q`: the layer
    at row `1000·t + p`. -/
theorem out2_at (c : Dev nD) (t : Fin cfg2.N) (p : Fin 1000) (q : Fin 512) (r : Fin 50000)
    (hr : r.val = t.val * 1000 + p.val) :
    out2_5 (iblk2 V c 0 t) (iblk2 V c 1 t) (iblk2 V c 2 t) (iblk2 V c 3 t) (iblk2 V c 4 t) (ix2 p q)
      = G2 V c (ix2 r q) := by
  unfold out2_5
  rw [View.canon_unit_zero offsets_zero]
  simp only [View.ld_unit_zero (S := S1000x256) offsets_zero, View.ld_unit_zero (S := S512x256) offsets_zero,
    View.ld_unit_zero (S := S1x512) offsets_zero]
  refine (pay2_at (iblk2 V c 0 t) (iblk2 V c 1 t) (iblk2 V c 2 t) (iblk2 V c 4 t) (iblk2 V c 3 t) p q).trans ?_
  show relu _ = relu (pre (V c main_v52) (V c main_v40) (V c main_arg9) (fun q => V c main_v53 (ix2 (0 : Fin 1) q))
    (V c main_arg11) r q)
  unfold pre
  refine congrArg relu (congrArg₂ (· + ·) (congrArg₂ (· + ·)
    (Finset.sum_congr rfl fun k _ => ?_) (Finset.sum_congr rfl fun k _ => ?_)) (blk2_3_at V c t q))
  · rw [blk2_0_at V c t p k r hr, blk2_2_at V c t q k]
  · rw [blk2_1_at V c t p k r hr, blk2_4_at V c t q k]

/-- WHAT POINT `t` WRITES BACK is block `t` of the layer of the arrays the region finds. -/
theorem flushed2_eq (c : Dev nD) (t : Fin cfg2.N) :
    (dat2 V c).flushed 5 t = ((cfg2.win 5).blk t).view.read (Elt Ideal) (G2 V c) := by
  show (cfg2.win 5).cut (grid2.coords t) ((dat2 V c).after 5 t) = _
  rw [after2_5]
  obtain ⟨-, -, -, -, -, -, -, -, -, -, e0, e1⟩ := idx_facts2 t
  have hN : cfg2.N = 50 := N_2
  have ht : t.val < 50 := hN ▸ t.isLt
  funext j
  obtain ⟨p, q, rfl⟩ : ∃ (p : Fin 1000) (q : Fin 512), j = ix2 p q := ⟨j 0, j 1, eq_ix2 j⟩
  rw [View.read_apply]
  refine (out2_at V c t p q ⟨t.val * 1000 + p.val, by omega⟩ rfl).trans ?_
  refine congrArg _ (funext fun a => Fin.ext ?_)
  match a with
  | ⟨0, _⟩ => show t.val * 1000 + p.val = win2_5.index t (0 : Fin 2) * 1000 + 1 * p.val; omega
  | ⟨1, _⟩ => show q.val = win2_5.index t (1 : Fin 2) * 512 + 1 * q.val; omega

/-- An index of the output array is in point `t`'s block iff each coordinate is in the block's range on its axis. -/
theorem mem_blk2 (t : Fin cfg2.N) (i : S50000x512.Idx) :
    i ∈ ((cfg2.win 5).blk t).view.set ↔ ∀ a : Fin 2, win2_5.index t a * S1000x512.size a ≤ (i a).val
      ∧ (i a).val < win2_5.index t a * S1000x512.size a + S1000x512.size a := by
  show i ∈ ((View.whole main_v54).slice (win2_5.rect t)).set ↔ _
  rw [View.set_slice_whole, Rect.mem_set_unit]
  exact Iff.rfl

/-- THE OUTPUT ARRAY after the region's 50 points is the layer of the arrays the region finds: row `r` is in the
    block of point `r / 1000`, so the blocks cover the array. -/
theorem region2_arr (c : Dev Cert.KernelIdeal.nD) :
    (Cert.KernelIdeal.Gen.dat2 (F := Ideal) V c).arrAt 5 Cert.KernelIdeal.cfg2.N
      = layer relu (V c main_v52) (V c main_v40) (V c main_arg9) (fun q => V c main_v53 (ix2 0 q)) (V c main_arg11) :=
  (dat2 V c).arrAt_eq_of_cover 5 (G2 V c) (fun t _ => flushed2_eq V c t) fun i => by
    have hi0 : (i 0).val < 50000 := (i 0).isLt
    have hi1 : (i 1).val < 512 := (i 1).isLt
    have hN : cfg2.N = 50 := N_2
    obtain ⟨t, ht⟩ : ∃ t : Fin cfg2.N, t.val = (i 0).val / 1000 := ⟨⟨(i 0).val / 1000, by rw [hN]; omega⟩, rfl⟩
    obtain ⟨-, -, -, -, -, -, -, -, -, -, e0, e1⟩ := idx_facts2 t
    refine ⟨t, flush2_5 t, ?_⟩
    rw [mem_blk2]
    intro a
    match a with
    | ⟨0, _⟩ =>
      show win2_5.index t (0 : Fin 2) * 1000 ≤ (i 0).val ∧ (i 0).val < win2_5.index t (0 : Fin 2) * 1000 + 1000
      omega
    | ⟨1, _⟩ =>
      show win2_5.index t (1 : Fin 2) * 512 ≤ (i 1).val ∧ (i 1).val < win2_5.index t (1 : Fin 2) * 512 + 512
      omega

end Cert.Sage

end
-- ==== Proof.LibDotRows.lean ====
/-
  A plain matrix product read at an index.  For shapes [R, K] · [K, J] → [R, J] whose dimension
  numbers contract the left operand's axis 1 with the right operand's axis 0 (no batch axis), the
  sum over the contraction index that `tpu.matmul` and `dot_general` denote at the ideal values is
  the textbook sum over `k : Fin K` of `lhs (r, k) * rhs (k, c)`.  The four coordinate facts about
  the dimension numbers' operand indices are hypotheses: for a record with literal lists each of
  them holds by `rfl`.
-/
import Idealize.ShloMosaic.PureOps.Ideal.Laws
import Idealize.ShloMosaic.Lib.ValueIdx

noncomputable section

open scoped BigOperators

namespace Idealize.ShloMosaic.ValueIdx

open Idealize.ShloMosaic

/-- The contraction sum of a plain [R, K] · [K, J] product at output index `j` is the sum over
    `k : Fin K` of the left operand at `(j 0, k)` times the right operand at `(k, j 1)`. -/
theorem dot_rows_sum {M : Type*} [AddCommMonoid M] {R K J : Nat}
    (d : DotDims ⟨2, ![R, K]⟩ ⟨2, ![K, J]⟩ ⟨2, ![R, J]⟩)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (g : (⟨2, ![R, K]⟩ : Shape).Idx → (⟨2, ![K, J]⟩ : Shape).Idx → M) (j : (⟨2, ![R, J]⟩ : Shape).Idx) :
    ∑ k : d.contr.Idx, g (d.lhsIdx j k) (d.rhsIdx j k) = ∑ k : Fin K, g (ix2 (j 0) k) (ix2 k (j 1)) := by
  rw [← Equiv.sum_comp (contrEquiv1 d K hr hs).symm]
  refine Finset.sum_congr rfl fun k _ => ?_
  have e1 : d.lhsIdx j ((contrEquiv1 d K hr hs).symm k) = ix2 (j 0) k := by
    funext a
    match a with
    | ⟨0, _⟩ => exact Fin.ext (h1 j _)
    | ⟨1, _⟩ => exact Fin.ext ((h2 j _).trans (contrEquiv1_symm_val d K hr hs k))
  have e2 : d.rhsIdx j ((contrEquiv1 d K hr hs).symm k) = ix2 k (j 1) := by
    funext a
    match a with
    | ⟨0, _⟩ => exact Fin.ext ((h3 j _).trans (contrEquiv1_symm_val d K hr hs k))
    | ⟨1, _⟩ => exact Fin.ext (h4 j _)
  exact congrArg₂ g e1 e2

/-- A `tpu.matmul` into the zero accumulator, at the ideal values, read at `(r, c)`. -/
theorem matmul_zero_rows {R K J : Nat} {φ₁ φ₂ : FTy}
    (d : DotDims ⟨2, ![R, K]⟩ ⟨2, ![K, J]⟩ ⟨2, ![R, J]⟩) (prec : Option ContractPrecision)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (lhs : FVec Ideal ⟨2, ![R, K]⟩ φ₁) (rhs : FVec Ideal ⟨2, ![K, J]⟩ φ₂) (r : Fin R) (c : Fin J) :
    FloatOps.matmul d prec lhs rhs (constant ⟨2, ![R, J]⟩ .f32 0x00000000#32) (ix2 r c)
      = ∑ k : Fin K, lhs (ix2 r k) * rhs (ix2 k c) := by
  rw [Ideal.matmul_constant_zero_apply]
  exact dot_rows_sum d hr hs h1 h2 h3 h4 (fun a b => lhs a * rhs b) (ix2 r c)

/-- The host's `dot_general`, at the ideal values, read at `(r, c)`. -/
theorem dotGeneral_rows {R K J : Nat} {φ₁ φ₂ : FTy}
    (d : DotDims ⟨2, ![R, K]⟩ ⟨2, ![K, J]⟩ ⟨2, ![R, J]⟩) (prec : Option ContractPrecision) (sched : HostSchedule)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (lhs : FVec Ideal ⟨2, ![R, K]⟩ φ₁) (rhs : FVec Ideal ⟨2, ![K, J]⟩ φ₂) (r : Fin R) (c : Fin J) :
    FloatOps.dotGeneral d prec sched lhs rhs (ix2 r c) = ∑ k : Fin K, lhs (ix2 r k) * rhs (ix2 k c) := by
  rw [Ideal.dotGeneral_apply]
  exact dot_rows_sum d hr hs h1 h2 h3 h4 (fun a b => lhs a * rhs b) (ix2 r c)

end Idealize.ShloMosaic.ValueIdx

end
-- ==== Proof.LibLayout2.lean ====
/-
  A vector laid out as a row or a column and broadcast to a matrix, read at an index written by coordinates, for any
  element type and any extents.  A vector `[b]` made the row `[1, b]` (the same elements, now one row) and broadcast
  down `a` rows ([1, b] → [a, b]: every row a copy of the one row) reads, at `(i, j)`, the vector at `j`; a vector
  `[a]` made the column `[a, 1]` and broadcast along `b` columns reads, at `(i, j)`, the vector at `i`.  A reshape of
  a tensor keeps the elements in row-major order under the new shape, which is what a shape cast does, so these are
  also the readings of a vector reshaped into a row or a column and then broadcast.  Each is two of the library's
  read-at-an-index lemmas, one after the other.
-/
import Idealize.ShloMosaic.Lib.Pipeline.Value
import Idealize.ShloMosaic.Lib.ValueIdx
import Idealize.ShloMosaic.Lib.ValueLayout

open Idealize.ShloMosaic Idealize.ShloMosaic.ValueIdx

namespace Layout2

variable {α : Type}

/-- A vector `[b]` made a row and broadcast down `a` rows reads, at `(i, j)`, the vector at `j`. -/
theorem broadcastTo_row_of_vector_apply {a b : ℕ} (x : (⟨1, ![b]⟩ : Shape).Idx → α)
    (hc : (⟨1, ![b]⟩ : Shape).ShapeCasts ⟨2, ![1, b]⟩) (hb : (⟨2, ![1, b]⟩ : Shape).Broadcasts ⟨2, ![a, b]⟩)
    (i : Fin a) (j : Fin b) :
    broadcastTo ⟨2, ![a, b]⟩ (shapeCast ⟨2, ![1, b]⟩ x hc) hb (ix2 i j) = x (ix1 j) := by
  rw [broadcastTo_1b_ab_apply, shapeCast_a_1a_apply]

/-- A vector `[a]` cast to the column `[a, 1]` reads, at `(i, u)`, the operand at `i`, whatever the unit
    coordinate `u`. -/
theorem shapeCast_col_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column at row `i`. -/
theorem broadcastTo_col_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A vector `[a]` made a column and broadcast along `b` columns reads, at `(i, j)`, the vector at `i`. -/
theorem broadcastTo_col_of_vector_apply {a b : ℕ} (x : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (i : Fin a) (j : Fin b) :
    broadcastTo ⟨2, ![a, b]⟩ (shapeCast ⟨2, ![a, 1]⟩ x hc) hb (ix2 i j) = x (ix1 i) := by
  rw [broadcastTo_col_apply, shapeCast_col_apply]

end Layout2
-- ==== Proof.LibPlainMatmul.lean ====
/-
  A plain matrix product and the one-axis reductions of a matrix, read at an index written by coordinates, at the
  ideal values, for any extents.

  The product of an `[m, k]` matrix by a `[k, n]` matrix accumulated into the zero matrix is, at `(a, b)`, the sum over
  the contracted coordinate `c` of the products of the entries `(a, c)` and `(c, b)`.  A sum over the rows of an
  `[a, b]` matrix (axis 0 dropped) is, at column `j`, the sum over `i` of the entries `(i, j)`; a sum along the rows
  (axis 1 dropped) is, at row `i`, the sum over `j` of the entries `(i, j)`; and a maximum over the rows is, at column
  `j`, the fold of `max` from the accumulator's value over the entries `(i, j)`.  Each sum runs over a finite index
  type, so no order of the additions is part of the statement.
-/
import Idealize.ShloMosaic.Lib.ValueIdx
import Idealize.ShloMosaic.PureOps.Ideal.Laws
import Idealize.ShloMosaic.PureOps.Reduce

open scoped BigOperators

namespace PlainMatmul

open Idealize.ShloMosaic Idealize.ShloMosaic.ValueIdx

/-! ## The plain product -/

/-- The dimension numbers of a plain product: the left operand's columns contracted with the right operand's rows. -/
abbrev dims {m k n : ℕ}
    (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ :=
  ⟨[1], [0], [0], [1], [], [], w⟩

/-- THE PLAIN PRODUCT AT `(a, b)`, accumulated into zero: the sum over the contracted coordinate. -/
theorem matmul_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (dims w) prec A B (constant (F := Ideal) ⟨2, ![m, n]⟩ .f32 0x00000000#32) (ix2 a b)
      = ∑ c : Fin k, A (ix2 a c) * B (ix2 c b) := by
  rw [Ideal.matmul_constant_zero_apply, ← Equiv.sum_comp (contrEquiv1 (dims w) k rfl rfl).symm]
  refine Finset.sum_congr rfl fun c _ => ?_
  have hc := contrEquiv1_symm_val (dims w) k rfl rfl c
  have l0 : ∀ q : (dims w).contr.Idx, ((dims w).lhsIdx (ix2 a b) q (0 : Fin 2)).val = a.val := fun q => by
    unfold DotDims.lhsIdx
    rw [dif_neg (show ¬(0 : Fin 2) ∈ (dims w).lhsBatch from List.not_mem_nil),
      dif_pos (show (0 : Fin 2) ∈ (dims w).lhsNonContracting from List.mem_singleton.mpr rfl)]
    rfl
  have r1 : ∀ q : (dims w).contr.Idx, ((dims w).rhsIdx (ix2 a b) q (1 : Fin 2)).val = b.val := fun q => by
    unfold DotDims.rhsIdx
    rw [dif_neg (show ¬(1 : Fin 2) ∈ (dims w).rhsBatch from List.not_mem_nil),
      dif_pos (show (1 : Fin 2) ∈ (dims w).rhsNonContracting from List.mem_singleton.mpr rfl)]
    rfl
  have el : (dims w).lhsIdx (ix2 a b) ((contrEquiv1 (dims w) k rfl rfl).symm c) = ix2 a c := by
    funext ax; apply Fin.ext
    match ax with
    | ⟨0, _⟩ => exact l0 _
    | ⟨1, _⟩ => exact ((dims w).lhsIdx_val_of_single (cl := (1 : Fin 2)) rfl _ _).trans hc
  have er : (dims w).rhsIdx (ix2 a b) ((contrEquiv1 (dims w) k rfl rfl).symm c) = ix2 c b := by
    funext ax; apply Fin.ext
    match ax with
    | ⟨0, _⟩ => exact ((dims w).rhsIdx_val_of_single (cr := (0 : Fin 2)) rfl _ _).trans hc
    | ⟨1, _⟩ => exact r1 _
  rw [el, er]

/-! ## The index a reduced index and a coordinate on the dropped axis name -/

/-- Dropping the FIRST axis of `[a, b]`: the index over `j` whose first coordinate is `k` is `(k, j)`. -/
theorem lift_first {a b : ℕ} (h : (⟨2, ![a, b]⟩ : Shape).Reduces [0] (⟨1, ![b]⟩ : Shape)) (j : Fin b)
    (k : Fin ((⟨2, ![a, b]⟩ : Shape).size 0)) :
    h.lift (ix1 j) k = ix2 (⟨k.val, k.isLt⟩ : Fin a) j := by
  funext ax; apply Fin.ext
  fin_cases ax <;> rfl

/-- Dropping the LAST axis of `[a, b]`: the index over `i` whose last coordinate is `k` is `(i, k)`. -/
theorem lift_last {a b : ℕ} (h : (⟨2, ![a, b]⟩ : Shape).Reduces [1] (⟨1, ![a]⟩ : Shape)) (i : Fin a)
    (k : Fin ((⟨2, ![a, b]⟩ : Shape).size 1)) :
    h.lift (ix1 i) k = ix2 i (⟨k.val, k.isLt⟩ : Fin b) := by
  funext ax; apply Fin.ext
  fin_cases ax <;> rfl

/-! ## Sums and a maximum over one axis of a matrix -/

variable {φ : FTy}

/-- A sum over the rows (axis 0 dropped), at column `j`. -/
theorem sum_axis0_apply {a b : ℕ} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (j : Fin b) :
    multiReduction .add [0] ⟨1, ![b]⟩ src acc h hφ hacc (ix1 j) = ∑ i : Fin a, src (ix2 i j) := by
  refine (Ideal.multiReduction_add_single src acc h hφ hacc (ix1 j)).trans ?_
  exact Finset.sum_congr rfl fun k _ => congrArg src (lift_first h j k)

/-- A sum along the rows (axis 1 dropped), at row `i`. -/
theorem sum_axis1_apply {a b : ℕ} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (i : Fin a) :
    multiReduction .add [1] ⟨1, ![a]⟩ src acc h hφ hacc (ix1 i) = ∑ j : Fin b, src (ix2 i j) := by
  refine (Ideal.multiReduction_add_single src acc h hφ hacc (ix1 i)).trans ?_
  exact Finset.sum_congr rfl fun k _ => congrArg src (lift_last h i k)

/-- A maximum over the rows (axis 0 dropped), at column `j`: the fold of `max` from the accumulator's value. -/
theorem max_axis0_apply {a b : ℕ} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.maximumf.neutral φ hφ) (j : Fin b) :
    multiReduction .maximumf [0] ⟨1, ![b]⟩ src acc h hφ hacc (ix1 j)
      = (Finset.univ : Finset (Fin a)).fold max (Ideal.ofBits φ acc) (fun i => src (ix2 i j)) := by
  refine (Ideal.multiReduction_maximumf_single src acc h hφ hacc (ix1 j)).trans ?_
  have hf : (src ∘ h.lift (ix1 j)) = fun i : Fin a => src (ix2 i j) :=
    funext fun k => congrArg src (lift_first h j k)
  exact congrArg (fun f => Finset.fold max (Ideal.ofBits φ acc) f (Finset.univ : Finset (Fin a))) hf

end PlainMatmul
-- ==== Proof.Region3.lean ====
/-
  The readout region of the idealized kernel: what its one grid point leaves in the output column, index by
  index, and hence what the output array holds after the region.

  The body multiplies the pooled features by the first weight matrix contracted along the second axis of both
  operands (entry (p, q) is the sum over k of x[p,k]·W[q,k]), adds the bias row, clamps at zero, does the same
  with the second weight matrix, multiplies each row by the output weights and sums it, adds the output bias and
  applies the logistic function.  The region's grid has a single point whose blocks are the whole arrays, so the
  array after the region is the body's result of the arrays the region finds.
-/
import proofs.«174828_j31147102831272_2_alg».proof.Proof.Gen.KernelIdeal.Frame
import proofs.«174828_j31147102831272_2_alg».proof.Proof.Spec
import proofs.«174828_j31147102831272_2_alg».proof.Proof.LibDotRows
import proofs.«174828_j31147102831272_2_alg».proof.Proof.LibLayout2
import proofs.«174828_j31147102831272_2_alg».proof.Proof.LibPlainMatmul
import Idealize.ShloMosaic.Lib.Pipeline.Value
import Idealize.ShloMosaic.Lib.ValueLayout

noncomputable section

open scoped BigOperators

namespace Cert.Sage.Region3

open Idealize.ShloMosaic Idealize.ShloMosaic.ValueIdx

/-- The contraction sum of an [R, K] · [J, K] product whose dimension numbers contract axis 1 of both operands,
    at output index `j`: the sum over `k : Fin K` of the left operand at `(j 0, k)` times the right operand at
    `(j 1, k)`. -/
theorem dot_rowsT_sum {M : Type*} [AddCommMonoid M] {R K J : Nat}
    (d : DotDims ⟨2, ![R, K]⟩ ⟨2, ![J, K]⟩ ⟨2, ![R, J]⟩)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (j 1).val)
    (h4 : ∀ j k, (d.rhsIdx j k 1).val = (k ⟨0, by omega⟩).val)
    (g : (⟨2, ![R, K]⟩ : Shape).Idx → (⟨2, ![J, K]⟩ : Shape).Idx → M) (j : (⟨2, ![R, J]⟩ : Shape).Idx) :
    ∑ k : d.contr.Idx, g (d.lhsIdx j k) (d.rhsIdx j k) = ∑ k : Fin K, g (ix2 (j 0) k) (ix2 (j 1) k) := by
  rw [← Equiv.sum_comp (contrEquiv1 d K hr hs).symm]
  refine Finset.sum_congr rfl fun k _ => ?_
  have e1 : d.lhsIdx j ((contrEquiv1 d K hr hs).symm k) = ix2 (j 0) k := by
    funext a
    match a with
    | ⟨0, _⟩ => exact Fin.ext (h1 j _)
    | ⟨1, _⟩ => exact Fin.ext ((h2 j _).trans (contrEquiv1_symm_val d K hr hs k))
  have e2 : d.rhsIdx j ((contrEquiv1 d K hr hs).symm k) = ix2 (j 1) k := by
    funext a
    match a with
    | ⟨0, _⟩ => exact Fin.ext (h3 j _)
    | ⟨1, _⟩ => exact Fin.ext ((h4 j _).trans (contrEquiv1_symm_val d K hr hs k))
  exact congrArg₂ g e1 e2

/-- Such a product accumulated into the zero matrix, at the ideal values, read at `(r, c)`. -/
theorem matmul_zero_rowsT {R K J : Nat} {φ₁ φ₂ : FTy}
    (d : DotDims ⟨2, ![R, K]⟩ ⟨2, ![J, K]⟩ ⟨2, ![R, J]⟩) (prec : Option ContractPrecision)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (j 1).val)
    (h4 : ∀ j k, (d.rhsIdx j k 1).val = (k ⟨0, by omega⟩).val)
    (lhs : FVec Ideal ⟨2, ![R, K]⟩ φ₁) (rhs : FVec Ideal ⟨2, ![J, K]⟩ φ₂) (r : Fin R) (c : Fin J) :
    FloatOps.matmul d prec lhs rhs (constant ⟨2, ![R, J]⟩ .f32 0x00000000#32) (ix2 r c)
      = ∑ k : Fin K, lhs (ix2 r k) * rhs (ix2 c k) := by
  rw [Ideal.matmul_constant_zero_apply]
  exact dot_rowsT_sum d hr hs h1 h2 h3 h4 (fun a b => lhs a * rhs b) (ix2 r c)

open Idealize.ShloMosaic.TcCoe
open Cert.KernelIdeal Cert.KernelIdeal.Facts₀
open Idealize.ShloMosaic.Pipeline (Dat)

/-! ## The body's arithmetic in three stages -/

/-- First stage: the product with the first weight matrix, the bias row added, clamped at zero. -/
def stage1 (x0 : Vec Ideal S512x512 .f32) (x1 : Vec Ideal S256x512 .f32) (x2 : Vec Ideal S1x256 .f32) :
    FVec Ideal S512x256 .f32 :=
  maximumf
    (addf
      (matmul dot_S512x512_S256x512_S512x256_1_1_0_0_n_n none
        (truncf .bf16 (shapeCast S512x512 x0 shapeCasts_S512x512_S512x512) bitsLt_bf16_f32)
        (truncf .bf16 x1 bitsLt_bf16_f32) (constant (F := Ideal) S512x256 .f32 0x00000000#32))
      (broadcastTo S512x256 (shapeCast S1x256 x2 shapeCasts_S1x256_S1x256) broadcasts_S1x256_S512x256))
    (broadcast S512x256 (Scalar.ofBits (F := Ideal) .f32 0x00000000#32))

/-- Second stage: the same with the second weight matrix. -/
def stage2 (h1 : FVec Ideal S512x256 .f32) (x3 : Vec Ideal S128x256 .f32) (x4 : Vec Ideal S1x128 .f32) :
    FVec Ideal S512x128 .f32 :=
  maximumf
    (addf
      (matmul dot_S512x256_S128x256_S512x128_1_1_0_0_n_n none
        (truncf .bf16 h1 bitsLt_bf16_f32)
        (truncf .bf16 x3 bitsLt_bf16_f32) (constant (F := Ideal) S512x128 .f32 0x00000000#32))
      (broadcastTo S512x128 (shapeCast S1x128 x4 shapeCasts_S1x128_S1x128) broadcasts_S1x128_S512x128))
    (broadcast S512x128 (Scalar.ofBits (F := Ideal) .f32 0x00000000#32))

/-- Third stage: each row times the output weights, summed, the output bias added, the logistic function. -/
def stage3 (h2 : FVec Ideal S512x128 .f32) (x5 : Vec Ideal S1x128 .f32) (x6 : Vec Ideal S1x1 .f32) :
    FVec Ideal S512x1 .f32 :=
  logistic
    (addf
      (shapeCast S512x1
        (multiReduction (F := Ideal) .add [1] S512 (mulf h2 (broadcastTo S512x128 x5 broadcasts_S1x128_S512x128))
          0x00000000#32 reduces_S512x128_S512 (.inl rfl) rfl)
        shapeCasts_S512_S512x1)
      (broadcastTo S512x1 (shapeCast S1x1 x6 shapeCasts_S1x1_S1x1) broadcasts_S1x1_S512x1))

/-- The body's payload is the three stages composed. -/
theorem pay_stages (x0 : Vec Ideal S512x512 .f32) (x1 : Vec Ideal S256x512 .f32) (x3 : Vec Ideal S128x256 .f32)
    (x2 : Vec Ideal S1x256 .f32) (x4 : Vec Ideal S1x128 .f32) (x5 : Vec Ideal S1x128 .f32) (x6 : Vec Ideal S1x1 .f32) :
    Gen.k3_pay1 (F := Ideal) x0 x1 x3 x2 x4 x5 x6 = stage3 (stage2 (stage1 x0 x1 x2) x3 x4) x5 x6 := rfl

/-! ## Each stage at an index -/

/-- A sum along the rows of a matrix from the zero word, at row `i`: the sum of the row's entries. -/
theorem rowSum_apply {a b : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32) (i : Fin a) :
    multiReduction (F := Ideal) .add [1] ⟨1, ![a]⟩ src 0x00000000#32 h hφ hacc (ix1 i) = ∑ j : Fin b, src (ix2 i j) :=
  PlainMatmul.sum_axis1_apply src 0x00000000#32 h hφ hacc i

/-- The first stage at graph `p`, channel `q`. -/
theorem stage1_apply (x0 : Vec Ideal S512x512 .f32) (x1 : Vec Ideal S256x512 .f32) (x2 : Vec Ideal S1x256 .f32)
    (p : Fin 512) (q : Fin 256) :
    stage1 x0 x1 x2 (ix2 p q) = hid1 x0 x1 (fun q => x2 (ix2 (0 : Fin 1) q)) p q := by
  unfold stage1 hid1 relu zero32
  simp only [matmul]
  rw [maximumf_apply, addf_apply]
  rw [matmul_zero_rowsT dot_S512x512_S256x512_S512x256_1_1_0_0_n_n none rfl rfl (fun _ _ => rfl) (fun _ _ => rfl) (fun _ _ => rfl) (fun _ _ => rfl)]
  rw [broadcastTo_1b_ab_apply, shapeCast_self, shapeCast_self]
  rfl

/-- The second stage at graph `p`, channel `q`, from any first hidden matrix `h1`. -/
theorem stage2_apply (h1 : FVec Ideal S512x256 .f32) (x3 : Vec Ideal S128x256 .f32) (x4 : Vec Ideal S1x128 .f32)
    (p : Fin 512) (q : Fin 128) :
    stage2 h1 x3 x4 (ix2 p q) = relu ((∑ k : Fin 256, h1 (ix2 p k) * x3 (ix2 q k)) + x4 (ix2 (0 : Fin 1) q)) := by
  unfold stage2 relu zero32
  simp only [matmul]
  rw [maximumf_apply, addf_apply]
  rw [matmul_zero_rowsT dot_S512x256_S128x256_S512x128_1_1_0_0_n_n none rfl rfl (fun _ _ => rfl) (fun _ _ => rfl) (fun _ _ => rfl) (fun _ _ => rfl)]
  rw [broadcastTo_1b_ab_apply, shapeCast_self]
  rfl

/-- The third stage at graph `p`, from any second hidden matrix `h2`. -/
theorem stage3_apply (h2 : FVec Ideal S512x128 .f32) (x5 : Vec Ideal S1x128 .f32) (x6 : Vec Ideal S1x1 .f32)
    (p : Fin 512) (u : Fin 1) :
    stage3 h2 x5 x6 (ix2 p u)
      = Ideal.logistic ((∑ k : Fin 128, h2 (ix2 p k) * x5 (ix2 (0 : Fin 1) k)) + x6 (ix2 (0 : Fin 1) (0 : Fin 1))) := by
  have hu : u = 0 := Subsingleton.elim _ _
  subst hu
  unfold stage3
  show Ideal.logistic (shapeCast S512x1 _ shapeCasts_S512_S512x1 (ix2 p (0 : Fin 1))
    + broadcastTo S512x1 _ broadcasts_S1x1_S512x1 (ix2 p (0 : Fin 1))) = _
  rw [Layout2.shapeCast_col_apply, rowSum_apply, broadcastTo_1b_ab_apply, shapeCast_self]
  refine congrArg (fun z => Ideal.logistic (z + x6 (ix2 (0 : Fin 1) (0 : Fin 1)))) (Finset.sum_congr rfl fun k _ => ?_)
  rw [mulf_apply, broadcastTo_1b_ab_apply]

/-- The body's payload at graph `p` is the specification's readout of its loaded blocks. -/
theorem pay_apply (x0 : Vec Ideal S512x512 .f32) (x1 : Vec Ideal S256x512 .f32) (x3 : Vec Ideal S128x256 .f32)
    (x2 : Vec Ideal S1x256 .f32) (x4 : Vec Ideal S1x128 .f32) (x5 : Vec Ideal S1x128 .f32) (x6 : Vec Ideal S1x1 .f32)
    (p : Fin 512) (u : Fin 1) :
    Gen.k3_pay1 (F := Ideal) x0 x1 x3 x2 x4 x5 x6 (ix2 p u)
      = readout x0 x1 (fun q => x2 (ix2 (0 : Fin 1) q)) x3 (fun q => x4 (ix2 (0 : Fin 1) q))
          (fun q => x5 (ix2 (0 : Fin 1) q)) (x6 (ix2 (0 : Fin 1) (0 : Fin 1))) (ix2 p u) := by
  rw [pay_stages, stage3_apply]
  unfold readout hid2
  refine congrArg (fun z => Ideal.logistic (z + x6 (ix2 (0 : Fin 1) (0 : Fin 1)))) (Finset.sum_congr rfl fun k _ => ?_)
  rw [stage2_apply]
  refine congrArg (fun z => relu (z + x4 (ix2 (0 : Fin 1) k)) * x5 (ix2 (0 : Fin 1) k)) (Finset.sum_congr rfl fun j _ => ?_)
  rw [stage1_apply]

/-- The payload as a function of the block index. -/
theorem pay_eq (x0 : Vec Ideal S512x512 .f32) (x1 : Vec Ideal S256x512 .f32) (x3 : Vec Ideal S128x256 .f32)
    (x2 : Vec Ideal S1x256 .f32) (x4 : Vec Ideal S1x128 .f32) (x5 : Vec Ideal S1x128 .f32) (x6 : Vec Ideal S1x1 .f32) :
    Gen.k3_pay1 (F := Ideal) x0 x1 x3 x2 x4 x5 x6
      = readout x0 x1 (fun q => x2 (ix2 (0 : Fin 1) q)) x3 (fun q => x4 (ix2 (0 : Fin 1) q))
          (fun q => x5 (ix2 (0 : Fin 1) q)) (x6 (ix2 (0 : Fin 1) (0 : Fin 1))) := by
  funext j
  obtain ⟨p, u, rfl⟩ : ∃ (p : Fin 512) (u : Fin 1), j = ix2 p u := ⟨j 0, j 1, eq_ix2 j⟩
  exact pay_apply x0 x1 x3 x2 x4 x5 x6 p u

/-- The readout respects equality of each of its seven arguments. -/
theorem readout_congr {xp xp' : FVec Ideal (Mat 512 512) .f32} {W1 W1' : FVec Ideal (Mat 256 512) .f32}
    {b1 b1' : Fin 256 → EReal} {W2 W2' : FVec Ideal (Mat 128 256) .f32} {b2 b2' : Fin 128 → EReal}
    {wo wo' : Fin 128 → EReal} {bo bo' : EReal}
    (h0 : xp = xp') (h1 : W1 = W1') (h2 : b1 = b1') (h3 : W2 = W2') (h4 : b2 = b2') (h5 : wo = wo') (h6 : bo = bo') :
    readout xp W1 b1 W2 b2 wo bo = readout xp' W1' b1' W2' b2' wo' bo' := by
  subst h0 h1 h2 h3 h4 h5 h6; rfl

/-! ## From the one point's block to the array -/

section Arrays

variable (V : (c : Dev nD) → (b : Ref sig .tc) → Buf (Elt Ideal) ((c : Thread nD τ).loc b))

theorem hz : (![0, 0] : Fin 2 → Nat) = fun _ => 0 := funext fun a => by fin_cases a <;> rfl

/-- The specification's readout of the arrays the region finds. -/
abbrev G (c : Dev nD) : S512x1.Idx → EReal :=
  readout (V c main_v66) (V c main_arg12) (fun q : Fin 256 => V c main_v67 (ix2 (0 : Fin 1) q)) (V c main_arg14)
    (fun q : Fin 128 => V c main_v68 (ix2 (0 : Fin 1) q)) (fun q : Fin 128 => V c main_arg16 (ix2 (0 : Fin 1) q))
    (V c main_v69 (ix2 (0 : Fin 1) (0 : Fin 1)))

/-- Each window's block at the one point is its whole array: every block index is zero and the block has the
    array's extents. -/
theorem iblk_0 (c : Dev nD) (t : Fin cfg3.N) :
    (Gen.iblk3 (F := Ideal) V c 0 t : S512x512.Idx → EReal) = V c main_v66 := by
  funext y
  show V c main_v66 (((cfg3.win 0).blk t).view.emb y) = V c main_v66 y
  refine congrArg (V c main_v66) (funext fun a => Fin.ext ?_)
  match a with
  | ⟨0, _⟩ => show 0 * 512 + 1 * (y 0).val = (y 0).val; omega
  | ⟨1, _⟩ => show 0 * 512 + 1 * (y 1).val = (y 1).val; omega

theorem iblk_1 (c : Dev nD) (t : Fin cfg3.N) :
    (Gen.iblk3 (F := Ideal) V c 1 t : S256x512.Idx → EReal) = V c main_arg12 := by
  funext y
  show V c main_arg12 (((cfg3.win 1).blk t).view.emb y) = V c main_arg12 y
  refine congrArg (V c main_arg12) (funext fun a => Fin.ext ?_)
  match a with
  | ⟨0, _⟩ => show 0 * 256 + 1 * (y 0).val = (y 0).val; omega
  | ⟨1, _⟩ => show 0 * 512 + 1 * (y 1).val = (y 1).val; omega

theorem iblk_2 (c : Dev nD) (t : Fin cfg3.N) :
    (Gen.iblk3 (F := Ideal) V c 2 t : S1x256.Idx → EReal) = V c main_v67 := by
  funext y
  show V c main_v67 (((cfg3.win 2).blk t).view.emb y) = V c main_v67 y
  refine congrArg (V c main_v67) (funext fun a => Fin.ext ?_)
  match a with
  | ⟨0, _⟩ => show 0 * 1 + 1 * (y 0).val = (y 0).val; omega
  | ⟨1, _⟩ => show 0 * 256 + 1 * (y 1).val = (y 1).val; omega

theorem iblk_3 (c : Dev nD) (t : Fin cfg3.N) :
    (Gen.iblk3 (F := Ideal) V c 3 t : S128x256.Idx → EReal) = V c main_arg14 := by
  funext y
  show V c main_arg14 (((cfg3.win 3).blk t).view.emb y) = V c main_arg14 y
  refine congrArg (V c main_arg14) (funext fun a => Fin.ext ?_)
  match a with
  | ⟨0, _⟩ => show 0 * 128 + 1 * (y 0).val = (y 0).val; omega
  | ⟨1, _⟩ => show 0 * 256 + 1 * (y 1).val = (y 1).val; omega

theorem iblk_4 (c : Dev nD) (t : Fin cfg3.N) :
    (Gen.iblk3 (F := Ideal) V c 4 t : S1x128.Idx → EReal) = V c main_v68 := by
  funext y
  show V c main_v68 (((cfg3.win 4).blk t).view.emb y) = V c main_v68 y
  refine congrArg (V c main_v68) (funext fun a => Fin.ext ?_)
  match a with
  | ⟨0, _⟩ => show 0 * 1 + 1 * (y 0).val = (y 0).val; omega
  | ⟨1, _⟩ => show 0 * 128 + 1 * (y 1).val = (y 1).val; omega

theorem iblk_5 (c : Dev nD) (t : Fin cfg3.N) :
    (Gen.iblk3 (F := Ideal) V c 5 t : S1x128.Idx → EReal) = V c main_arg16 := by
  funext y
  show V c main_arg16 (((cfg3.win 5).blk t).view.emb y) = V c main_arg16 y
  refine congrArg (V c main_arg16) (funext fun a => Fin.ext ?_)
  match a with
  | ⟨0, _⟩ => show 0 * 1 + 1 * (y 0).val = (y 0).val; omega
  | ⟨1, _⟩ => show 0 * 128 + 1 * (y 1).val = (y 1).val; omega

theorem iblk_6 (c : Dev nD) (t : Fin cfg3.N) :
    (Gen.iblk3 (F := Ideal) V c 6 t : S1x1.Idx → EReal) = V c main_v69 := by
  funext y
  show V c main_v69 (((cfg3.win 6).blk t).view.emb y) = V c main_v69 y
  refine congrArg (V c main_v69) (funext fun a => Fin.ext ?_)
  match a with
  | ⟨0, _⟩ => show 0 * 1 + 1 * (y 0).val = (y 0).val; omega
  | ⟨1, _⟩ => show 0 * 1 + 1 * (y 1).val = (y 1).val; omega

/-- The output window's block at the one point sits at the array's origin. -/
theorem emb_7 (t : Fin cfg3.N) (j : S512x1.Idx) : ((cfg3.win 7).blk t).view.emb j = j := by
  funext a; apply Fin.ext
  match a with
  | ⟨0, _⟩ => show 0 * 512 + 1 * (j 0).val = (j 0).val; omega
  | ⟨1, _⟩ => show 0 * 1 + 1 * (j 1).val = (j 1).val; omega

/-- What the one point writes back is the block of the readout of the arrays the region finds. -/
theorem flushed_eq (c : Dev nD) (t : Fin cfg3.N) :
    (Gen.dat3 (F := Ideal) V c).flushed 7 t = ((cfg3.win 7).blk t).view.read (Elt Ideal) (G V c) := by
  show (cfg3.win 7).cut (grid3.coords t) ((Gen.dat3 V c).after 7 t) = _
  rw [Gen.after3_7]
  unfold Gen.out3_7
  rw [View.canon_unit_zero hz]
  simp only [View.ld_unit_zero (S := S512x512) hz, View.ld_unit_zero (S := S256x512) hz,
    View.ld_unit_zero (S := S128x256) hz, View.ld_unit_zero (S := S1x256) hz, View.ld_unit_zero (S := S1x128) hz,
    View.ld_unit_zero (S := S1x1) hz]
  have e : Gen.k3_pay1 (F := Ideal) (Gen.iblk3 V c 0 t) (Gen.iblk3 V c 1 t) (Gen.iblk3 V c 3 t) (Gen.iblk3 V c 2 t)
      (Gen.iblk3 V c 4 t) (Gen.iblk3 V c 5 t) (Gen.iblk3 V c 6 t) = G V c :=
    (pay_eq _ _ _ _ _ _ _).trans
      (readout_congr (iblk_0 V c t) (iblk_1 V c t) (funext fun q => congrFun (iblk_2 V c t) (ix2 (0 : Fin 1) q))
        (iblk_3 V c t) (funext fun q => congrFun (iblk_4 V c t) (ix2 (0 : Fin 1) q))
        (funext fun q => congrFun (iblk_5 V c t) (ix2 (0 : Fin 1) q))
        (congrFun (iblk_6 V c t) (ix2 (0 : Fin 1) (0 : Fin 1))))
  refine (congrArg ((cfg3.win 7).cut (grid3.coords t)) e).trans ?_
  funext j
  show G V c j = G V c (((cfg3.win 7).blk t).view.emb j)
  rw [emb_7]

/-- Every index of the output array is in the one point's block. -/
theorem cover (i : S512x1.Idx) :
    ∃ t : Fin cfg3.N, (cfg3.win 7).flush t = true ∧ i ∈ ((cfg3.win 7).blk t).view.set := by
  refine ⟨Gen.t3_0, Gen.flush3_7 _, ?_⟩
  show i ∈ ((View.whole main_v70).slice (win3_7.rect Gen.t3_0)).set
  rw [View.set_slice_whole, Rect.mem_set_unit]
  intro a
  match a with
  | ⟨0, _⟩ =>
    have h : (i 0).val < 512 := (i 0).isLt
    show 0 * 512 ≤ (i 0).val ∧ (i 0).val < 0 * 512 + 512
    omega
  | ⟨1, _⟩ =>
    have h : (i 1).val < 1 := (i 1).isLt
    show 0 * 1 ≤ (i 1).val ∧ (i 1).val < 0 * 1 + 1
    omega

end Arrays

end Cert.Sage.Region3

namespace Cert.Sage

open Idealize.ShloMosaic Idealize.ShloMosaic.ValueIdx Idealize.ShloMosaic.TcCoe
open Cert.KernelIdeal Cert.KernelIdeal.Facts₀
open Idealize.ShloMosaic.Pipeline (Dat)

/-- THE OUTPUT ARRAY AFTER THE READOUT REGION: the specification's readout of the arrays the region finds. -/
theorem region3_arr (V : (c : Dev nD) → (b : Ref sig .tc) → Buf (Elt Ideal) ((c : Thread nD τ).loc b)) (c : Dev nD) :
    (Gen.dat3 (F := Ideal) V c).arrAt 7 cfg3.N
      = readout (V c main_v66) (V c main_arg12) (fun q : Fin 256 => V c main_v67 (ix2 (0 : Fin 1) q)) (V c main_arg14)
          (fun q : Fin 128 => V c main_v68 (ix2 (0 : Fin 1) q)) (fun q : Fin 128 => V c main_arg16 (ix2 (0 : Fin 1) q))
          (V c main_v69 (ix2 (0 : Fin 1) (0 : Fin 1))) :=
  (Gen.dat3 V c).arrAt_eq_of_cover 7 (Region3.G V c) (fun t _ => Region3.flushed_eq V c t) Region3.cover

end Cert.Sage

end
-- ==== Proof.KernelValue.lean ====
/-
  What the idealized kernel program's result buffer holds at the end: the network's value of the argument
  arrays.  The first half of the program (the launch through the second layer's kernel) gives the second layer's
  output, the edge rows and the reciprocal in-degree as functions of the arguments; the second half takes those
  to the result.
-/
import proofs.«174828_j31147102831272_2_alg».proof.Proof.KChainHead
import proofs.«174828_j31147102831272_2_alg».proof.Proof.KChainTail
import proofs.«174828_j31147102831272_2_alg».proof.Proof.Region0
import proofs.«174828_j31147102831272_2_alg».proof.Proof.Region1
import proofs.«174828_j31147102831272_2_alg».proof.Proof.Region2
import proofs.«174828_j31147102831272_2_alg».proof.Proof.Region3

noncomputable section

namespace Cert.Sage

open Idealize.ShloMosaic Idealize.ShloMosaic.TcCoe Idealize.ShloMosaic.ValueIdx Idealize.SL.Sem
open Cert.KernelIdeal Cert.KernelIdeal.Gen

/-- THE RESULT of the idealized kernel program is the network's value of its argument arrays. -/
theorem kernel_value (m : (ℓ : Loc nD τ sig) → Buf (Elt Ideal) ℓ) (ρ : Dev nD → PrngReg) (c : Dev nD) :
    W8 m ρ c (Proc.devRef .tc main_v70)
      = network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) :=
  tail_value m ρ c region2_arr region3_arr (kX2 m c) (kSrc m c) (kDst m c) (kDinv m c) _ _ _ _ _ _ _ _ _ _
    (w4_v40 m ρ c region0_arr region1_arr) (w4_v1 m ρ c) (w4_v3 m ρ c) (w4_v12 m ρ c) (w4_arg2 m ρ c) (w4_arg9 m ρ c)
    (w4_arg10 m ρ c) (w4_arg11 m ρ c) (w4_arg12 m ρ c) (w4_arg13 m ρ c) (w4_arg14 m ρ c) (w4_arg15 m ρ c)
    (w4_arg16 m ρ c) (w4_arg17 m ρ c)

end Cert.Sage

end
-- ==== Proof.RefRun.lean ====
/-
  The reference program's @main as one list of its 144 host operations, in order, with the operations of the
  five functions it calls listed at their call sites over each call's own buffers (the leaky clamp's seven,
  the select of the function it calls in turn included, and three for each clamp at zero).  The program is that
  straight line, so every weakly fair execution of it terminates with each buffer at the fold of the
  operations' results over the launch contents.
-/
import proofs.«174828_j31147102831272_2_alg».proof.ReferenceIdeal
import proofs.«174828_j31147102831272_2_alg».proof.Proof.Gen.ReferenceIdeal
import Idealize.ShloMosaic.Lib.StableHlo.Run

noncomputable section

namespace Cert.ReferenceIdeal.RefValue

open Cert.ReferenceIdeal Cert.ReferenceIdeal.Facts₀ Idealize.ShloMosaic Idealize.ShloMosaic.TcCoe Idealize.SL.Sem Idealize.ShloMosaic.StableHlo

variable {F : FTy → Type} [FloatOps F]

/-- @main's operations 1 … 66 of 144 (the statements of `main_part0`, its calls unfolded). -/
abbrev ops_part0 : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_cst (constant S_ .f32 0x3F800000#32),
    StableHlo.unary main_cst main_v4 (broadcastInDim S800000 ![] bcast_S_S800000 : (⟨S_, .f32⟩ : BufTy).Contents (Elt F) → (⟨S800000, .f32⟩ : BufTy).Contents (Elt F)),
    StableHlo.nullary main_cst_0 (constant S_ .f32 0x00000000#32),
    StableHlo.unary main_cst_0 main_v5 (broadcastInDim S50000 ![] bcast_S_S50000 : (⟨S_, .f32⟩ : BufTy).Contents (Elt F) → (⟨S50000, .f32⟩ : BufTy).Contents (Elt F)),
    StableHlo.unary main_v3 main_v6 (broadcastInDim S800000x1 ![0] bcast_S800000_S800000x1_0 : (⟨S800000, .i32⟩ : BufTy).Contents (Elt F) → (⟨S800000x1, .i32⟩ : BufTy).Contents (Elt F)),
    StableHlo.ternary main_v5 main_v6 main_v4 main_v7 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_1 (constant S_ .f32 0x3F800000#32),
    StableHlo.unary main_cst_1 main_v8 (broadcastInDim S50000 ![] bcast_S_S50000 : (⟨S_, .f32⟩ : BufTy).Contents (Elt F) → (⟨S50000, .f32⟩ : BufTy).Contents (Elt F)),
    StableHlo.binary main_v7 main_v8 main_v9 (maximumf : (⟨S50000, .f32⟩ : BufTy).Contents (Elt F) → (⟨S50000, .f32⟩ : BufTy).Contents (Elt F) → (⟨S50000, .f32⟩ : BufTy).Contents (Elt F)),
    StableHlo.nullary main_cst_2 (constant S_ .f32 0x3F800000#32),
    StableHlo.unary main_cst_2 main_v10 (broadcastInDim S50000 ![] bcast_S_S50000 : (⟨S_, .f32⟩ : BufTy).Contents (Elt F) → (⟨S50000, .f32⟩ : BufTy).Contents (Elt F)),
    StableHlo.binary main_v10 main_v9 main_v11 (Host.divf : (⟨S50000, .f32⟩ : BufTy).Contents (Elt F) → (⟨S50000, .f32⟩ : BufTy).Contents (Elt F) → (⟨S50000, .f32⟩ : BufTy).Contents (Elt F)),
    StableHlo.unary main_v11 main_v12 (broadcastInDim S50000x1 ![0] bcast_S50000_S50000x1_0 : (⟨S50000, .f32⟩ : BufTy).Contents (Elt F) → (⟨S50000x1, .f32⟩ : BufTy).Contents (Elt F)),
    StableHlo.nullary main_c (constantI S_ 32 0#32),
    StableHlo.unary main_c main_v13 (broadcastInDim S800000 ![] bcast_S_S800000 : (⟨S_, .i32⟩ : BufTy).Contents (Elt F) → (⟨S800000, .i32⟩ : BufTy).Contents (Elt F)),
    StableHlo.binary main_v1 main_v13 main_v14 (cmpi .slt : (⟨S800000, .i32⟩ : BufTy).Contents (Elt F) → (⟨S800000, .i32⟩ : BufTy).Contents (Elt F) → (⟨S800000, .i1⟩ : BufTy).Contents (Elt F)),
    StableHlo.nullary main_c_3 (constantI S_ 32 50000#32),
    StableHlo.unary main_c_3 main_v15 (broadcastInDim S800000 ![] bcast_S_S800000 : (⟨S_, .i32⟩ : BufTy).Contents (Elt F) → (⟨S800000, .i32⟩ : BufTy).Contents (Elt F)),
    StableHlo.binary main_v1 main_v15 main_v16 (addi : (⟨S800000, .i32⟩ : BufTy).Contents (Elt F) → (⟨S800000, .i32⟩ : BufTy).Contents (Elt F) → (⟨S800000, .i32⟩ : BufTy).Contents (Elt F)),
    StableHlo.ternary main_v14 main_v16 main_v1 main_v17 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v17 main_v18 (broadcastInDim S800000x1 ![0] bcast_S800000_S800000x1_0 : (⟨S800000, .i32⟩ : BufTy).Contents (Elt F) → (⟨S800000x1, .i32⟩ : BufTy).Contents (Elt F)),
    StableHlo.binary main_arg0 main_v18 main_v19 ((fun x i => Host.gather gather_S50000x50_S800000x1_S800000x50_1_0_n_n_0_1_150 x i) : (⟨S50000x50, .f32⟩ : BufTy).Contents (Elt F) → (⟨S800000x1, .i32⟩ : BufTy).Contents (Elt F) → (⟨S800000x50, .f32⟩ : BufTy).Contents (Elt F)),
    StableHlo.nullary main_cst_4 (constant S_ .f32 0x00000000#32),
    StableHlo.unary main_cst_4 main_v20 (broadcastInDim S50000x50 ![] bcast_S_S50000x50 : (⟨S_, .f32⟩ : BufTy).Contents (Elt F) → (⟨S50000x50, .f32⟩ : BufTy).Contents (Elt F)),
    StableHlo.unary main_v3 main_v21 (broadcastInDim S800000x1 ![0] bcast_S800000_S800000x1_0 : (⟨S800000, .i32⟩ : BufTy).Contents (Elt F) → (⟨S800000x1, .i32⟩ : BufTy).Contents (Elt F)),
    StableHlo.ternary main_v20 main_v21 main_v19 main_v22 ((fun x i u => Host.scatterAdd scatter_S50000x50_S800000x1_S800000x50_1_0_0_1 x i u) : (⟨S50000x50, .f32⟩ : BufTy).Contents (Elt F) → (⟨S800000x1, .i32⟩ : BufTy).Contents (Elt F) → (⟨S800000x50, .f32⟩ : BufTy).Contents (Elt F) → (⟨S50000x50, .f32⟩ : BufTy).Contents (Elt F)),
    StableHlo.unary main_v12 main_v23 (broadcastInDim S50000x50 ![0, 1] bcast_S50000x1_S50000x50_0_1 : (⟨S50000x1, .f32⟩ : BufTy).Contents (Elt F) → (⟨S50000x50, .f32⟩ : BufTy).Contents (Elt F)),
    StableHlo.binary main_v22 main_v23 main_v24 (mulf : (⟨S50000x50, .f32⟩ : BufTy).Contents (Elt F) → (⟨S50000x50, .f32⟩ : BufTy).Contents (Elt F) → (⟨S50000x50, .f32⟩ : BufTy).Contents (Elt F)),
    StableHlo.unary main_arg3 main_v25 ((transpose S50x128 [1, 0] · transposes_S128x50_S50x128_1_0) : (⟨S128x50, .f32⟩ : BufTy).Contents (Elt F) → (⟨S50x128, .f32⟩ : BufTy).Contents (Elt F)),
    StableHlo.binary main_v24 main_v25 main_v26 ((fun l r => Host.dotGeneral dot_S50000x50_S50x128_S50000x128_1_0_0_1_n_n none l r) : (⟨S50000x50, .f32⟩ : BufTy).Contents (Elt F) → (⟨S50x128, .f32⟩ : BufTy).Contents (Elt F) → (⟨S50000x128, .f32⟩ : BufTy).Contents (Elt F)),
    StableHlo.unary main_arg4 main_v27 (broadcastInDim S1x128 ![1] bcast_S128_S1x128_1 : (⟨S128, .f32⟩ : BufTy).Contents (Elt F) → (⟨S1x128, .f32⟩ : BufTy).Contents (Elt F)),
    StableHlo.unary main_v27 main_v28 (broadcastInDim S50000x128 ![0, 1] bcast_S1x128_S50000x128_0_1 : (⟨S1x128, .f32⟩ : BufTy).Contents (Elt F) → (⟨S50000x128, .f32⟩ : BufTy).Contents (Elt F)),
    StableHlo.binary main_v26 main_v28 main_v29 (addf : (⟨S50000x128, .f32⟩ : BufTy).Contents (Elt F) → (⟨S50000x128, .f32⟩ : BufTy).Contents (Elt F) → (⟨S50000x128, .f32⟩ : BufTy).Contents (Elt F)),
    StableHlo.unary main_arg5 main_v30 ((transpose S50x128 [1, 0] · transposes_S128x50_S50x128_1_0) : (⟨S128x50, .f32⟩ : BufTy).Contents (Elt F) → (⟨S50x128, .f32⟩ : BufTy).Contents (Elt F)),
    StableHlo.binary main_arg0 main_v30 main_v31 ((fun l r => Host.dotGeneral dot_S50000x50_S50x128_S50000x128_1_0_0_1_n_n none l r) : (⟨S50000x50, .f32⟩ : BufTy).Contents (Elt F) → (⟨S50x128, .f32⟩ : BufTy).Contents (Elt F) → (⟨S50000x128, .f32⟩ : BufTy).Contents (Elt F)),
    StableHlo.binary main_v29 main_v31 main_v32 (addf : (⟨S50000x128, .f32⟩ : BufTy).Contents (Elt F) → (⟨S50000x128, .f32⟩ : BufTy).Contents (Elt F) → (⟨S50000x128, .f32⟩ : BufTy).Contents (Elt F)),
    StableHlo.TRef.nullary main_call0.cst (constant S_ .f32 0x00000000#32),
    StableHlo.TRef.unary main_call0.cst main_call0.v0 (broadcastInDim S50000x128 ![] bcast_S_S50000x128),
    StableHlo.TRef.binary (.of main_v32 : StableHlo.TRef sig ⟨S50000x128, .f32⟩) main_call0.v0 main_call0.v1 (cmpf .oge),
    StableHlo.TRef.nullary main_call0.cst_0 (constant S_ .f32 0x3C23D70A#32),
    StableHlo.TRef.unary main_call0.cst_0 main_call0.v2 (broadcastInDim S50000x128 ![] bcast_S_S50000x128),
    StableHlo.TRef.binary main_call0.v2 (.of main_v32 : StableHlo.TRef sig ⟨S50000x128, .f32⟩) main_call0.v3 mulf,
    StableHlo.TRef.ternary main_call0.v1 (.of main_v32 : StableHlo.TRef sig ⟨S50000x128, .f32⟩) main_call0.v3 main_call0.call0.v0 select,
    StableHlo.nullary main_c_5 (constantI S_ 32 0#32),
    StableHlo.unary main_c_5 main_v34 (broadcastInDim S800000 ![] bcast_S_S800000 : (⟨S_, .i32⟩ : BufTy).Contents (Elt F) → (⟨S800000, .i32⟩ : BufTy).Contents (Elt F)),
    StableHlo.binary main_v1 main_v34 main_v35 (cmpi .slt : (⟨S800000, .i32⟩ : BufTy).Contents (Elt F) → (⟨S800000, .i32⟩ : BufTy).Contents (Elt F) → (⟨S800000, .i1⟩ : BufTy).Contents (Elt F)),
    StableHlo.nullary main_c_6 (constantI S_ 32 50000#32),
    StableHlo.unary main_c_6 main_v36 (broadcastInDim S800000 ![] bcast_S_S800000 : (⟨S_, .i32⟩ : BufTy).Contents (Elt F) → (⟨S800000, .i32⟩ : BufTy).Contents (Elt F)),
    StableHlo.binary main_v1 main_v36 main_v37 (addi : (⟨S800000, .i32⟩ : BufTy).Contents (Elt F) → (⟨S800000, .i32⟩ : BufTy).Contents (Elt F) → (⟨S800000, .i32⟩ : BufTy).Contents (Elt F)),
    StableHlo.ternary main_v35 main_v37 main_v1 main_v38 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v38 main_v39 (broadcastInDim S800000x1 ![0] bcast_S800000_S800000x1_0 : (⟨S800000, .i32⟩ : BufTy).Contents (Elt F) → (⟨S800000x1, .i32⟩ : BufTy).Contents (Elt F)),
    StableHlo.binary main_v33 main_v39 main_v40 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_7 (constant S_ .f32 0x00000000#32),
    StableHlo.unary main_cst_7 main_v41 (broadcastInDim S50000x128 ![] bcast_S_S50000x128 : (⟨S_, .f32⟩ : BufTy).Contents (Elt F) → (⟨S50000x128, .f32⟩ : BufTy).Contents (Elt F)),
    StableHlo.unary main_v3 main_v42 (broadcastInDim S800000x1 ![0] bcast_S800000_S800000x1_0 : (⟨S800000, .i32⟩ : BufTy).Contents (Elt F) → (⟨S800000x1, .i32⟩ : BufTy).Contents (Elt F)),
    StableHlo.ternary main_v41 main_v42 main_v40 main_v43 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v12 main_v44 (broadcastInDim S50000x128 ![0, 1] bcast_S50000x1_S50000x128_0_1 : (⟨S50000x1, .f32⟩ : BufTy).Contents (Elt F) → (⟨S50000x128, .f32⟩ : BufTy).Contents (Elt F)),
    StableHlo.binary main_v43 main_v44 main_v45 (mulf : (⟨S50000x128, .f32⟩ : BufTy).Contents (Elt F) → (⟨S50000x128, .f32⟩ : BufTy).Contents (Elt F) → (⟨S50000x128, .f32⟩ : BufTy).Contents (Elt F)),
    StableHlo.unary main_arg6 main_v46 ((transpose S128x256 [1, 0] · transposes_S256x128_S128x256_1_0) : (⟨S256x128, .f32⟩ : BufTy).Contents (Elt F) → (⟨S128x256, .f32⟩ : BufTy).Contents (Elt F)),
    StableHlo.binary main_v45 main_v46 main_v47 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    StableHlo.unary main_arg7 main_v48 (broadcastInDim S1x256 ![1] bcast_S256_S1x256_1 : (⟨S256, .f32⟩ : BufTy).Contents (Elt F) → (⟨S1x256, .f32⟩ : BufTy).Contents (Elt F)),
    StableHlo.unary main_v48 main_v49 (broadcastInDim S50000x256 ![0, 1] bcast_S1x256_S50000x256_0_1 : (⟨S1x256, .f32⟩ : BufTy).Contents (Elt F) → (⟨S50000x256, .f32⟩ : BufTy).Contents (Elt F)) ]

/-- @main's operations 67 … 134 of 144 (the statements of `main_part1`, its calls unfolded). -/
abbrev ops_part1 : List (HloOp τ sig (Elt F)) :=
  [ StableHlo.binary main_v47 main_v49 main_v50 (addf : (⟨S50000x256, .f32⟩ : BufTy).Contents (Elt F) → (⟨S50000x256, .f32⟩ : BufTy).Contents (Elt F) → (⟨S50000x256, .f32⟩ : BufTy).Contents (Elt F)),
    StableHlo.unary main_arg8 main_v51 ((transpose S128x256 [1, 0] · transposes_S256x128_S128x256_1_0) : (⟨S256x128, .f32⟩ : BufTy).Contents (Elt F) → (⟨S128x256, .f32⟩ : BufTy).Contents (Elt F)),
    StableHlo.binary main_v33 main_v51 main_v52 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    StableHlo.binary main_v50 main_v52 main_v53 (addf : (⟨S50000x256, .f32⟩ : BufTy).Contents (Elt F) → (⟨S50000x256, .f32⟩ : BufTy).Contents (Elt F) → (⟨S50000x256, .f32⟩ : BufTy).Contents (Elt F)),
    StableHlo.TRef.nullary main_call1.cst (constant S_ .f32 0x00000000#32),
    StableHlo.TRef.unary main_call1.cst main_call1.v0 (broadcastInDim S50000x256 ![] bcast_S_S50000x256),
    StableHlo.TRef.binary (.of main_v53 : StableHlo.TRef sig ⟨S50000x256, .f32⟩) main_call1.v0 main_call1.v1 maximumf,
    StableHlo.nullary main_c_8 (constantI S_ 32 0#32),
    StableHlo.unary main_c_8 main_v55 (broadcastInDim S800000 ![] bcast_S_S800000 : (⟨S_, .i32⟩ : BufTy).Contents (Elt F) → (⟨S800000, .i32⟩ : BufTy).Contents (Elt F)),
    StableHlo.binary main_v1 main_v55 main_v56 (cmpi .slt : (⟨S800000, .i32⟩ : BufTy).Contents (Elt F) → (⟨S800000, .i32⟩ : BufTy).Contents (Elt F) → (⟨S800000, .i1⟩ : BufTy).Contents (Elt F)),
    StableHlo.nullary main_c_9 (constantI S_ 32 50000#32),
    StableHlo.unary main_c_9 main_v57 (broadcastInDim S800000 ![] bcast_S_S800000 : (⟨S_, .i32⟩ : BufTy).Contents (Elt F) → (⟨S800000, .i32⟩ : BufTy).Contents (Elt F)),
    StableHlo.binary main_v1 main_v57 main_v58 (addi : (⟨S800000, .i32⟩ : BufTy).Contents (Elt F) → (⟨S800000, .i32⟩ : BufTy).Contents (Elt F) → (⟨S800000, .i32⟩ : BufTy).Contents (Elt F)),
    StableHlo.ternary main_v56 main_v58 main_v1 main_v59 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v59 main_v60 (broadcastInDim S800000x1 ![0] bcast_S800000_S800000x1_0 : (⟨S800000, .i32⟩ : BufTy).Contents (Elt F) → (⟨S800000x1, .i32⟩ : BufTy).Contents (Elt F)),
    StableHlo.binary main_v54 main_v60 main_v61 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    StableHlo.nullary main_cst_10 (constant S_ .f32 0x00000000#32),
    StableHlo.unary main_cst_10 main_v62 (broadcastInDim S50000x256 ![] bcast_S_S50000x256 : (⟨S_, .f32⟩ : BufTy).Contents (Elt F) → (⟨S50000x256, .f32⟩ : BufTy).Contents (Elt F)),
    StableHlo.unary main_v3 main_v63 (broadcastInDim S800000x1 ![0] bcast_S800000_S800000x1_0 : (⟨S800000, .i32⟩ : BufTy).Contents (Elt F) → (⟨S800000x1, .i32⟩ : BufTy).Contents (Elt F)),
    StableHlo.ternary main_v62 main_v63 main_v61 main_v64 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    StableHlo.unary main_v12 main_v65 (broadcastInDim S50000x256 ![0, 1] bcast_S50000x1_S50000x256_0_1 : (⟨S50000x1, .f32⟩ : BufTy).Contents (Elt F) → (⟨S50000x256, .f32⟩ : BufTy).Contents (Elt F)),
    StableHlo.binary main_v64 main_v65 main_v66 (mulf : (⟨S50000x256, .f32⟩ : BufTy).Contents (Elt F) → (⟨S50000x256, .f32⟩ : BufTy).Contents (Elt F) → (⟨S50000x256, .f32⟩ : BufTy).Contents (Elt F)),
    StableHlo.unary main_arg9 main_v67 ((transpose S256x512 [1, 0] · transposes_S512x256_S256x512_1_0) : (⟨S512x256, .f32⟩ : BufTy).Contents (Elt F) → (⟨S256x512, .f32⟩ : BufTy).Contents (Elt F)),
    StableHlo.binary main_v66 main_v67 main_v68 ((fun l r => Host.dotGeneral dot_S50000x256_S256x512_S50000x512_1_0_0_1_n_n none l r) : (⟨S50000x256, .f32⟩ : BufTy).Contents (Elt F) → (⟨S256x512, .f32⟩ : BufTy).Contents (Elt F) → (⟨S50000x512, .f32⟩ : BufTy).Contents (Elt F)),
    StableHlo.unary main_arg10 main_v69 (broadcastInDim S1x512 ![1] bcast_S512_S1x512_1 : (⟨S512, .f32⟩ : BufTy).Contents (Elt F) → (⟨S1x512, .f32⟩ : BufTy).Contents (Elt F)),
    StableHlo.unary main_v69 main_v70 (broadcastInDim S50000x512 ![0, 1] bcast_S1x512_S50000x512_0_1 : (⟨S1x512, .f32⟩ : BufTy).Contents (Elt F) → (⟨S50000x512, .f32⟩ : BufTy).Contents (Elt F)),
    StableHlo.binary main_v68 main_v70 main_v71 (addf : (⟨S50000x512, .f32⟩ : BufTy).Contents (Elt F) → (⟨S50000x512, .f32⟩ : BufTy).Contents (Elt F) → (⟨S50000x512, .f32⟩ : BufTy).Contents (Elt F)),
    StableHlo.unary main_arg11 main_v72 ((transpose S256x512 [1, 0] · transposes_S512x256_S256x512_1_0) : (⟨S512x256, .f32⟩ : BufTy).Contents (Elt F) → (⟨S256x512, .f32⟩ : BufTy).Contents (Elt F)),
    StableHlo.binary main_v54 main_v72 main_v73 ((fun l r => Host.dotGeneral dot_S50000x256_S256x512_S50000x512_1_0_0_1_n_n none l r) : (⟨S50000x256, .f32⟩ : BufTy).Contents (Elt F) → (⟨S256x512, .f32⟩ : BufTy).Contents (Elt F) → (⟨S50000x512, .f32⟩ : BufTy).Contents (Elt F)),
    StableHlo.binary main_v71 main_v73 main_v74 (addf : (⟨S50000x512, .f32⟩ : BufTy).Contents (Elt F) → (⟨S50000x512, .f32⟩ : BufTy).Contents (Elt F) → (⟨S50000x512, .f32⟩ : BufTy).Contents (Elt F)),
    StableHlo.TRef.nullary main_call2.cst (constant S_ .f32 0x00000000#32),
    StableHlo.TRef.unary main_call2.cst main_call2.v0 (broadcastInDim S50000x512 ![] bcast_S_S50000x512),
    StableHlo.TRef.binary (.of main_v74 : StableHlo.TRef sig ⟨S50000x512, .f32⟩) main_call2.v0 main_call2.v1 maximumf,
    StableHlo.nullary main_cst_11 (constant S_ .f32 0x00000000#32),
    StableHlo.unary main_cst_11 main_v76 (broadcastInDim S512x512 ![] bcast_S_S512x512 : (⟨S_, .f32⟩ : BufTy).Contents (Elt F) → (⟨S512x512, .f32⟩ : BufTy).Contents (Elt F)),
    StableHlo.unary main_arg2 main_v77 (broadcastInDim S50000x1 ![0] bcast_S50000_S50000x1_0 : (⟨S50000, .i32⟩ : BufTy).Contents (Elt F) → (⟨S50000x1, .i32⟩ : BufTy).Contents (Elt F)),
    StableHlo.ternary main_v76 main_v77 main_v75 main_v78 ((fun x i u => Host.scatterAdd scatter_S512x512_S50000x1_S50000x512_1_0_0_1 x i u) : (⟨S512x512, .f32⟩ : BufTy).Contents (Elt F) → (⟨S50000x1, .i32⟩ : BufTy).Contents (Elt F) → (⟨S50000x512, .f32⟩ : BufTy).Contents (Elt F) → (⟨S512x512, .f32⟩ : BufTy).Contents (Elt F)),
    StableHlo.nullary main_cst_12 (constant S_ .f32 0x3F800000#32),
    StableHlo.unary main_cst_12 main_v79 (broadcastInDim S50000 ![] bcast_S_S50000 : (⟨S_, .f32⟩ : BufTy).Contents (Elt F) → (⟨S50000, .f32⟩ : BufTy).Contents (Elt F)),
    StableHlo.nullary main_cst_13 (constant S_ .f32 0x00000000#32),
    StableHlo.unary main_cst_13 main_v80 (broadcastInDim S512 ![] bcast_S_S512 : (⟨S_, .f32⟩ : BufTy).Contents (Elt F) → (⟨S512, .f32⟩ : BufTy).Contents (Elt F)),
    StableHlo.unary main_arg2 main_v81 (broadcastInDim S50000x1 ![0] bcast_S50000_S50000x1_0 : (⟨S50000, .i32⟩ : BufTy).Contents (Elt F) → (⟨S50000x1, .i32⟩ : BufTy).Contents (Elt F)),
    StableHlo.ternary main_v80 main_v81 main_v79 main_v82 ((fun x i u => Host.scatterAdd scatter_S512_S50000x1_S50000_n_0_0_1 x i u) : (⟨S512, .f32⟩ : BufTy).Contents (Elt F) → (⟨S50000x1, .i32⟩ : BufTy).Contents (Elt F) → (⟨S50000, .f32⟩ : BufTy).Contents (Elt F) → (⟨S512, .f32⟩ : BufTy).Contents (Elt F)),
    StableHlo.nullary main_cst_14 (constant S_ .f32 0x3F800000#32),
    StableHlo.unary main_cst_14 main_v83 (broadcastInDim S512 ![] bcast_S_S512 : (⟨S_, .f32⟩ : BufTy).Contents (Elt F) → (⟨S512, .f32⟩ : BufTy).Contents (Elt F)),
    StableHlo.binary main_v82 main_v83 main_v84 (maximumf : (⟨S512, .f32⟩ : BufTy).Contents (Elt F) → (⟨S512, .f32⟩ : BufTy).Contents (Elt F) → (⟨S512, .f32⟩ : BufTy).Contents (Elt F)),
    StableHlo.unary main_v84 main_v85 (broadcastInDim S512x1 ![0] bcast_S512_S512x1_0 : (⟨S512, .f32⟩ : BufTy).Contents (Elt F) → (⟨S512x1, .f32⟩ : BufTy).Contents (Elt F)),
    StableHlo.unary main_v85 main_v86 (broadcastInDim S512x512 ![0, 1] bcast_S512x1_S512x512_0_1 : (⟨S512x1, .f32⟩ : BufTy).Contents (Elt F) → (⟨S512x512, .f32⟩ : BufTy).Contents (Elt F)),
    StableHlo.binary main_v78 main_v86 main_v87 (Host.divf : (⟨S512x512, .f32⟩ : BufTy).Contents (Elt F) → (⟨S512x512, .f32⟩ : BufTy).Contents (Elt F) → (⟨S512x512, .f32⟩ : BufTy).Contents (Elt F)),
    StableHlo.unary main_arg12 main_v88 ((transpose S512x256 [1, 0] · transposes_S256x512_S512x256_1_0) : (⟨S256x512, .f32⟩ : BufTy).Contents (Elt F) → (⟨S512x256, .f32⟩ : BufTy).Contents (Elt F)),
    StableHlo.binary main_v87 main_v88 main_v89 ((fun l r => Host.dotGeneral dot_S512x512_S512x256_S512x256_1_0_0_1_n_n none l r) : (⟨S512x512, .f32⟩ : BufTy).Contents (Elt F) → (⟨S512x256, .f32⟩ : BufTy).Contents (Elt F) → (⟨S512x256, .f32⟩ : BufTy).Contents (Elt F)),
    StableHlo.unary main_arg13 main_v90 (broadcastInDim S1x256 ![1] bcast_S256_S1x256_1 : (⟨S256, .f32⟩ : BufTy).Contents (Elt F) → (⟨S1x256, .f32⟩ : BufTy).Contents (Elt F)),
    StableHlo.unary main_v90 main_v91 (broadcastInDim S512x256 ![0, 1] bcast_S1x256_S512x256_0_1 : (⟨S1x256, .f32⟩ : BufTy).Contents (Elt F) → (⟨S512x256, .f32⟩ : BufTy).Contents (Elt F)),
    StableHlo.binary main_v89 main_v91 main_v92 (addf : (⟨S512x256, .f32⟩ : BufTy).Contents (Elt F) → (⟨S512x256, .f32⟩ : BufTy).Contents (Elt F) → (⟨S512x256, .f32⟩ : BufTy).Contents (Elt F)),
    StableHlo.TRef.nullary main_call3.cst (constant S_ .f32 0x00000000#32),
    StableHlo.TRef.unary main_call3.cst main_call3.v0 (broadcastInDim S512x256 ![] bcast_S_S512x256),
    StableHlo.TRef.binary (.of main_v92 : StableHlo.TRef sig ⟨S512x256, .f32⟩) main_call3.v0 main_call3.v1 maximumf,
    StableHlo.unary main_arg14 main_v94 ((transpose S256x128 [1, 0] · transposes_S128x256_S256x128_1_0) : (⟨S128x256, .f32⟩ : BufTy).Contents (Elt F) → (⟨S256x128, .f32⟩ : BufTy).Contents (Elt F)),
    StableHlo.binary main_v93 main_v94 main_v95 ((fun l r => Host.dotGeneral dot_S512x256_S256x128_S512x128_1_0_0_1_n_n none l r) : (⟨S512x256, .f32⟩ : BufTy).Contents (Elt F) → (⟨S256x128, .f32⟩ : BufTy).Contents (Elt F) → (⟨S512x128, .f32⟩ : BufTy).Contents (Elt F)),
    StableHlo.unary main_arg15 main_v96 (broadcastInDim S1x128 ![1] bcast_S128_S1x128_1 : (⟨S128, .f32⟩ : BufTy).Contents (Elt F) → (⟨S1x128, .f32⟩ : BufTy).Contents (Elt F)),
    StableHlo.unary main_v96 main_v97 (broadcastInDim S512x128 ![0, 1] bcast_S1x128_S512x128_0_1 : (⟨S1x128, .f32⟩ : BufTy).Contents (Elt F) → (⟨S512x128, .f32⟩ : BufTy).Contents (Elt F)),
    StableHlo.binary main_v95 main_v97 main_v98 (addf : (⟨S512x128, .f32⟩ : BufTy).Contents (Elt F) → (⟨S512x128, .f32⟩ : BufTy).Contents (Elt F) → (⟨S512x128, .f32⟩ : BufTy).Contents (Elt F)),
    StableHlo.TRef.nullary main_call4.cst (constant S_ .f32 0x00000000#32),
    StableHlo.TRef.unary main_call4.cst main_call4.v0 (broadcastInDim S512x128 ![] bcast_S_S512x128),
    StableHlo.TRef.binary (.of main_v98 : StableHlo.TRef sig ⟨S512x128, .f32⟩) main_call4.v0 main_call4.v1 maximumf,
    StableHlo.unary main_arg16 main_v100 ((transpose S128x1 [1, 0] · transposes_S1x128_S128x1_1_0) : (⟨S1x128, .f32⟩ : BufTy).Contents (Elt F) → (⟨S128x1, .f32⟩ : BufTy).Contents (Elt F)),
    StableHlo.binary main_v99 main_v100 main_v101 ((fun l r => Host.dotGeneral dot_S512x128_S128x1_S512x1_1_0_0_1_n_n none l r) : (⟨S512x128, .f32⟩ : BufTy).Contents (Elt F) → (⟨S128x1, .f32⟩ : BufTy).Contents (Elt F) → (⟨S512x1, .f32⟩ : BufTy).Contents (Elt F)),
    StableHlo.unary main_arg17 main_v102 (broadcastInDim S1x1 ![1] bcast_S1_S1x1_1 : (⟨S1, .f32⟩ : BufTy).Contents (Elt F) → (⟨S1x1, .f32⟩ : BufTy).Contents (Elt F)) ]

/-- @main's operations 135 … 144 of 144 (the statements of `main_part2`, its calls unfolded). -/
abbrev ops_part2 : List (HloOp τ sig (Elt F)) :=
  [ StableHlo.unary main_v102 main_v103 (broadcastInDim S512x1 ![0, 1] bcast_S1x1_S512x1_0_1 : (⟨S1x1, .f32⟩ : BufTy).Contents (Elt F) → (⟨S512x1, .f32⟩ : BufTy).Contents (Elt F)),
    StableHlo.binary main_v101 main_v103 main_v104 (addf : (⟨S512x1, .f32⟩ : BufTy).Contents (Elt F) → (⟨S512x1, .f32⟩ : BufTy).Contents (Elt F) → (⟨S512x1, .f32⟩ : BufTy).Contents (Elt F)),
    StableHlo.unary main_v104 main_v105 (Host.negf : (⟨S512x1, .f32⟩ : BufTy).Contents (Elt F) → (⟨S512x1, .f32⟩ : BufTy).Contents (Elt F)),
    StableHlo.unary main_v105 main_v106 (Host.exp : (⟨S512x1, .f32⟩ : BufTy).Contents (Elt F) → (⟨S512x1, .f32⟩ : BufTy).Contents (Elt F)),
    StableHlo.nullary main_cst_15 (constant S_ .f32 0x3F800000#32),
    StableHlo.unary main_cst_15 main_v107 (broadcastInDim S512x1 ![] bcast_S_S512x1 : (⟨S_, .f32⟩ : BufTy).Contents (Elt F) → (⟨S512x1, .f32⟩ : BufTy).Contents (Elt F)),
    StableHlo.binary main_v107 main_v106 main_v108 (addf : (⟨S512x1, .f32⟩ : BufTy).Contents (Elt F) → (⟨S512x1, .f32⟩ : BufTy).Contents (Elt F) → (⟨S512x1, .f32⟩ : BufTy).Contents (Elt F)),
    StableHlo.nullary main_cst_16 (constant S_ .f32 0x3F800000#32),
    StableHlo.unary main_cst_16 main_v109 (broadcastInDim S512x1 ![] bcast_S_S512x1 : (⟨S_, .f32⟩ : BufTy).Contents (Elt F) → (⟨S512x1, .f32⟩ : BufTy).Contents (Elt F)),
    StableHlo.binary main_v109 main_v108 main_v110 (Host.divf : (⟨S512x1, .f32⟩ : BufTy).Contents (Elt F) → (⟨S512x1, .f32⟩ : BufTy).Contents (Elt F) → (⟨S512x1, .f32⟩ : BufTy).Contents (Elt F)) ]

/-- @main's 144 operations, in order. -/
abbrev ops : List (HloOp τ sig (Elt F)) :=
  ops_part0 ++ (ops_part1 ++ (ops_part2))

set_option maxRecDepth 8192 in
set_option maxHeartbeats 4000000 in
/-- The window is that straight line: the called functions unfolded at their calls, both sides are one chain of steps once
    sequencing is reassociated. -/
theorem main_part0_eq (c : Dev nD) : main_part0 (F := F) c = seq ops_part0 := by
  simp only [main_part0, fn_leaky_relu.body, fn_where.body, seq, bind_assoc, pure_bind]
  rfl

set_option maxRecDepth 8192 in
set_option maxHeartbeats 4000000 in
/-- The window is that straight line: the called functions unfolded at their calls, both sides are one chain of steps once
    sequencing is reassociated. -/
theorem main_part1_eq (c : Dev nD) : main_part1 (F := F) c = seq ops_part1 := by
  simp only [main_part1, fn_relu.body, fn_relu_0.body, fn_relu_1.body, fn_relu_2.body, seq, bind_assoc, pure_bind]
  rfl

set_option maxRecDepth 8192 in
set_option maxHeartbeats 4000000 in
/-- The last window calls no function: it is its ten operations by unfolding. -/
theorem main_part2_eq (c : Dev nD) : main_part2 (F := F) c = seq ops_part2 := rfl

set_option maxRecDepth 8192 in
/-- @main runs its windows in order, so it is the whole list run as one line. -/
theorem main_eq (c : Dev nD) : main (F := F) c = seq ops := by
  simp only [ops, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_part0_sub : (ops_part0 : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., unary_bufs_sub .., binary_bufs_sub .., unary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., unary_bufs_sub .., binary_bufs_sub .., unary_bufs_sub .., unary_bufs_sub ..⟩

set_option maxRecDepth 8192 in
theorem ops_part1_sub : (ops_part1 : List (HloOp τ sig (Elt F))).Forall fun op => op.bufs ⊆ tcRefs τ sig :=
  ⟨binary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., unary_bufs_sub .., binary_bufs_sub .., unary_bufs_sub .., unary_bufs_sub .., binary_bufs_sub .., unary_bufs_sub .., binary_bufs_sub .., binary_bufs_sub .., nullary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub ..⟩

set_option maxRecDepth 8192 in
theorem ops_part2_sub : (ops_part2 : List (HloOp τ sig (Elt F))).Forall fun op => op.bufs ⊆ tcRefs τ sig :=
  ⟨unary_bufs_sub .., binary_bufs_sub .., unary_bufs_sub .., unary_bufs_sub .., nullary_bufs_sub .., unary_bufs_sub .., binary_bufs_sub .., nullary_bufs_sub .., unary_bufs_sub .., binary_bufs_sub ..⟩

theorem ops_sub : (ops : List (HloOp τ sig (Elt F))).Forall fun op => op.bufs ⊆ tcRefs τ sig :=
  List.forall_iff_forall_mem.mpr fun op h => by
    simp only [ops, List.mem_append] at h
    rcases h with h | h | h
    exacts [List.forall_iff_forall_mem.mp ops_part0_sub op h, List.forall_iff_forall_mem.mp ops_part1_sub op h, List.forall_iff_forall_mem.mp ops_part2_sub op h]

/-- On every device, for any float values, from any memory with zero counters: every weakly fair execution of @main
    terminates, and every final state has each buffer at the fold of the 144 operations' results over the launch
    contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefValue

end
-- ==== Proof.RefTerms.lean ====
/-
  The reference's own spelling of a layer and of the readout, as functions of whole arrays: the weight
  matrices transposed and multiplied on the right, the bias broadcast down the rows and added between the
  two products, the activation as a pointwise maximum (or a select on `z ≥ 0`), and the logistic function
  written out as `1 / (1 + exp (-z))`.
-/
import proofs.«174828_j31147102831272_2_alg».proof.ReferenceIdeal
import proofs.«174828_j31147102831272_2_alg».proof.Proof.Gen.ReferenceIdeal
import proofs.«174828_j31147102831272_2_alg».proof.Proof.Spec

noncomputable section

namespace Cert.Sage.Ref

open Idealize.ShloMosaic Idealize.ShloMosaic.ValueIdx Cert.ReferenceIdeal Cert.ReferenceIdeal.Facts₀

/-- The leaky clamp of a 50000 × 128 matrix: `z` where `z ≥ 0`, the slope times `z` elsewhere. -/
def leakyOps (z : FVec Ideal S50000x128 .f32) : FVec Ideal S50000x128 .f32 :=
  select (cmpf .oge z (broadcastInDim S50000x128 ![] bcast_S_S50000x128 (constant (F := Ideal) S_ .f32 0x00000000#32)))
    z (mulf (broadcastInDim S50000x128 ![] bcast_S_S50000x128 (constant (F := Ideal) S_ .f32 0x3C23D70A#32)) z)

/-- Layer 1 (50 → 128 channels, leaky clamp). -/
def layer1 (agg x : FVec Ideal S50000x50 .f32) (Wl : FVec Ideal S128x50 .f32) (bl : FVec Ideal S128 .f32)
    (Wr : FVec Ideal S128x50 .f32) : FVec Ideal S50000x128 .f32 :=
  leakyOps
    (addf
      (addf
        (Host.dotGeneral dot_S50000x50_S50x128_S50000x128_1_0_0_1_n_n none agg
          (transpose S50x128 [1, 0] Wl transposes_S128x50_S50x128_1_0))
        (broadcastInDim S50000x128 ![0, 1] bcast_S1x128_S50000x128_0_1 (broadcastInDim S1x128 ![1] bcast_S128_S1x128_1 bl)))
      (Host.dotGeneral dot_S50000x50_S50x128_S50000x128_1_0_0_1_n_n none x
        (transpose S50x128 [1, 0] Wr transposes_S128x50_S50x128_1_0)))

/-- Layer 2 (128 → 256 channels, clamp at zero). -/
def layer2 (agg x : FVec Ideal S50000x128 .f32) (Wl : FVec Ideal S256x128 .f32) (bl : FVec Ideal S256 .f32)
    (Wr : FVec Ideal S256x128 .f32) : FVec Ideal S50000x256 .f32 :=
  maximumf
    (addf
      (addf
        (Host.dotGeneral dot_S50000x128_S128x256_S50000x256_1_0_0_1_n_n none agg
          (transpose S128x256 [1, 0] Wl transposes_S256x128_S128x256_1_0))
        (broadcastInDim S50000x256 ![0, 1] bcast_S1x256_S50000x256_0_1 (broadcastInDim S1x256 ![1] bcast_S256_S1x256_1 bl)))
      (Host.dotGeneral dot_S50000x128_S128x256_S50000x256_1_0_0_1_n_n none x
        (transpose S128x256 [1, 0] Wr transposes_S256x128_S128x256_1_0)))
    (broadcastInDim S50000x256 ![] bcast_S_S50000x256 (constant (F := Ideal) S_ .f32 0x00000000#32))

/-- Layer 3 (256 → 512 channels, clamp at zero). -/
def layer3 (agg x : FVec Ideal S50000x256 .f32) (Wl : FVec Ideal S512x256 .f32) (bl : FVec Ideal S512 .f32)
    (Wr : FVec Ideal S512x256 .f32) : FVec Ideal S50000x512 .f32 :=
  maximumf
    (addf
      (addf
        (Host.dotGeneral dot_S50000x256_S256x512_S50000x512_1_0_0_1_n_n none agg
          (transpose S256x512 [1, 0] Wl transposes_S512x256_S256x512_1_0))
        (broadcastInDim S50000x512 ![0, 1] bcast_S1x512_S50000x512_0_1 (broadcastInDim S1x512 ![1] bcast_S512_S1x512_1 bl)))
      (Host.dotGeneral dot_S50000x256_S256x512_S50000x512_1_0_0_1_n_n none x
        (transpose S256x512 [1, 0] Wr transposes_S512x256_S256x512_1_0)))
    (broadcastInDim S50000x512 ![] bcast_S_S50000x512 (constant (F := Ideal) S_ .f32 0x00000000#32))

/-- The readout's first hidden matrix (512 × 256). -/
def hidden1 (xp : FVec Ideal S512x512 .f32) (Wf1 : FVec Ideal S256x512 .f32) (bf1 : FVec Ideal S256 .f32) :
    FVec Ideal S512x256 .f32 :=
  maximumf
    (addf
      (Host.dotGeneral dot_S512x512_S512x256_S512x256_1_0_0_1_n_n none xp
        (transpose S512x256 [1, 0] Wf1 transposes_S256x512_S512x256_1_0))
      (broadcastInDim S512x256 ![0, 1] bcast_S1x256_S512x256_0_1 (broadcastInDim S1x256 ![1] bcast_S256_S1x256_1 bf1)))
    (broadcastInDim S512x256 ![] bcast_S_S512x256 (constant (F := Ideal) S_ .f32 0x00000000#32))

/-- The readout's second hidden matrix (512 × 128). -/
def hidden2 (h1 : FVec Ideal S512x256 .f32) (Wf2 : FVec Ideal S128x256 .f32) (bf2 : FVec Ideal S128 .f32) :
    FVec Ideal S512x128 .f32 :=
  maximumf
    (addf
      (Host.dotGeneral dot_S512x256_S256x128_S512x128_1_0_0_1_n_n none h1
        (transpose S256x128 [1, 0] Wf2 transposes_S128x256_S256x128_1_0))
      (broadcastInDim S512x128 ![0, 1] bcast_S1x128_S512x128_0_1 (broadcastInDim S1x128 ![1] bcast_S128_S1x128_1 bf2)))
    (broadcastInDim S512x128 ![] bcast_S_S512x128 (constant (F := Ideal) S_ .f32 0x00000000#32))

/-- The readout's output column (512 × 1): the last affine map, then `1 / (1 + exp (-z))`. -/
def output (h2 : FVec Ideal S512x128 .f32) (Wo : FVec Ideal S1x128 .f32) (bo : FVec Ideal S1 .f32) :
    FVec Ideal S512x1 .f32 :=
  Host.divf (broadcastInDim S512x1 ![] bcast_S_S512x1 (constant (F := Ideal) S_ .f32 0x3F800000#32))
    (addf (broadcastInDim S512x1 ![] bcast_S_S512x1 (constant (F := Ideal) S_ .f32 0x3F800000#32))
      (Host.exp (Host.negf
        (addf
          (Host.dotGeneral dot_S512x128_S128x1_S512x1_1_0_0_1_n_n none h2
            (transpose S128x1 [1, 0] Wo transposes_S1x128_S128x1_1_0))
          (broadcastInDim S512x1 ![0, 1] bcast_S1x1_S512x1_0_1 (broadcastInDim S1x1 ![1] bcast_S1_S1x1_1 bo))))))

/-- The reference's readout from the pooled features. -/
def head (xp : FVec Ideal S512x512 .f32) (Wf1 : FVec Ideal S256x512 .f32) (bf1 : FVec Ideal S256 .f32)
    (Wf2 : FVec Ideal S128x256 .f32) (bf2 : FVec Ideal S128 .f32) (Wo : FVec Ideal S1x128 .f32)
    (bo : FVec Ideal S1 .f32) : FVec Ideal S512x1 .f32 :=
  output (hidden2 (hidden1 xp Wf1 bf1) Wf2 bf2) Wo bo

end Cert.Sage.Ref

end
-- ==== Proof.RefNetwork.lean ====
/-
  The reference's network: the shared host functions (edge rows, reciprocal in-degree, neighbour
  averages, mean pool) composed with the reference's own spelling of the three layers and of the readout.
-/
import proofs.«174828_j31147102831272_2_alg».proof.Proof.Host
import proofs.«174828_j31147102831272_2_alg».proof.Proof.RefTerms

noncomputable section

namespace Cert.Sage.Ref

open Idealize.ShloMosaic Cert.KernelIdeal

/-- The reference's result from the eighteen argument arrays. -/
def network (x : FVec Ideal S50000x50 .f32) (e : (⟨S2x800000, .i32⟩ : BufTy).Contents (Elt Ideal))
    (batch : (⟨S50000, .i32⟩ : BufTy).Contents (Elt Ideal))
    (Wl1 : FVec Ideal S128x50 .f32) (bl1 : FVec Ideal S128 .f32) (Wr1 : FVec Ideal S128x50 .f32)
    (Wl2 : FVec Ideal S256x128 .f32) (bl2 : FVec Ideal S256 .f32) (Wr2 : FVec Ideal S256x128 .f32)
    (Wl3 : FVec Ideal S512x256 .f32) (bl3 : FVec Ideal S512 .f32) (Wr3 : FVec Ideal S512x256 .f32)
    (Wf1 : FVec Ideal S256x512 .f32) (bf1 : FVec Ideal S256 .f32) (Wf2 : FVec Ideal S128x256 .f32)
    (bf2 : FVec Ideal S128 .f32) (Wo : FVec Ideal S1x128 .f32) (bo : FVec Ideal S1 .f32) : FVec Ideal S512x1 .f32 :=
  let src := srcIds (F := Ideal) e
  let dst := dstIds (F := Ideal) e
  let dinv := degInv (F := Ideal) dst
  let x1 : FVec Ideal S50000x128 .f32 := layer1 (agg50 (F := Ideal) x src dst dinv) x Wl1 bl1 Wr1
  let x2 : FVec Ideal S50000x256 .f32 := layer2 (agg128 (F := Ideal) x1 src dst dinv) x1 Wl2 bl2 Wr2
  let x3 : FVec Ideal S50000x512 .f32 := layer3 (agg256 (F := Ideal) x2 src dst dinv) x2 Wl3 bl3 Wr3
  head (pool (F := Ideal) x3 batch) Wf1 bf1 Wf2 bf2 Wo bo

end Cert.Sage.Ref

end
-- ==== Proof.LibLine.lean ====
/- A straight line of host operations in single-assignment form: every operation writes one buffer, and a
   buffer read by an operation is never written at or after it. Then the contents a buffer holds after the whole
   line are what its own operation computes from the contents its operands hold after the whole line. -/
import Idealize.ShloMosaic.Lib.StableHlo.Run
import Idealize.ShloMosaic.Lib.Pipeline.Frame

namespace Cert.LibLine

open Idealize.ShloMosaic Idealize.ShloMosaic.TcCoe Idealize.ShloMosaic.StableHlo

variable {τ : Topo} {sig : RefSig} {Val : EltTy → Type}

/-- Operation by operation, the line `ops` writes exactly the references `outs`. -/
abbrev WritesAre (ops : List (HloOp τ sig Val)) (outs : List (Ref sig .tc)) : Prop :=
  List.Forall₂ (fun op y => op.writes = {Proc.devRef (τ := τ) .tc y}) ops outs

/-- A reference that is not among the written ones keeps its contents. -/
theorem after_of_writesAre {ops : List (HloOp τ sig Val)} {outs : List (Ref sig .tc)} (h : WritesAre ops outs)
    (V : Valuation τ sig Val) {r : Ref sig .tc} (hr : r ∉ outs) :
    after ops V (Proc.devRef .tc r) = V (Proc.devRef .tc r) := by
  induction h generalizing V with
  | nil => rfl
  | @cons op y ops' outs' hw _ ih =>
    rw [after_cons, ih _ (fun hm => hr (List.mem_cons_of_mem _ hm)), HloOp.result_of_not_mem]
    rw [hw, Finset.mem_singleton]
    exact devRef_ne_of_ne (fun e => hr (e ▸ List.mem_cons_self))

/-- A reference written by none of the operations from position `k` on holds, after the whole line, what it
    holds after the first `k` operations. -/
theorem after_eq_take {ops : List (HloOp τ sig Val)} {outs : List (Ref sig .tc)} (h : WritesAre ops outs) (k : Nat)
    (V : Valuation τ sig Val) {r : Ref sig .tc} (hr : r ∉ outs.drop k) :
    after ops V (Proc.devRef .tc r) = after (ops.take k) V (Proc.devRef .tc r) := by
  conv_lhs => rw [← List.take_append_drop k ops]
  rw [StableHlo.after_append]
  exact after_of_writesAre (List.forall₂_drop k h) _ hr

/-- The contents after the first `k + 1` operations, at the `k`-th operation. -/
theorem after_take_succ {ops : List (HloOp τ sig Val)} {k : Nat} {op : HloOp τ sig Val} (hk : ops[k]? = some op)
    (V : Valuation τ sig Val) : after (ops.take (k + 1)) V = op.result (after (ops.take k) V) := by
  rw [List.take_succ, hk, StableHlo.after_append]; rfl

section Stages

variable {ops : List (HloOp τ sig Val)} {outs : List (Ref sig .tc)} (h : WritesAre ops outs) (k : Nat)
include h

/-- The stage of a constant. -/
theorem stage_nullary (y : Ref sig .tc) (v : y.ty.Contents Val) {hy}
    (hk : ops[k]? = some (nullary y v hy)) (hy' : y ∉ outs.drop (k + 1)) (V : Valuation τ sig Val) :
    after ops V (Proc.devRef .tc y) = v := by
  rw [after_eq_take h (k + 1) V hy', after_take_succ hk]; exact nullary_result ..

/-- The stage of a one-operand operation. -/
theorem stage_unary (x y : Ref sig .tc) (f : x.ty.Contents Val → y.ty.Contents Val) {hx hy}
    (hk : ops[k]? = some (unary x y f hx hy)) (hy' : y ∉ outs.drop (k + 1)) (hx' : x ∉ outs.drop k)
    (V : Valuation τ sig Val) :
    after ops V (Proc.devRef .tc y) = f (after ops V (Proc.devRef .tc x)) := by
  rw [after_eq_take h (k + 1) V hy', after_eq_take h k V hx', after_take_succ hk]; exact unary_result ..

/-- The stage of a two-operand operation. -/
theorem stage_binary (a b y : Ref sig .tc) (f : a.ty.Contents Val → b.ty.Contents Val → y.ty.Contents Val) {ha hb hy}
    (hk : ops[k]? = some (binary a b y f ha hb hy)) (hy' : y ∉ outs.drop (k + 1)) (ha' : a ∉ outs.drop k)
    (hb' : b ∉ outs.drop k) (V : Valuation τ sig Val) :
    after ops V (Proc.devRef .tc y) = f (after ops V (Proc.devRef .tc a)) (after ops V (Proc.devRef .tc b)) := by
  rw [after_eq_take h (k + 1) V hy', after_eq_take h k V ha', after_eq_take h k V hb', after_take_succ hk]
  exact binary_result ..

/-- The stage of a reshape. -/
theorem stage_reshape (x y : Ref sig .tc) (he : x.ty.elt = y.ty.elt) (hn : x.ty.shape.ShapeCasts y.ty.shape) {hx hy}
    (hk : ops[k]? = some (reshape x y he hn hx hy)) (hy' : y ∉ outs.drop (k + 1)) (hx' : x ∉ outs.drop k)
    (V : Valuation τ sig Val) :
    after ops V (Proc.devRef .tc y) = fun i => he ▸ shapeCast y.ty.shape (after ops V (Proc.devRef .tc x)) hn i := by
  rw [after_eq_take h (k + 1) V hy', after_eq_take h k V hx', after_take_succ hk]; exact reshape_result ..

/-- The stage of an operation over a family of operands. -/
theorem stage_nary {n : Nat} (xs : Fin n → Ref sig .tc) (y : Ref sig .tc)
    (f : ((j : Fin n) → (xs j).ty.Contents Val) → y.ty.Contents Val) {hxs hy}
    (hk : ops[k]? = some (nary xs y f hxs hy)) (hy' : y ∉ outs.drop (k + 1)) (hxs' : ∀ j, xs j ∉ outs.drop k)
    (V : Valuation τ sig Val) :
    after ops V (Proc.devRef .tc y) = f (fun j => after ops V (Proc.devRef .tc (xs j))) := by
  rw [after_eq_take h (k + 1) V hy', after_take_succ hk, nary_result]
  exact congrArg f (funext fun j => (after_eq_take h k V (hxs' j)).symm)

end Stages

end Cert.LibLine
-- ==== Proof.LibLineTernary.lean ====
/- Two more stages for a straight line of host operations in single-assignment form (companions of the stages
   for constants, one- and two-operand operations and reshapes): a THREE-operand operation (a select, a scatter), and a
   two-operand operation of an inlined function, whose values are carried to and from its buffers along equations
   between types that are reflexivity for a literal buffer. In both, what the written buffer holds after the WHOLE line
   is the operation's function of what its operands hold after the whole line. -/
import proofs.«174828_j31147102831272_2_alg».proof.Proof.LibLine

namespace Cert.LibLine

open Idealize.ShloMosaic Idealize.ShloMosaic.TcCoe Idealize.ShloMosaic.StableHlo

/-- The stage of a three-operand operation: after the whole line its buffer holds the operation's function of what
    the three operands hold after the whole line. -/
theorem stage_ternary {τ : Topo} {sig : RefSig} {Val : EltTy → Type} {ops : List (HloOp τ sig Val)} {outs : List (Ref sig .tc)}
    (h : WritesAre ops outs) (k : Nat) (c a b y : Ref sig .tc)
    (f : c.ty.Contents Val → a.ty.Contents Val → b.ty.Contents Val → y.ty.Contents Val) {hc ha hb hy}
    (hk : ops[k]? = some (ternary c a b y f hc ha hb hy)) (hy' : y ∉ outs.drop (k + 1)) (hc' : c ∉ outs.drop k)
    (ha' : a ∉ outs.drop k) (hb' : b ∉ outs.drop k) (V : Valuation τ sig Val) :
    after ops V (Proc.devRef .tc y)
      = f (after ops V (Proc.devRef .tc c)) (after ops V (Proc.devRef .tc a)) (after ops V (Proc.devRef .tc b)) := by
  rw [after_eq_take h (k + 1) V hy', after_eq_take h k V hc', after_eq_take h k V ha', after_eq_take h k V hb',
    after_take_succ hk]
  exact ternary_result ..

/-- The stage of a two-operand operation of an inlined function: its values are carried to and from the buffers along
    equations between types that are reflexivity, so its stage reads like any other two-operand operation's. -/
theorem stage_tbinary {τ : Topo} {sig : RefSig} {Val : EltTy → Type} {ops : List (HloOp τ sig Val)} {outs : List (Ref sig .tc)}
    (h : WritesAre ops outs) (k : Nat) (a b y : Ref sig .tc) {ha2 ha3 hb2 hb3 hy2 hy3}
    (f : a.ty.Contents Val → b.ty.Contents Val → y.ty.Contents Val)
    (hk : ops[k]? = some (TRef.binary (⟨a, rfl, ha2, ha3⟩ : TRef sig a.ty) (⟨b, rfl, hb2, hb3⟩ : TRef sig b.ty)
      (⟨y, rfl, hy2, hy3⟩ : TRef sig y.ty) f))
    (hy' : y ∉ outs.drop (k + 1)) (ha' : a ∉ outs.drop k) (hb' : b ∉ outs.drop k) (V : Valuation τ sig Val) :
    after ops V (Proc.devRef .tc y) = f (after ops V (Proc.devRef .tc a)) (after ops V (Proc.devRef .tc b)) :=
  stage_binary h k a b y f hk hy' ha' hb' V

end Cert.LibLine
-- ==== Proof.LibLineCall.lean ====
/- One more stage for a straight line of host operations in single-assignment form: a THREE-operand operation of an
   inlined function (a select called through jnp.where), whose values are carried to and from its buffers along
   equations between types that are reflexivity for a literal buffer. What the written buffer holds after the whole
   line is the operation's function of what its three operands hold after the whole line. General; no program is
   imported. -/
import proofs.«174828_j31147102831272_2_alg».proof.Proof.LibLineTernary

namespace Cert.LibLine

open Idealize.ShloMosaic Idealize.ShloMosaic.TcCoe Idealize.ShloMosaic.StableHlo

/-- The stage of a three-operand operation of an inlined function: its values are carried to and from the buffers along
    equations between types that are reflexivity, so its stage reads like any other three-operand operation's. -/
theorem stage_tternary {τ : Topo} {sig : RefSig} {Val : EltTy → Type} {ops : List (HloOp τ sig Val)} {outs : List (Ref sig .tc)}
    (h : WritesAre ops outs) (k : Nat) (c a b y : Ref sig .tc) {hc2 hc3 ha2 ha3 hb2 hb3 hy2 hy3}
    (f : c.ty.Contents Val → a.ty.Contents Val → b.ty.Contents Val → y.ty.Contents Val)
    (hk : ops[k]? = some (TRef.ternary (⟨c, rfl, hc2, hc3⟩ : TRef sig c.ty) (⟨a, rfl, ha2, ha3⟩ : TRef sig a.ty)
      (⟨b, rfl, hb2, hb3⟩ : TRef sig b.ty) (⟨y, rfl, hy2, hy3⟩ : TRef sig y.ty) f))
    (hy' : y ∉ outs.drop (k + 1)) (hc' : c ∉ outs.drop k) (ha' : a ∉ outs.drop k) (hb' : b ∉ outs.drop k)
    (V : Valuation τ sig Val) :
    after ops V (Proc.devRef .tc y)
      = f (after ops V (Proc.devRef .tc c)) (after ops V (Proc.devRef .tc a)) (after ops V (Proc.devRef .tc b)) :=
  stage_ternary h k c a b y f hk hy' hc' ha' hb' V

end Cert.LibLine
-- ==== Proof.LibLineCallUnary.lean ====
/- One more stage for a straight line of host operations in single-assignment form: a ONE-operand operation of an
   inlined function (a convert or a broadcast inside a function jax outlined, such as jnp.where), whose values are carried
   to and from its buffers along equations between types that are reflexivity for a literal buffer. What the written buffer
   holds after the whole line is the operation's function of what its operand holds after the whole line. General; no
   program is imported. -/
import proofs.«174828_j31147102831272_2_alg».proof.Proof.LibLine

namespace Cert.LibLine

open Idealize.ShloMosaic Idealize.ShloMosaic.TcCoe Idealize.ShloMosaic.StableHlo

/-- The stage of a one-operand operation of an inlined function: its values are carried to and from the buffers along
    equations between types that are reflexivity, so its stage reads like any other one-operand operation's. -/
theorem stage_tunary {τ : Topo} {sig : RefSig} {Val : EltTy → Type} {ops : List (HloOp τ sig Val)} {outs : List (Ref sig .tc)}
    (h : WritesAre ops outs) (k : Nat) (x y : Ref sig .tc) {hx2 hx3 hy2 hy3}
    (f : x.ty.Contents Val → y.ty.Contents Val)
    (hk : ops[k]? = some (TRef.unary (⟨x, rfl, hx2, hx3⟩ : TRef sig x.ty) (⟨y, rfl, hy2, hy3⟩ : TRef sig y.ty) f))
    (hy' : y ∉ outs.drop (k + 1)) (hx' : x ∉ outs.drop k) (V : Valuation τ sig Val) :
    after ops V (Proc.devRef .tc y) = f (after ops V (Proc.devRef .tc x)) :=
  stage_unary h k x y f hk hy' hx' V

end Cert.LibLine
-- ==== Proof.RefValue.lean ====
/-
  The value the reference program ends with.  The 144 operations are in single-assignment form, so after the
  whole line every buffer holds its own operation's function of what its operands hold after the whole line.
  Reading the line in order, stage by stage: the two rows of the edge list, the reciprocal in-degree column,
  and then three times the same pattern (negative source ids wrapped, source rows gathered and added into the
  destination rows and scaled: the neighbour average; the two products, the bias and the activation: the layer),
  the per-graph mean, and the readout's two hidden matrices and its output column.  Each stage is compared with
  one small definition; composed, they are the reference's network of the eighteen argument arrays, which no
  operation writes.
-/
import proofs.«174828_j31147102831272_2_alg».proof.Proof.RefRun
import proofs.«174828_j31147102831272_2_alg».proof.Proof.RefNetwork
import proofs.«174828_j31147102831272_2_alg».proof.Proof.LibLineCall
import proofs.«174828_j31147102831272_2_alg».proof.Proof.LibLineCallUnary

noncomputable section

namespace Cert.Sage.Ref

open Cert.ReferenceIdeal Cert.ReferenceIdeal.Facts₀ Cert.ReferenceIdeal.RefValue Idealize.ShloMosaic Idealize.ShloMosaic.TcCoe
  Idealize.SL.Sem Idealize.ShloMosaic.StableHlo Cert.LibLine

/-- The buffer each of the 144 operations writes, in order. -/
abbrev outs : List (Ref sig .tc) :=
  [ main_v0, main_v1, main_v2, main_v3, main_cst, main_v4, main_cst_0, main_v5, main_v6, main_v7,
    main_cst_1, main_v8, main_v9, main_cst_2, main_v10, main_v11, main_v12, main_c, main_v13, main_v14,
    main_c_3, main_v15, main_v16, main_v17, main_v18, main_v19, main_cst_4, main_v20, main_v21, main_v22,
    main_v23, main_v24, main_v25, main_v26, main_v27, main_v28, main_v29, main_v30, main_v31, main_v32,
    main_call0_cst, main_call0_v0, main_call0_v1, main_call0_cst_0, main_call0_v2, main_call0_v3, main_v33, main_c_5, main_v34, main_v35,
    main_c_6, main_v36, main_v37, main_v38, main_v39, main_v40, main_cst_7, main_v41, main_v42, main_v43,
    main_v44, main_v45, main_v46, main_v47, main_v48, main_v49, main_v50, main_v51, main_v52, main_v53,
    main_call1_cst, main_call1_v0, main_v54, main_c_8, main_v55, main_v56, main_c_9, main_v57, main_v58, main_v59,
    main_v60, main_v61, main_cst_10, main_v62, main_v63, main_v64, main_v65, main_v66, main_v67, main_v68,
    main_v69, main_v70, main_v71, main_v72, main_v73, main_v74, main_call2_cst, main_call2_v0, main_v75, main_cst_11,
    main_v76, main_v77, main_v78, main_cst_12, main_v79, main_cst_13, main_v80, main_v81, main_v82, main_cst_14,
    main_v83, main_v84, main_v85, main_v86, main_v87, main_v88, main_v89, main_v90, main_v91, main_v92,
    main_call3_cst, main_call3_v0, main_v93, main_v94, main_v95, main_v96, main_v97, main_v98, main_call4_cst, main_call4_v0,
    main_v99, main_v100, main_v101, main_v102, main_v103, main_v104, main_v105, main_v106, main_cst_15, main_v107,
    main_v108, main_cst_16, main_v109, main_v110 ]

set_option maxRecDepth 16384 in
/-- Operation by operation the line writes exactly those buffers: each builder writes its result buffer alone. -/
theorem writesAre : WritesAre (ops (F := Ideal)) outs :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))))))))))))))))))))))))))))))))))))))))))))))))))))))))))))))))))))))))))))))))))))))))))))))))))))))))))))))

/-! Every argument buffer is written by no operation, so it keeps its launch contents. -/
theorem a_arg0 (V : Valuation τ sig (Elt Ideal)) : after (ops (F := Ideal)) V (Proc.devRef .tc main_arg0) = V main_arg0 :=
  after_of_writesAre writesAre V (by decide)
theorem a_arg1 (V : Valuation τ sig (Elt Ideal)) : after (ops (F := Ideal)) V (Proc.devRef .tc main_arg1) = V main_arg1 :=
  after_of_writesAre writesAre V (by decide)
theorem a_arg2 (V : Valuation τ sig (Elt Ideal)) : after (ops (F := Ideal)) V (Proc.devRef .tc main_arg2) = V main_arg2 :=
  after_of_writesAre writesAre V (by decide)
theorem a_arg3 (V : Valuation τ sig (Elt Ideal)) : after (ops (F := Ideal)) V (Proc.devRef .tc main_arg3) = V main_arg3 :=
  after_of_writesAre writesAre V (by decide)
theorem a_arg4 (V : Valuation τ sig (Elt Ideal)) : after (ops (F := Ideal)) V (Proc.devRef .tc main_arg4) = V main_arg4 :=
  after_of_writesAre writesAre V (by decide)
theorem a_arg5 (V : Valuation τ sig (Elt Ideal)) : after (ops (F := Ideal)) V (Proc.devRef .tc main_arg5) = V main_arg5 :=
  after_of_writesAre writesAre V (by decide)
theorem a_arg6 (V : Valuation τ sig (Elt Ideal)) : after (ops (F := Ideal)) V (Proc.devRef .tc main_arg6) = V main_arg6 :=
  after_of_writesAre writesAre V (by decide)
theorem a_arg7 (V : Valuation τ sig (Elt Ideal)) : after (ops (F := Ideal)) V (Proc.devRef .tc main_arg7) = V main_arg7 :=
  after_of_writesAre writesAre V (by decide)
theorem a_arg8 (V : Valuation τ sig (Elt Ideal)) : after (ops (F := Ideal)) V (Proc.devRef .tc main_arg8) = V main_arg8 :=
  after_of_writesAre writesAre V (by decide)
theorem a_arg9 (V : Valuation τ sig (Elt Ideal)) : after (ops (F := Ideal)) V (Proc.devRef .tc main_arg9) = V main_arg9 :=
  after_of_writesAre writesAre V (by decide)
theorem a_arg10 (V : Valuation τ sig (Elt Ideal)) : after (ops (F := Ideal)) V (Proc.devRef .tc main_arg10) = V main_arg10 :=
  after_of_writesAre writesAre V (by decide)
theorem a_arg11 (V : Valuation τ sig (Elt Ideal)) : after (ops (F := Ideal)) V (Proc.devRef .tc main_arg11) = V main_arg11 :=
  after_of_writesAre writesAre V (by decide)
theorem a_arg12 (V : Valuation τ sig (Elt Ideal)) : after (ops (F := Ideal)) V (Proc.devRef .tc main_arg12) = V main_arg12 :=
  after_of_writesAre writesAre V (by decide)
theorem a_arg13 (V : Valuation τ sig (Elt Ideal)) : after (ops (F := Ideal)) V (Proc.devRef .tc main_arg13) = V main_arg13 :=
  after_of_writesAre writesAre V (by decide)
theorem a_arg14 (V : Valuation τ sig (Elt Ideal)) : after (ops (F := Ideal)) V (Proc.devRef .tc main_arg14) = V main_arg14 :=
  after_of_writesAre writesAre V (by decide)
theorem a_arg15 (V : Valuation τ sig (Elt Ideal)) : after (ops (F := Ideal)) V (Proc.devRef .tc main_arg15) = V main_arg15 :=
  after_of_writesAre writesAre V (by decide)
theorem a_arg16 (V : Valuation τ sig (Elt Ideal)) : after (ops (F := Ideal)) V (Proc.devRef .tc main_arg16) = V main_arg16 :=
  after_of_writesAre writesAre V (by decide)
theorem a_arg17 (V : Valuation τ sig (Elt Ideal)) : after (ops (F := Ideal)) V (Proc.devRef .tc main_arg17) = V main_arg17 :=
  after_of_writesAre writesAre V (by decide)

/-- After the whole line `main_v1` holds the source row of the edge list. -/
theorem e_v1 (V : Valuation τ sig (Elt Ideal)) :
    after (ops (F := Ideal)) V (Proc.devRef .tc main_v1)
      = (srcIds (F := Ideal) (V main_arg1)) := by
  have s_v0 := stage_unary writesAre 0 main_arg1 main_v0 _ rfl (by decide) (by decide) V
  have s_v1 := stage_reshape writesAre 1 main_v0 main_v1 rfl _ rfl (by decide) (by decide) V
  rw [s_v1, s_v0, a_arg1 V]
  rfl

/-- After the whole line `main_v3` holds the destination row of the edge list. -/
theorem e_v3 (V : Valuation τ sig (Elt Ideal)) :
    after (ops (F := Ideal)) V (Proc.devRef .tc main_v3)
      = (dstIds (F := Ideal) (V main_arg1)) := by
  have s_v2 := stage_unary writesAre 2 main_arg1 main_v2 _ rfl (by decide) (by decide) V
  have s_v3 := stage_reshape writesAre 3 main_v2 main_v3 rfl _ rfl (by decide) (by decide) V
  rw [s_v3, s_v2, a_arg1 V]
  rfl

/-- After the whole line `main_v12` holds the reciprocal in-degree column. -/
theorem e_v12 (V : Valuation τ sig (Elt Ideal)) :
    after (ops (F := Ideal)) V (Proc.devRef .tc main_v12)
      = (degInv (F := Ideal) (dstIds (F := Ideal) (V main_arg1))) := by
  have s_cst := stage_nullary writesAre 4 main_cst _ rfl (by decide) V
  have s_v4 := stage_unary writesAre 5 main_cst main_v4 _ rfl (by decide) (by decide) V
  have s_cst_0 := stage_nullary writesAre 6 main_cst_0 _ rfl (by decide) V
  have s_v5 := stage_unary writesAre 7 main_cst_0 main_v5 _ rfl (by decide) (by decide) V
  have s_v6 := stage_unary writesAre 8 main_v3 main_v6 _ rfl (by decide) (by decide) V
  have s_v7 := stage_ternary writesAre 9 main_v5 main_v6 main_v4 main_v7 _ rfl (by decide) (by decide) (by decide) (by decide) V
  have s_cst_1 := stage_nullary writesAre 10 main_cst_1 _ rfl (by decide) V
  have s_v8 := stage_unary writesAre 11 main_cst_1 main_v8 _ rfl (by decide) (by decide) V
  have s_v9 := stage_binary writesAre 12 main_v7 main_v8 main_v9 _ rfl (by decide) (by decide) (by decide) V
  have s_cst_2 := stage_nullary writesAre 13 main_cst_2 _ rfl (by decide) V
  have s_v10 := stage_unary writesAre 14 main_cst_2 main_v10 _ rfl (by decide) (by decide) V
  have s_v11 := stage_binary writesAre 15 main_v10 main_v9 main_v11 _ rfl (by decide) (by decide) (by decide) V
  have s_v12 := stage_unary writesAre 16 main_v11 main_v12 _ rfl (by decide) (by decide) V
  rw [s_v12, s_v11, s_v10, s_cst_2, s_v9, s_v8, s_cst_1, s_v7, s_v6, s_v5, s_cst_0, s_v4, s_cst, e_v3 V]
  rfl

/-- After the whole line `main_v18` holds the wrapped source ids (first layer's copy). -/
theorem e_v18 (V : Valuation τ sig (Elt Ideal)) :
    after (ops (F := Ideal)) V (Proc.devRef .tc main_v18)
      = (wrapIds (F := Ideal) (srcIds (F := Ideal) (V main_arg1))) := by
  have s_c := stage_nullary writesAre 17 main_c _ rfl (by decide) V
  have s_v13 := stage_unary writesAre 18 main_c main_v13 _ rfl (by decide) (by decide) V
  have s_v14 := stage_binary writesAre 19 main_v1 main_v13 main_v14 _ rfl (by decide) (by decide) (by decide) V
  have s_c_3 := stage_nullary writesAre 20 main_c_3 _ rfl (by decide) V
  have s_v15 := stage_unary writesAre 21 main_c_3 main_v15 _ rfl (by decide) (by decide) V
  have s_v16 := stage_binary writesAre 22 main_v1 main_v15 main_v16 _ rfl (by decide) (by decide) (by decide) V
  have s_v17 := stage_ternary writesAre 23 main_v14 main_v16 main_v1 main_v17 _ rfl (by decide) (by decide) (by decide) (by decide) V
  have s_v18 := stage_unary writesAre 24 main_v17 main_v18 _ rfl (by decide) (by decide) V
  rw [s_v18, s_v17, s_v16, s_v15, s_c_3, s_v14, s_v13, s_c, e_v1 V]
  rfl

/-- After the whole line `main_v24` holds the neighbour average of the input features. -/
theorem e_v24 (V : Valuation τ sig (Elt Ideal)) :
    after (ops (F := Ideal)) V (Proc.devRef .tc main_v24)
      = (agg50 (F := Ideal) (V main_arg0) (srcIds (F := Ideal) (V main_arg1)) (dstIds (F := Ideal) (V main_arg1)) (degInv (F := Ideal) (dstIds (F := Ideal) (V main_arg1)))) := by
  have s_v19 := stage_binary writesAre 25 main_arg0 main_v18 main_v19 _ rfl (by decide) (by decide) (by decide) V
  have s_cst_4 := stage_nullary writesAre 26 main_cst_4 _ rfl (by decide) V
  have s_v20 := stage_unary writesAre 27 main_cst_4 main_v20 _ rfl (by decide) (by decide) V
  have s_v21 := stage_unary writesAre 28 main_v3 main_v21 _ rfl (by decide) (by decide) V
  have s_v22 := stage_ternary writesAre 29 main_v20 main_v21 main_v19 main_v22 _ rfl (by decide) (by decide) (by decide) (by decide) V
  have s_v23 := stage_unary writesAre 30 main_v12 main_v23 _ rfl (by decide) (by decide) V
  have s_v24 := stage_binary writesAre 31 main_v22 main_v23 main_v24 _ rfl (by decide) (by decide) (by decide) V
  rw [s_v24, s_v23, s_v22, s_v21, s_v20, s_cst_4, s_v19, e_v18 V, e_v12 V, e_v3 V, a_arg0 V]
  rfl

/-- After the whole line `main_v33` holds layer 1's output. -/
theorem e_v33 (V : Valuation τ sig (Elt Ideal)) :
    after (ops (F := Ideal)) V (Proc.devRef .tc main_v33)
      = (layer1 (agg50 (F := Ideal) (V main_arg0) (srcIds (F := Ideal) (V main_arg1)) (dstIds (F := Ideal) (V main_arg1)) (degInv (F := Ideal) (dstIds (F := Ideal) (V main_arg1)))) (V main_arg0) (V main_arg3) (V main_arg4) (V main_arg5)) := by
  have s_v25 := stage_unary writesAre 32 main_arg3 main_v25 _ rfl (by decide) (by decide) V
  have s_v26 := stage_binary writesAre 33 main_v24 main_v25 main_v26 _ rfl (by decide) (by decide) (by decide) V
  have s_v27 := stage_unary writesAre 34 main_arg4 main_v27 _ rfl (by decide) (by decide) V
  have s_v28 := stage_unary writesAre 35 main_v27 main_v28 _ rfl (by decide) (by decide) V
  have s_v29 := stage_binary writesAre 36 main_v26 main_v28 main_v29 _ rfl (by decide) (by decide) (by decide) V
  have s_v30 := stage_unary writesAre 37 main_arg5 main_v30 _ rfl (by decide) (by decide) V
  have s_v31 := stage_binary writesAre 38 main_arg0 main_v30 main_v31 _ rfl (by decide) (by decide) (by decide) V
  have s_v32 := stage_binary writesAre 39 main_v29 main_v31 main_v32 _ rfl (by decide) (by decide) (by decide) V
  have s_call0_cst := stage_nullary writesAre 40 main_call0_cst _ rfl (by decide) V
  have s_call0_v0 := stage_tunary writesAre 41 main_call0_cst main_call0_v0 _ rfl (by decide) (by decide) V
  have s_call0_v1 := stage_tbinary writesAre 42 main_v32 main_call0_v0 main_call0_v1 _ rfl (by decide) (by decide) (by decide) V
  have s_call0_cst_0 := stage_nullary writesAre 43 main_call0_cst_0 _ rfl (by decide) V
  have s_call0_v2 := stage_tunary writesAre 44 main_call0_cst_0 main_call0_v2 _ rfl (by decide) (by decide) V
  have s_call0_v3 := stage_tbinary writesAre 45 main_call0_v2 main_v32 main_call0_v3 _ rfl (by decide) (by decide) (by decide) V
  have s_v33 := stage_tternary writesAre 46 main_call0_v1 main_v32 main_call0_v3 main_v33 _ rfl (by decide) (by decide) (by decide) (by decide) V
  rw [s_v33, s_call0_v3, s_call0_v2, s_call0_cst_0, s_call0_v1, s_call0_v0, s_call0_cst, s_v32, s_v31, s_v30, s_v29, s_v28, s_v27, s_v26, s_v25, e_v24 V, a_arg3 V, a_arg4 V, a_arg0 V, a_arg5 V]
  rfl

/-- After the whole line `main_v39` holds the wrapped source ids (second layer's copy). -/
theorem e_v39 (V : Valuation τ sig (Elt Ideal)) :
    after (ops (F := Ideal)) V (Proc.devRef .tc main_v39)
      = (wrapIds (F := Ideal) (srcIds (F := Ideal) (V main_arg1))) := by
  have s_c_5 := stage_nullary writesAre 47 main_c_5 _ rfl (by decide) V
  have s_v34 := stage_unary writesAre 48 main_c_5 main_v34 _ rfl (by decide) (by decide) V
  have s_v35 := stage_binary writesAre 49 main_v1 main_v34 main_v35 _ rfl (by decide) (by decide) (by decide) V
  have s_c_6 := stage_nullary writesAre 50 main_c_6 _ rfl (by decide) V
  have s_v36 := stage_unary writesAre 51 main_c_6 main_v36 _ rfl (by decide) (by decide) V
  have s_v37 := stage_binary writesAre 52 main_v1 main_v36 main_v37 _ rfl (by decide) (by decide) (by decide) V
  have s_v38 := stage_ternary writesAre 53 main_v35 main_v37 main_v1 main_v38 _ rfl (by decide) (by decide) (by decide) (by decide) V
  have s_v39 := stage_unary writesAre 54 main_v38 main_v39 _ rfl (by decide) (by decide) V
  rw [s_v39, s_v38, s_v37, s_v36, s_c_6, s_v35, s_v34, s_c_5, e_v1 V]
  rfl

/-- After the whole line `main_v45` holds the neighbour average of layer 1's output. -/
theorem e_v45 (V : Valuation τ sig (Elt Ideal)) :
    after (ops (F := Ideal)) V (Proc.devRef .tc main_v45)
      = (agg128 (F := Ideal) (layer1 (agg50 (F := Ideal) (V main_arg0) (srcIds (F := Ideal) (V main_arg1)) (dstIds (F := Ideal) (V main_arg1)) (degInv (F := Ideal) (dstIds (F := Ideal) (V main_arg1)))) (V main_arg0) (V main_arg3) (V main_arg4) (V main_arg5)) (srcIds (F := Ideal) (V main_arg1)) (dstIds (F := Ideal) (V main_arg1)) (degInv (F := Ideal) (dstIds (F := Ideal) (V main_arg1)))) := by
  have s_v40 := stage_binary writesAre 55 main_v33 main_v39 main_v40 _ rfl (by decide) (by decide) (by decide) V
  have s_cst_7 := stage_nullary writesAre 56 main_cst_7 _ rfl (by decide) V
  have s_v41 := stage_unary writesAre 57 main_cst_7 main_v41 _ rfl (by decide) (by decide) V
  have s_v42 := stage_unary writesAre 58 main_v3 main_v42 _ rfl (by decide) (by decide) V
  have s_v43 := stage_ternary writesAre 59 main_v41 main_v42 main_v40 main_v43 _ rfl (by decide) (by decide) (by decide) (by decide) V
  have s_v44 := stage_unary writesAre 60 main_v12 main_v44 _ rfl (by decide) (by decide) V
  have s_v45 := stage_binary writesAre 61 main_v43 main_v44 main_v45 _ rfl (by decide) (by decide) (by decide) V
  rw [s_v45, s_v44, s_v43, s_v42, s_v41, s_cst_7, s_v40, e_v39 V, e_v33 V, e_v12 V, e_v3 V]
  rfl

/-- After the whole line `main_v54` holds layer 2's output. -/
theorem e_v54 (V : Valuation τ sig (Elt Ideal)) :
    after (ops (F := Ideal)) V (Proc.devRef .tc main_v54)
      = (layer2 (agg128 (F := Ideal) (layer1 (agg50 (F := Ideal) (V main_arg0) (srcIds (F := Ideal) (V main_arg1)) (dstIds (F := Ideal) (V main_arg1)) (degInv (F := Ideal) (dstIds (F := Ideal) (V main_arg1)))) (V main_arg0) (V main_arg3) (V main_arg4) (V main_arg5)) (srcIds (F := Ideal) (V main_arg1)) (dstIds (F := Ideal) (V main_arg1)) (degInv (F := Ideal) (dstIds (F := Ideal) (V main_arg1)))) (layer1 (agg50 (F := Ideal) (V main_arg0) (srcIds (F := Ideal) (V main_arg1)) (dstIds (F := Ideal) (V main_arg1)) (degInv (F := Ideal) (dstIds (F := Ideal) (V main_arg1)))) (V main_arg0) (V main_arg3) (V main_arg4) (V main_arg5)) (V main_arg6) (V main_arg7) (V main_arg8)) := by
  have s_v46 := stage_unary writesAre 62 main_arg6 main_v46 _ rfl (by decide) (by decide) V
  have s_v47 := stage_binary writesAre 63 main_v45 main_v46 main_v47 _ rfl (by decide) (by decide) (by decide) V
  have s_v48 := stage_unary writesAre 64 main_arg7 main_v48 _ rfl (by decide) (by decide) V
  have s_v49 := stage_unary writesAre 65 main_v48 main_v49 _ rfl (by decide) (by decide) V
  have s_v50 := stage_binary writesAre 66 main_v47 main_v49 main_v50 _ rfl (by decide) (by decide) (by decide) V
  have s_v51 := stage_unary writesAre 67 main_arg8 main_v51 _ rfl (by decide) (by decide) V
  have s_v52 := stage_binary writesAre 68 main_v33 main_v51 main_v52 _ rfl (by decide) (by decide) (by decide) V
  have s_v53 := stage_binary writesAre 69 main_v50 main_v52 main_v53 _ rfl (by decide) (by decide) (by decide) V
  have s_call1_cst := stage_nullary writesAre 70 main_call1_cst _ rfl (by decide) V
  have s_call1_v0 := stage_tunary writesAre 71 main_call1_cst main_call1_v0 _ rfl (by decide) (by decide) V
  have s_v54 := stage_tbinary writesAre 72 main_v53 main_call1_v0 main_v54 _ rfl (by decide) (by decide) (by decide) V
  rw [s_v54, s_call1_v0, s_call1_cst, s_v53, s_v52, s_v51, s_v50, s_v49, s_v48, s_v47, s_v46, e_v45 V, e_v33 V, a_arg6 V, a_arg7 V, a_arg8 V]
  rfl

/-- After the whole line `main_v60` holds the wrapped source ids (third layer's copy). -/
theorem e_v60 (V : Valuation τ sig (Elt Ideal)) :
    after (ops (F := Ideal)) V (Proc.devRef .tc main_v60)
      = (wrapIds (F := Ideal) (srcIds (F := Ideal) (V main_arg1))) := by
  have s_c_8 := stage_nullary writesAre 73 main_c_8 _ rfl (by decide) V
  have s_v55 := stage_unary writesAre 74 main_c_8 main_v55 _ rfl (by decide) (by decide) V
  have s_v56 := stage_binary writesAre 75 main_v1 main_v55 main_v56 _ rfl (by decide) (by decide) (by decide) V
  have s_c_9 := stage_nullary writesAre 76 main_c_9 _ rfl (by decide) V
  have s_v57 := stage_unary writesAre 77 main_c_9 main_v57 _ rfl (by decide) (by decide) V
  have s_v58 := stage_binary writesAre 78 main_v1 main_v57 main_v58 _ rfl (by decide) (by decide) (by decide) V
  have s_v59 := stage_ternary writesAre 79 main_v56 main_v58 main_v1 main_v59 _ rfl (by decide) (by decide) (by decide) (by decide) V
  have s_v60 := stage_unary writesAre 80 main_v59 main_v60 _ rfl (by decide) (by decide) V
  rw [s_v60, s_v59, s_v58, s_v57, s_c_9, s_v56, s_v55, s_c_8, e_v1 V]
  rfl

/-- After the whole line `main_v66` holds the neighbour average of layer 2's output. -/
theorem e_v66 (V : Valuation τ sig (Elt Ideal)) :
    after (ops (F := Ideal)) V (Proc.devRef .tc main_v66)
      = (agg256 (F := Ideal) (layer2 (agg128 (F := Ideal) (layer1 (agg50 (F := Ideal) (V main_arg0) (srcIds (F := Ideal) (V main_arg1)) (dstIds (F := Ideal) (V main_arg1)) (degInv (F := Ideal) (dstIds (F := Ideal) (V main_arg1)))) (V main_arg0) (V main_arg3) (V main_arg4) (V main_arg5)) (srcIds (F := Ideal) (V main_arg1)) (dstIds (F := Ideal) (V main_arg1)) (degInv (F := Ideal) (dstIds (F := Ideal) (V main_arg1)))) (layer1 (agg50 (F := Ideal) (V main_arg0) (srcIds (F := Ideal) (V main_arg1)) (dstIds (F := Ideal) (V main_arg1)) (degInv (F := Ideal) (dstIds (F := Ideal) (V main_arg1)))) (V main_arg0) (V main_arg3) (V main_arg4) (V main_arg5)) (V main_arg6) (V main_arg7) (V main_arg8)) (srcIds (F := Ideal) (V main_arg1)) (dstIds (F := Ideal) (V main_arg1)) (degInv (F := Ideal) (dstIds (F := Ideal) (V main_arg1)))) := by
  have s_v61 := stage_binary writesAre 81 main_v54 main_v60 main_v61 _ rfl (by decide) (by decide) (by decide) V
  have s_cst_10 := stage_nullary writesAre 82 main_cst_10 _ rfl (by decide) V
  have s_v62 := stage_unary writesAre 83 main_cst_10 main_v62 _ rfl (by decide) (by decide) V
  have s_v63 := stage_unary writesAre 84 main_v3 main_v63 _ rfl (by decide) (by decide) V
  have s_v64 := stage_ternary writesAre 85 main_v62 main_v63 main_v61 main_v64 _ rfl (by decide) (by decide) (by decide) (by decide) V
  have s_v65 := stage_unary writesAre 86 main_v12 main_v65 _ rfl (by decide) (by decide) V
  have s_v66 := stage_binary writesAre 87 main_v64 main_v65 main_v66 _ rfl (by decide) (by decide) (by decide) V
  rw [s_v66, s_v65, s_v64, s_v63, s_v62, s_cst_10, s_v61, e_v60 V, e_v54 V, e_v12 V, e_v3 V]
  rfl

/-- After the whole line `main_v75` holds layer 3's output. -/
theorem e_v75 (V : Valuation τ sig (Elt Ideal)) :
    after (ops (F := Ideal)) V (Proc.devRef .tc main_v75)
      = (layer3 (agg256 (F := Ideal) (layer2 (agg128 (F := Ideal) (layer1 (agg50 (F := Ideal) (V main_arg0) (srcIds (F := Ideal) (V main_arg1)) (dstIds (F := Ideal) (V main_arg1)) (degInv (F := Ideal) (dstIds (F := Ideal) (V main_arg1)))) (V main_arg0) (V main_arg3) (V main_arg4) (V main_arg5)) (srcIds (F := Ideal) (V main_arg1)) (dstIds (F := Ideal) (V main_arg1)) (degInv (F := Ideal) (dstIds (F := Ideal) (V main_arg1)))) (layer1 (agg50 (F := Ideal) (V main_arg0) (srcIds (F := Ideal) (V main_arg1)) (dstIds (F := Ideal) (V main_arg1)) (degInv (F := Ideal) (dstIds (F := Ideal) (V main_arg1)))) (V main_arg0) (V main_arg3) (V main_arg4) (V main_arg5)) (V main_arg6) (V main_arg7) (V main_arg8)) (srcIds (F := Ideal) (V main_arg1)) (dstIds (F := Ideal) (V main_arg1)) (degInv (F := Ideal) (dstIds (F := Ideal) (V main_arg1)))) (layer2 (agg128 (F := Ideal) (layer1 (agg50 (F := Ideal) (V main_arg0) (srcIds (F := Ideal) (V main_arg1)) (dstIds (F := Ideal) (V main_arg1)) (degInv (F := Ideal) (dstIds (F := Ideal) (V main_arg1)))) (V main_arg0) (V main_arg3) (V main_arg4) (V main_arg5)) (srcIds (F := Ideal) (V main_arg1)) (dstIds (F := Ideal) (V main_arg1)) (degInv (F := Ideal) (dstIds (F := Ideal) (V main_arg1)))) (layer1 (agg50 (F := Ideal) (V main_arg0) (srcIds (F := Ideal) (V main_arg1)) (dstIds (F := Ideal) (V main_arg1)) (degInv (F := Ideal) (dstIds (F := Ideal) (V main_arg1)))) (V main_arg0) (V main_arg3) (V main_arg4) (V main_arg5)) (V main_arg6) (V main_arg7) (V main_arg8)) (V main_arg9) (V main_arg10) (V main_arg11)) := by
  have s_v67 := stage_unary writesAre 88 main_arg9 main_v67 _ rfl (by decide) (by decide) V
  have s_v68 := stage_binary writesAre 89 main_v66 main_v67 main_v68 _ rfl (by decide) (by decide) (by decide) V
  have s_v69 := stage_unary writesAre 90 main_arg10 main_v69 _ rfl (by decide) (by decide) V
  have s_v70 := stage_unary writesAre 91 main_v69 main_v70 _ rfl (by decide) (by decide) V
  have s_v71 := stage_binary writesAre 92 main_v68 main_v70 main_v71 _ rfl (by decide) (by decide) (by decide) V
  have s_v72 := stage_unary writesAre 93 main_arg11 main_v72 _ rfl (by decide) (by decide) V
  have s_v73 := stage_binary writesAre 94 main_v54 main_v72 main_v73 _ rfl (by decide) (by decide) (by decide) V
  have s_v74 := stage_binary writesAre 95 main_v71 main_v73 main_v74 _ rfl (by decide) (by decide) (by decide) V
  have s_call2_cst := stage_nullary writesAre 96 main_call2_cst _ rfl (by decide) V
  have s_call2_v0 := stage_tunary writesAre 97 main_call2_cst main_call2_v0 _ rfl (by decide) (by decide) V
  have s_v75 := stage_tbinary writesAre 98 main_v74 main_call2_v0 main_v75 _ rfl (by decide) (by decide) (by decide) V
  rw [s_v75, s_call2_v0, s_call2_cst, s_v74, s_v73, s_v72, s_v71, s_v70, s_v69, s_v68, s_v67, e_v66 V, e_v54 V, a_arg9 V, a_arg10 V, a_arg11 V]
  rfl

/-- After the whole line `main_v87` holds the per-graph mean of layer 3's output. -/
theorem e_v87 (V : Valuation τ sig (Elt Ideal)) :
    after (ops (F := Ideal)) V (Proc.devRef .tc main_v87)
      = (pool (F := Ideal) (layer3 (agg256 (F := Ideal) (layer2 (agg128 (F := Ideal) (layer1 (agg50 (F := Ideal) (V main_arg0) (srcIds (F := Ideal) (V main_arg1)) (dstIds (F := Ideal) (V main_arg1)) (degInv (F := Ideal) (dstIds (F := Ideal) (V main_arg1)))) (V main_arg0) (V main_arg3) (V main_arg4) (V main_arg5)) (srcIds (F := Ideal) (V main_arg1)) (dstIds (F := Ideal) (V main_arg1)) (degInv (F := Ideal) (dstIds (F := Ideal) (V main_arg1)))) (layer1 (agg50 (F := Ideal) (V main_arg0) (srcIds (F := Ideal) (V main_arg1)) (dstIds (F := Ideal) (V main_arg1)) (degInv (F := Ideal) (dstIds (F := Ideal) (V main_arg1)))) (V main_arg0) (V main_arg3) (V main_arg4) (V main_arg5)) (V main_arg6) (V main_arg7) (V main_arg8)) (srcIds (F := Ideal) (V main_arg1)) (dstIds (F := Ideal) (V main_arg1)) (degInv (F := Ideal) (dstIds (F := Ideal) (V main_arg1)))) (layer2 (agg128 (F := Ideal) (layer1 (agg50 (F := Ideal) (V main_arg0) (srcIds (F := Ideal) (V main_arg1)) (dstIds (F := Ideal) (V main_arg1)) (degInv (F := Ideal) (dstIds (F := Ideal) (V main_arg1)))) (V main_arg0) (V main_arg3) (V main_arg4) (V main_arg5)) (srcIds (F := Ideal) (V main_arg1)) (dstIds (F := Ideal) (V main_arg1)) (degInv (F := Ideal) (dstIds (F := Ideal) (V main_arg1)))) (layer1 (agg50 (F := Ideal) (V main_arg0) (srcIds (F := Ideal) (V main_arg1)) (dstIds (F := Ideal) (V main_arg1)) (degInv (F := Ideal) (dstIds (F := Ideal) (V main_arg1)))) (V main_arg0) (V main_arg3) (V main_arg4) (V main_arg5)) (V main_arg6) (V main_arg7) (V main_arg8)) (V main_arg9) (V main_arg10) (V main_arg11)) (V main_arg2)) := by
  have s_cst_11 := stage_nullary writesAre 99 main_cst_11 _ rfl (by decide) V
  have s_v76 := stage_unary writesAre 100 main_cst_11 main_v76 _ rfl (by decide) (by decide) V
  have s_v77 := stage_unary writesAre 101 main_arg2 main_v77 _ rfl (by decide) (by decide) V
  have s_v78 := stage_ternary writesAre 102 main_v76 main_v77 main_v75 main_v78 _ rfl (by decide) (by decide) (by decide) (by decide) V
  have s_cst_12 := stage_nullary writesAre 103 main_cst_12 _ rfl (by decide) V
  have s_v79 := stage_unary writesAre 104 main_cst_12 main_v79 _ rfl (by decide) (by decide) V
  have s_cst_13 := stage_nullary writesAre 105 main_cst_13 _ rfl (by decide) V
  have s_v80 := stage_unary writesAre 106 main_cst_13 main_v80 _ rfl (by decide) (by decide) V
  have s_v81 := stage_unary writesAre 107 main_arg2 main_v81 _ rfl (by decide) (by decide) V
  have s_v82 := stage_ternary writesAre 108 main_v80 main_v81 main_v79 main_v82 _ rfl (by decide) (by decide) (by decide) (by decide) V
  have s_cst_14 := stage_nullary writesAre 109 main_cst_14 _ rfl (by decide) V
  have s_v83 := stage_unary writesAre 110 main_cst_14 main_v83 _ rfl (by decide) (by decide) V
  have s_v84 := stage_binary writesAre 111 main_v82 main_v83 main_v84 _ rfl (by decide) (by decide) (by decide) V
  have s_v85 := stage_unary writesAre 112 main_v84 main_v85 _ rfl (by decide) (by decide) V
  have s_v86 := stage_unary writesAre 113 main_v85 main_v86 _ rfl (by decide) (by decide) V
  have s_v87 := stage_binary writesAre 114 main_v78 main_v86 main_v87 _ rfl (by decide) (by decide) (by decide) V
  rw [s_v87, s_v86, s_v85, s_v84, s_v83, s_cst_14, s_v82, s_v81, s_v80, s_cst_13, s_v79, s_cst_12, s_v78, s_v77, s_v76, s_cst_11, e_v75 V, a_arg2 V]
  rfl

/-- After the whole line `main_v93` holds the readout's first hidden matrix. -/
theorem e_v93 (V : Valuation τ sig (Elt Ideal)) :
    after (ops (F := Ideal)) V (Proc.devRef .tc main_v93)
      = (hidden1 (pool (F := Ideal) (layer3 (agg256 (F := Ideal) (layer2 (agg128 (F := Ideal) (layer1 (agg50 (F := Ideal) (V main_arg0) (srcIds (F := Ideal) (V main_arg1)) (dstIds (F := Ideal) (V main_arg1)) (degInv (F := Ideal) (dstIds (F := Ideal) (V main_arg1)))) (V main_arg0) (V main_arg3) (V main_arg4) (V main_arg5)) (srcIds (F := Ideal) (V main_arg1)) (dstIds (F := Ideal) (V main_arg1)) (degInv (F := Ideal) (dstIds (F := Ideal) (V main_arg1)))) (layer1 (agg50 (F := Ideal) (V main_arg0) (srcIds (F := Ideal) (V main_arg1)) (dstIds (F := Ideal) (V main_arg1)) (degInv (F := Ideal) (dstIds (F := Ideal) (V main_arg1)))) (V main_arg0) (V main_arg3) (V main_arg4) (V main_arg5)) (V main_arg6) (V main_arg7) (V main_arg8)) (srcIds (F := Ideal) (V main_arg1)) (dstIds (F := Ideal) (V main_arg1)) (degInv (F := Ideal) (dstIds (F := Ideal) (V main_arg1)))) (layer2 (agg128 (F := Ideal) (layer1 (agg50 (F := Ideal) (V main_arg0) (srcIds (F := Ideal) (V main_arg1)) (dstIds (F := Ideal) (V main_arg1)) (degInv (F := Ideal) (dstIds (F := Ideal) (V main_arg1)))) (V main_arg0) (V main_arg3) (V main_arg4) (V main_arg5)) (srcIds (F := Ideal) (V main_arg1)) (dstIds (F := Ideal) (V main_arg1)) (degInv (F := Ideal) (dstIds (F := Ideal) (V main_arg1)))) (layer1 (agg50 (F := Ideal) (V main_arg0) (srcIds (F := Ideal) (V main_arg1)) (dstIds (F := Ideal) (V main_arg1)) (degInv (F := Ideal) (dstIds (F := Ideal) (V main_arg1)))) (V main_arg0) (V main_arg3) (V main_arg4) (V main_arg5)) (V main_arg6) (V main_arg7) (V main_arg8)) (V main_arg9) (V main_arg10) (V main_arg11)) (V main_arg2)) (V main_arg12) (V main_arg13)) := by
  have s_v88 := stage_unary writesAre 115 main_arg12 main_v88 _ rfl (by decide) (by decide) V
  have s_v89 := stage_binary writesAre 116 main_v87 main_v88 main_v89 _ rfl (by decide) (by decide) (by decide) V
  have s_v90 := stage_unary writesAre 117 main_arg13 main_v90 _ rfl (by decide) (by decide) V
  have s_v91 := stage_unary writesAre 118 main_v90 main_v91 _ rfl (by decide) (by decide) V
  have s_v92 := stage_binary writesAre 119 main_v89 main_v91 main_v92 _ rfl (by decide) (by decide) (by decide) V
  have s_call3_cst := stage_nullary writesAre 120 main_call3_cst _ rfl (by decide) V
  have s_call3_v0 := stage_tunary writesAre 121 main_call3_cst main_call3_v0 _ rfl (by decide) (by decide) V
  have s_v93 := stage_tbinary writesAre 122 main_v92 main_call3_v0 main_v93 _ rfl (by decide) (by decide) (by decide) V
  rw [s_v93, s_call3_v0, s_call3_cst, s_v92, s_v91, s_v90, s_v89, s_v88, e_v87 V, a_arg12 V, a_arg13 V]
  rfl

/-- After the whole line `main_v99` holds the readout's second hidden matrix. -/
theorem e_v99 (V : Valuation τ sig (Elt Ideal)) :
    after (ops (F := Ideal)) V (Proc.devRef .tc main_v99)
      = (hidden2 (hidden1 (pool (F := Ideal) (layer3 (agg256 (F := Ideal) (layer2 (agg128 (F := Ideal) (layer1 (agg50 (F := Ideal) (V main_arg0) (srcIds (F := Ideal) (V main_arg1)) (dstIds (F := Ideal) (V main_arg1)) (degInv (F := Ideal) (dstIds (F := Ideal) (V main_arg1)))) (V main_arg0) (V main_arg3) (V main_arg4) (V main_arg5)) (srcIds (F := Ideal) (V main_arg1)) (dstIds (F := Ideal) (V main_arg1)) (degInv (F := Ideal) (dstIds (F := Ideal) (V main_arg1)))) (layer1 (agg50 (F := Ideal) (V main_arg0) (srcIds (F := Ideal) (V main_arg1)) (dstIds (F := Ideal) (V main_arg1)) (degInv (F := Ideal) (dstIds (F := Ideal) (V main_arg1)))) (V main_arg0) (V main_arg3) (V main_arg4) (V main_arg5)) (V main_arg6) (V main_arg7) (V main_arg8)) (srcIds (F := Ideal) (V main_arg1)) (dstIds (F := Ideal) (V main_arg1)) (degInv (F := Ideal) (dstIds (F := Ideal) (V main_arg1)))) (layer2 (agg128 (F := Ideal) (layer1 (agg50 (F := Ideal) (V main_arg0) (srcIds (F := Ideal) (V main_arg1)) (dstIds (F := Ideal) (V main_arg1)) (degInv (F := Ideal) (dstIds (F := Ideal) (V main_arg1)))) (V main_arg0) (V main_arg3) (V main_arg4) (V main_arg5)) (srcIds (F := Ideal) (V main_arg1)) (dstIds (F := Ideal) (V main_arg1)) (degInv (F := Ideal) (dstIds (F := Ideal) (V main_arg1)))) (layer1 (agg50 (F := Ideal) (V main_arg0) (srcIds (F := Ideal) (V main_arg1)) (dstIds (F := Ideal) (V main_arg1)) (degInv (F := Ideal) (dstIds (F := Ideal) (V main_arg1)))) (V main_arg0) (V main_arg3) (V main_arg4) (V main_arg5)) (V main_arg6) (V main_arg7) (V main_arg8)) (V main_arg9) (V main_arg10) (V main_arg11)) (V main_arg2)) (V main_arg12) (V main_arg13)) (V main_arg14) (V main_arg15)) := by
  have s_v94 := stage_unary writesAre 123 main_arg14 main_v94 _ rfl (by decide) (by decide) V
  have s_v95 := stage_binary writesAre 124 main_v93 main_v94 main_v95 _ rfl (by decide) (by decide) (by decide) V
  have s_v96 := stage_unary writesAre 125 main_arg15 main_v96 _ rfl (by decide) (by decide) V
  have s_v97 := stage_unary writesAre 126 main_v96 main_v97 _ rfl (by decide) (by decide) V
  have s_v98 := stage_binary writesAre 127 main_v95 main_v97 main_v98 _ rfl (by decide) (by decide) (by decide) V
  have s_call4_cst := stage_nullary writesAre 128 main_call4_cst _ rfl (by decide) V
  have s_call4_v0 := stage_tunary writesAre 129 main_call4_cst main_call4_v0 _ rfl (by decide) (by decide) V
  have s_v99 := stage_tbinary writesAre 130 main_v98 main_call4_v0 main_v99 _ rfl (by decide) (by decide) (by decide) V
  rw [s_v99, s_call4_v0, s_call4_cst, s_v98, s_v97, s_v96, s_v95, s_v94, e_v93 V, a_arg14 V, a_arg15 V]
  rfl

/-- After the whole line `main_v110` holds the readout's output column. -/
theorem e_v110 (V : Valuation τ sig (Elt Ideal)) :
    after (ops (F := Ideal)) V (Proc.devRef .tc main_v110)
      = (output (hidden2 (hidden1 (pool (F := Ideal) (layer3 (agg256 (F := Ideal) (layer2 (agg128 (F := Ideal) (layer1 (agg50 (F := Ideal) (V main_arg0) (srcIds (F := Ideal) (V main_arg1)) (dstIds (F := Ideal) (V main_arg1)) (degInv (F := Ideal) (dstIds (F := Ideal) (V main_arg1)))) (V main_arg0) (V main_arg3) (V main_arg4) (V main_arg5)) (srcIds (F := Ideal) (V main_arg1)) (dstIds (F := Ideal) (V main_arg1)) (degInv (F := Ideal) (dstIds (F := Ideal) (V main_arg1)))) (layer1 (agg50 (F := Ideal) (V main_arg0) (srcIds (F := Ideal) (V main_arg1)) (dstIds (F := Ideal) (V main_arg1)) (degInv (F := Ideal) (dstIds (F := Ideal) (V main_arg1)))) (V main_arg0) (V main_arg3) (V main_arg4) (V main_arg5)) (V main_arg6) (V main_arg7) (V main_arg8)) (srcIds (F := Ideal) (V main_arg1)) (dstIds (F := Ideal) (V main_arg1)) (degInv (F := Ideal) (dstIds (F := Ideal) (V main_arg1)))) (layer2 (agg128 (F := Ideal) (layer1 (agg50 (F := Ideal) (V main_arg0) (srcIds (F := Ideal) (V main_arg1)) (dstIds (F := Ideal) (V main_arg1)) (degInv (F := Ideal) (dstIds (F := Ideal) (V main_arg1)))) (V main_arg0) (V main_arg3) (V main_arg4) (V main_arg5)) (srcIds (F := Ideal) (V main_arg1)) (dstIds (F := Ideal) (V main_arg1)) (degInv (F := Ideal) (dstIds (F := Ideal) (V main_arg1)))) (layer1 (agg50 (F := Ideal) (V main_arg0) (srcIds (F := Ideal) (V main_arg1)) (dstIds (F := Ideal) (V main_arg1)) (degInv (F := Ideal) (dstIds (F := Ideal) (V main_arg1)))) (V main_arg0) (V main_arg3) (V main_arg4) (V main_arg5)) (V main_arg6) (V main_arg7) (V main_arg8)) (V main_arg9) (V main_arg10) (V main_arg11)) (V main_arg2)) (V main_arg12) (V main_arg13)) (V main_arg14) (V main_arg15)) (V main_arg16) (V main_arg17)) := by
  have s_v100 := stage_unary writesAre 131 main_arg16 main_v100 _ rfl (by decide) (by decide) V
  have s_v101 := stage_binary writesAre 132 main_v99 main_v100 main_v101 _ rfl (by decide) (by decide) (by decide) V
  have s_v102 := stage_unary writesAre 133 main_arg17 main_v102 _ rfl (by decide) (by decide) V
  have s_v103 := stage_unary writesAre 134 main_v102 main_v103 _ rfl (by decide) (by decide) V
  have s_v104 := stage_binary writesAre 135 main_v101 main_v103 main_v104 _ rfl (by decide) (by decide) (by decide) V
  have s_v105 := stage_unary writesAre 136 main_v104 main_v105 _ rfl (by decide) (by decide) V
  have s_v106 := stage_unary writesAre 137 main_v105 main_v106 _ rfl (by decide) (by decide) V
  have s_cst_15 := stage_nullary writesAre 138 main_cst_15 _ rfl (by decide) V
  have s_v107 := stage_unary writesAre 139 main_cst_15 main_v107 _ rfl (by decide) (by decide) V
  have s_v108 := stage_binary writesAre 140 main_v107 main_v106 main_v108 _ rfl (by decide) (by decide) (by decide) V
  have s_cst_16 := stage_nullary writesAre 141 main_cst_16 _ rfl (by decide) V
  have s_v109 := stage_unary writesAre 142 main_cst_16 main_v109 _ rfl (by decide) (by decide) V
  have s_v110 := stage_binary writesAre 143 main_v109 main_v108 main_v110 _ rfl (by decide) (by decide) (by decide) V
  rw [s_v110, s_v109, s_cst_16, s_v108, s_v107, s_cst_15, s_v106, s_v105, s_v104, s_v103, s_v102, s_v101, s_v100, e_v99 V, a_arg16 V, a_arg17 V]
  rfl

/-- After the whole line the result buffer holds the reference's network of the eighteen argument arrays. -/
theorem out_eq (V : Valuation τ sig (Elt Ideal)) :
    after (ops (F := Ideal)) V (Proc.devRef .tc main_v110)
      = network (V main_arg0) (V main_arg1) (V main_arg2) (V main_arg3) (V main_arg4) (V main_arg5) (V main_arg6) (V main_arg7) (V main_arg8) (V main_arg9) (V main_arg10) (V main_arg11) (V main_arg12) (V main_arg13) (V main_arg14) (V main_arg15) (V main_arg16) (V main_arg17) := by
  rw [e_v110 V]
  rfl

/-- On every device, from any memory with zero counters: every weakly fair execution of the reference program
    terminates with its result buffer at the reference's network of the launch contents of the eighteen argument
    buffers, and those unchanged. -/
theorem run (m' : (ℓ : Loc Cert.ReferenceIdeal.nD Cert.ReferenceIdeal.τ Cert.ReferenceIdeal.sig) → Buf (Elt Ideal) ℓ) (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v110)
          = network
            (m' ((c.tc : Thread Cert.ReferenceIdeal.nD Cert.ReferenceIdeal.τ).loc Cert.ReferenceIdeal.main_arg0))
            (m' ((c.tc : Thread Cert.ReferenceIdeal.nD Cert.ReferenceIdeal.τ).loc Cert.ReferenceIdeal.main_arg1))
            (m' ((c.tc : Thread Cert.ReferenceIdeal.nD Cert.ReferenceIdeal.τ).loc Cert.ReferenceIdeal.main_arg2))
            (m' ((c.tc : Thread Cert.ReferenceIdeal.nD Cert.ReferenceIdeal.τ).loc Cert.ReferenceIdeal.main_arg3))
            (m' ((c.tc : Thread Cert.ReferenceIdeal.nD Cert.ReferenceIdeal.τ).loc Cert.ReferenceIdeal.main_arg4))
            (m' ((c.tc : Thread Cert.ReferenceIdeal.nD Cert.ReferenceIdeal.τ).loc Cert.ReferenceIdeal.main_arg5))
            (m' ((c.tc : Thread Cert.ReferenceIdeal.nD Cert.ReferenceIdeal.τ).loc Cert.ReferenceIdeal.main_arg6))
            (m' ((c.tc : Thread Cert.ReferenceIdeal.nD Cert.ReferenceIdeal.τ).loc Cert.ReferenceIdeal.main_arg7))
            (m' ((c.tc : Thread Cert.ReferenceIdeal.nD Cert.ReferenceIdeal.τ).loc Cert.ReferenceIdeal.main_arg8))
            (m' ((c.tc : Thread Cert.ReferenceIdeal.nD Cert.ReferenceIdeal.τ).loc Cert.ReferenceIdeal.main_arg9))
            (m' ((c.tc : Thread Cert.ReferenceIdeal.nD Cert.ReferenceIdeal.τ).loc Cert.ReferenceIdeal.main_arg10))
            (m' ((c.tc : Thread Cert.ReferenceIdeal.nD Cert.ReferenceIdeal.τ).loc Cert.ReferenceIdeal.main_arg11))
            (m' ((c.tc : Thread Cert.ReferenceIdeal.nD Cert.ReferenceIdeal.τ).loc Cert.ReferenceIdeal.main_arg12))
            (m' ((c.tc : Thread Cert.ReferenceIdeal.nD Cert.ReferenceIdeal.τ).loc Cert.ReferenceIdeal.main_arg13))
            (m' ((c.tc : Thread Cert.ReferenceIdeal.nD Cert.ReferenceIdeal.τ).loc Cert.ReferenceIdeal.main_arg14))
            (m' ((c.tc : Thread Cert.ReferenceIdeal.nD Cert.ReferenceIdeal.τ).loc Cert.ReferenceIdeal.main_arg15))
            (m' ((c.tc : Thread Cert.ReferenceIdeal.nD Cert.ReferenceIdeal.τ).loc Cert.ReferenceIdeal.main_arg16))
            (m' ((c.tc : Thread Cert.ReferenceIdeal.nD Cert.ReferenceIdeal.τ).loc Cert.ReferenceIdeal.main_arg17))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)) :=
  (θ_run (Cert.ReferenceIdeal.defs (F := Ideal)) _ _).mono
    (fun _ h c => ⟨(h c main_v110).trans (out_eq (launchContents m' c)),
      (h c main_arg0).trans (a_arg0 (launchContents m' c)),
      (h c main_arg1).trans (a_arg1 (launchContents m' c)),
      (h c main_arg2).trans (a_arg2 (launchContents m' c)),
      (h c main_arg3).trans (a_arg3 (launchContents m' c)),
      (h c main_arg4).trans (a_arg4 (launchContents m' c)),
      (h c main_arg5).trans (a_arg5 (launchContents m' c)),
      (h c main_arg6).trans (a_arg6 (launchContents m' c)),
      (h c main_arg7).trans (a_arg7 (launchContents m' c)),
      (h c main_arg8).trans (a_arg8 (launchContents m' c)),
      (h c main_arg9).trans (a_arg9 (launchContents m' c)),
      (h c main_arg10).trans (a_arg10 (launchContents m' c)),
      (h c main_arg11).trans (a_arg11 (launchContents m' c)),
      (h c main_arg12).trans (a_arg12 (launchContents m' c)),
      (h c main_arg13).trans (a_arg13 (launchContents m' c)),
      (h c main_arg14).trans (a_arg14 (launchContents m' c)),
      (h c main_arg15).trans (a_arg15 (launchContents m' c)),
      (h c main_arg16).trans (a_arg16 (launchContents m' c)),
      (h c main_arg17).trans (a_arg17 (launchContents m' c))⟩)
    (run_main (F := Ideal) m' ρ')

end Cert.Sage.Ref

end
-- ==== Proof.LibHostLayout.lean ====
/-
  Host layout steps read at an index written by coordinates, for any extents.

  A vector of `b` entries broadcast first to the single row `[1, b]` and then down `a` rows reads, at `(i, j)`, the
  vector at `j`.  A column `[a, 1]` broadcast along `b` columns reads, at `(i, j)`, the column at row `i`.  A vector of
  `a` entries broadcast to the column `[a, 1]` reads, at `(i, u)`, the vector at `i`.  The host's sum of a matrix along
  its rows, at the ideal values, is the initial value plus the sum of that row's entries.  General; no program is
  imported.
-/
import Idealize.ShloMosaic.Lib.Pipeline.Value
import Idealize.ShloMosaic.Lib.ValueIdx
import Idealize.ShloMosaic.Lib.IdealHost
import Idealize.ShloMosaic.PureOps.Ideal.Laws
import Idealize.ShloMosaic.PureOps.Reduce

noncomputable section

open scoped BigOperators

namespace Idealize.ShloMosaic.ValueIdx

open Idealize.ShloMosaic

variable {α : Type}

/-- A vector `[b]` made the row `[1, b]` and copied down `a` rows reads, at `(i, j)`, the vector at `j`. -/
theorem broadcastInDim_vec_rows_apply {a b : ℕ} (x : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (i : Fin a) (j : Fin b) :
    broadcastInDim ⟨2, ![a, b]⟩ ![0, 1] h2 (broadcastInDim ⟨2, ![1, b]⟩ ![1] h1 x) (ix2 i j) = x (ix1 j) := by
  refine (broadcastInDim_apply ![0, 1] h2 _ (ix2 i j) (ix2 (0 : Fin 1) j) fun ax => ?_).trans
    (broadcastInDim_apply ![1] h1 x (ix2 (0 : Fin 1) j) (ix1 j) fun ax => ?_)
  · match ax with
    | ⟨0, _⟩ => exact (if_pos rfl).symm
    | ⟨1, _⟩ =>
      show j.val = if b = 1 then 0 else j.val
      split
      · have := j.isLt; omega
      · rfl
  · match ax with
    | ⟨0, _⟩ =>
      show j.val = if b = 1 then 0 else j.val
      split
      · have := j.isLt; omega
      · rfl

/-- A column `[a, 1]` copied along `b` columns reads, at `(i, j)`, the column at row `i`. -/
theorem broadcastInDim_col_apply {a b : ℕ} (v : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h v (ix2 i j) = v (ix2 i (0 : Fin 1)) := by
  refine broadcastInDim_apply ![0, 1] h v (ix2 i j) (ix2 i (0 : Fin 1)) fun ax => ?_
  match ax with
  | ⟨0, _⟩ =>
    show i.val = if a = 1 then 0 else i.val
    split
    · have := i.isLt; omega
    · rfl
  | ⟨1, _⟩ => exact (if_pos rfl).symm

/-- A vector `[a]` made the column `[a, 1]` reads, at `(i, u)`, the vector at `i`. -/
theorem broadcastInDim_vec_col_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- The host's sum of a matrix along its rows, at the ideal values, read at row `i`: the initial value plus the
    sum of the row's entries. -/
theorem hostRowSum_apply {a b : ℕ} {u : Shape} (z : FVec Ideal ⟨2, ![a, b]⟩ .f32) (init : u.Idx → EReal)
    (h' : (⟨2, ![a, b]⟩ : Shape).ReducesTo [1] ⟨1, ![a]⟩) (h : (⟨2, ![a, b]⟩ : Shape).Reduces [1] ⟨1, ![a]⟩)
    (hu : 0 < u.numel) (i : Fin a) :
    Host.reduceAdd z init h' hu (ix1 i) = init (Shape.Idx.first hu) + ∑ k : Fin b, z (ix2 i k) := by
  refine (hostReduceAdd_apply z init h' hu (ix1 i)).trans ((Ideal.hostReduceAdd_single h' h z _ (ix1 i)).trans ?_)
  refine congrArg (fun s => init (Shape.Idx.first hu) + s) ?_
  show ∑ k : Fin b, z (h.lift (ix1 i) k) = _
  refine Finset.sum_congr rfl fun k _ => congrArg z ?_
  funext ax; apply Fin.ext
  fin_cases ax <;> rfl

end Idealize.ShloMosaic.ValueIdx

end
-- ==== Proof.RefLayer.lean ====
/-
  The reference's spelling of a layer is the specification's layer.

  At node `p` and channel `q` the reference forms `(Σₖ agg[p,k]·Wlᵀ[k,q] + b[q]) + Σₖ x[p,k]·Wrᵀ[k,q]`; a
  transposed weight read at `(k, q)` is the weight at `(q, k)`, the bias copied down the rows reads `b[q]`,
  and addition of extended reals is commutative and associative, so this is
  `(Σₖ agg[p,k]·Wl[q,k] + Σₖ x[p,k]·Wr[q,k]) + b[q]`.  The activations agree pointwise: the maximum with the
  zero matrix is the clamp at zero, and the select on `z ≥ 0` is the leaky clamp (the two tests differ only at
  `z = 0`, where both branches are `0`).
-/
import proofs.«174828_j31147102831272_2_alg».proof.Proof.RefTerms
import proofs.«174828_j31147102831272_2_alg».proof.Proof.LibDotRows
import proofs.«174828_j31147102831272_2_alg».proof.Proof.LibHostLayout
import Idealize.ShloMosaic.Lib.ValueLayout

noncomputable section

open scoped BigOperators

namespace Cert.Sage.Ref

open Idealize.ShloMosaic Idealize.ShloMosaic.ValueIdx

/-- A layer before its activation, in the reference's spelling, read at `(p, q)`. -/
theorem pre_host_apply {N Ci Co : ℕ}
    (d : DotDims (Mat N Ci) (Mat Ci Co) (Mat N Co))
    (hr : d.contr.rank = 1) (hs : d.contr.size ⟨0, by omega⟩ = Ci)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (hT : (Mat Co Ci).Transposes [1, 0] (Mat Ci Co))
    (hb1 : (⟨1, ![Co]⟩ : Shape).BroadcastsInDim (Mat 1 Co) ![1])
    (hb2 : (Mat 1 Co).BroadcastsInDim (Mat N Co) ![0, 1])
    (agg x : FVec Ideal (Mat N Ci) .f32) (Wl Wr : FVec Ideal (Mat Co Ci) .f32)
    (bl : FVec Ideal ⟨1, ![Co]⟩ .f32) (p : Fin N) (q : Fin Co) :
    addf
        (addf (Host.dotGeneral d none agg (transpose (Mat Ci Co) [1, 0] Wl hT))
          (broadcastInDim (Mat N Co) ![0, 1] hb2 (broadcastInDim (Mat 1 Co) ![1] hb1 bl)))
        (Host.dotGeneral d none x (transpose (Mat Ci Co) [1, 0] Wr hT)) (ix2 p q)
      = pre agg x Wl (fun c => bl (ix1 c)) Wr p q := by
  simp only [Host.dotGeneral]
  show (FloatOps.dotGeneral d none _ agg (transpose (Mat Ci Co) [1, 0] Wl hT) (ix2 p q)
      + broadcastInDim (Mat N Co) ![0, 1] hb2 (broadcastInDim (Mat 1 Co) ![1] hb1 bl) (ix2 p q))
      + FloatOps.dotGeneral d none _ x (transpose (Mat Ci Co) [1, 0] Wr hT) (ix2 p q) = _
  rw [dotGeneral_rows d none _ hr hs h1 h2 h3 h4, dotGeneral_rows d none _ hr hs h1 h2 h3 h4,
    broadcastInDim_vec_rows_apply bl hb1 hb2 p q]
  have eL : ∀ k : Fin Ci, transpose (Mat Ci Co) [1, 0] Wl hT (ix2 k q) = Wl (ix2 q k) :=
    fun k => transpose_ix2_apply Wl hT k q
  have eR : ∀ k : Fin Ci, transpose (Mat Ci Co) [1, 0] Wr hT (ix2 k q) = Wr (ix2 q k) :=
    fun k => transpose_ix2_apply Wr hT k q
  simp only [eL, eR]
  unfold pre
  exact add_right_comm (_ : EReal) _ _

open Cert.ReferenceIdeal Cert.ReferenceIdeal.Facts₀

/-- The select on `z ≥ 0` between `z` and the slope's multiple is the leaky clamp. -/
theorem leakyOps_apply (z : FVec Ideal S50000x128 .f32) (i : S50000x128.Idx) : leakyOps z i = leaky (z i) :=
  (leaky_eq_leakyGe (z i)).symm

/-- Layer 1 in the reference's spelling is the specification's layer with the leaky clamp. -/
theorem layer1_eq (agg x : FVec Ideal S50000x50 .f32) (Wl : FVec Ideal S128x50 .f32) (bl : FVec Ideal S128 .f32)
    (Wr : FVec Ideal S128x50 .f32) :
    layer1 agg x Wl bl Wr = Cert.Sage.layer leaky agg x Wl (fun q => bl (ix1 q)) Wr := by
  funext i
  obtain ⟨p, q, rfl⟩ : ∃ (p : Fin 50000) (q : Fin 128), i = ix2 p q := ⟨i 0, i 1, eq_ix2 i⟩
  unfold layer1
  rw [leakyOps_apply]
  exact congrArg leaky (pre_host_apply dot_S50000x50_S50x128_S50000x128_1_0_0_1_n_n rfl rfl (fun _ _ => rfl)
    (fun _ _ => rfl) (fun _ _ => rfl) (fun _ _ => rfl) transposes_S128x50_S50x128_1_0 bcast_S128_S1x128_1
    bcast_S1x128_S50000x128_0_1 agg x Wl Wr bl p q)

/-- Layer 2 in the reference's spelling is the specification's layer with the clamp at zero. -/
theorem layer2_eq (agg x : FVec Ideal S50000x128 .f32) (Wl : FVec Ideal S256x128 .f32) (bl : FVec Ideal S256 .f32)
    (Wr : FVec Ideal S256x128 .f32) :
    layer2 agg x Wl bl Wr = Cert.Sage.layer relu agg x Wl (fun q => bl (ix1 q)) Wr := by
  funext i
  obtain ⟨p, q, rfl⟩ : ∃ (p : Fin 50000) (q : Fin 256), i = ix2 p q := ⟨i 0, i 1, eq_ix2 i⟩
  unfold layer2
  exact congrArg relu (pre_host_apply dot_S50000x128_S128x256_S50000x256_1_0_0_1_n_n rfl rfl (fun _ _ => rfl)
    (fun _ _ => rfl) (fun _ _ => rfl) (fun _ _ => rfl) transposes_S256x128_S128x256_1_0 bcast_S256_S1x256_1
    bcast_S1x256_S50000x256_0_1 agg x Wl Wr bl p q)

/-- Layer 3 in the reference's spelling is the specification's layer with the clamp at zero. -/
theorem layer3_eq (agg x : FVec Ideal S50000x256 .f32) (Wl : FVec Ideal S512x256 .f32) (bl : FVec Ideal S512 .f32)
    (Wr : FVec Ideal S512x256 .f32) :
    layer3 agg x Wl bl Wr = Cert.Sage.layer relu agg x Wl (fun q => bl (ix1 q)) Wr := by
  funext i
  obtain ⟨p, q, rfl⟩ : ∃ (p : Fin 50000) (q : Fin 512), i = ix2 p q := ⟨i 0, i 1, eq_ix2 i⟩
  unfold layer3
  exact congrArg relu (pre_host_apply dot_S50000x256_S256x512_S50000x512_1_0_0_1_n_n rfl rfl (fun _ _ => rfl)
    (fun _ _ => rfl) (fun _ _ => rfl) (fun _ _ => rfl) transposes_S512x256_S256x512_1_0 bcast_S512_S1x512_1
    bcast_S1x512_S50000x512_0_1 agg x Wl Wr bl p q)

end Cert.Sage.Ref

end
-- ==== Proof.HeadRef.lean ====
/-
  The reference's spelling of the readout, read index by index.  Each hidden matrix is a product with the weight
  matrix transposed on the right, so its entry at (p, q) is the sum over k of x[p,k]·W[q,k]; the bias is broadcast
  down the rows; the clamp is a pointwise maximum with zero; and the last step 1 / (1 + exp (-z)) is the logistic
  function by definition.
-/
import proofs.«174828_j31147102831272_2_alg».proof.Proof.RefTerms
import proofs.«174828_j31147102831272_2_alg».proof.Proof.LibDotRows
import proofs.«174828_j31147102831272_2_alg».proof.Proof.LibHostLayout
import Idealize.ShloMosaic.Lib.ValueLayout

noncomputable section

open scoped BigOperators

namespace Cert.Sage.Ref

open Idealize.ShloMosaic Idealize.ShloMosaic.ValueIdx Cert.ReferenceIdeal Cert.ReferenceIdeal.Facts₀

/-- The word of the float one denotes the extended real 1. -/
theorem one32 : Ideal.ofBits .f32 0x3F800000#32 = 1 := by
  simp [Ideal.ofBits, Ideal.ieee, -EReal.coe_mul]; norm_num

/-- The first hidden matrix at graph `p`, channel `q`. -/
theorem hidden1_apply (xp : FVec Ideal S512x512 .f32) (Wf1 : FVec Ideal S256x512 .f32) (bf1 : FVec Ideal S256 .f32)
    (p : Fin 512) (q : Fin 256) :
    hidden1 xp Wf1 bf1 (ix2 p q) = hid1 xp Wf1 (fun q => bf1 (ix1 q)) p q := by
  unfold hidden1 hid1 relu zero32
  simp only [Host.dotGeneral]
  rw [maximumf_apply, addf_apply]
  rw [dotGeneral_rows dot_S512x512_S512x256_S512x256_1_0_0_1_n_n none .single rfl rfl (fun _ _ => rfl) (fun _ _ => rfl) (fun _ _ => rfl) (fun _ _ => rfl)]
  rw [broadcastInDim_vec_rows_apply]
  refine congrArg₂ _ (congrArg₂ _ (Finset.sum_congr rfl fun k _ => ?_) rfl) rfl
  rw [transpose_ix2_apply]

/-- The second hidden matrix at graph `p`, channel `q`, from any first hidden matrix `h1`. -/
theorem hidden2_apply (h1 : FVec Ideal S512x256 .f32) (Wf2 : FVec Ideal S128x256 .f32) (bf2 : FVec Ideal S128 .f32)
    (p : Fin 512) (q : Fin 128) :
    hidden2 h1 Wf2 bf2 (ix2 p q) = relu ((∑ k : Fin 256, h1 (ix2 p k) * Wf2 (ix2 q k)) + bf2 (ix1 q)) := by
  unfold hidden2 relu zero32
  simp only [Host.dotGeneral]
  rw [maximumf_apply, addf_apply]
  rw [dotGeneral_rows dot_S512x256_S256x128_S512x128_1_0_0_1_n_n none .single rfl rfl (fun _ _ => rfl) (fun _ _ => rfl) (fun _ _ => rfl) (fun _ _ => rfl)]
  rw [broadcastInDim_vec_rows_apply]
  refine congrArg₂ _ (congrArg₂ _ (Finset.sum_congr rfl fun k _ => ?_) rfl) rfl
  rw [transpose_ix2_apply]

/-- The output column at graph `p`, from any second hidden matrix `h2`: the logistic function of the last affine map. -/
theorem output_apply (h2 : FVec Ideal S512x128 .f32) (Wo : FVec Ideal S1x128 .f32) (bo : FVec Ideal S1 .f32)
    (p : Fin 512) (u : Fin 1) :
    output h2 Wo bo (ix2 p u)
      = Ideal.logistic ((∑ k : Fin 128, h2 (ix2 p k) * Wo (ix2 (0 : Fin 1) k)) + bo (ix1 (0 : Fin 1))) := by
  have hu : u = 0 := Subsingleton.elim _ _
  subst hu
  unfold output Ideal.logistic
  simp only [Host.dotGeneral]
  show Ideal.div (Ideal.ofBits .f32 0x3F800000#32) (Ideal.ofBits .f32 0x3F800000#32 + Ideal.exp (-(_ + _))) = _
  rw [one32]
  rw [dotGeneral_rows dot_S512x128_S128x1_S512x1_1_0_0_1_n_n none .single rfl rfl (fun _ _ => rfl) (fun _ _ => rfl) (fun _ _ => rfl) (fun _ _ => rfl)]
  rw [broadcastInDim_vec_rows_apply]
  refine congrArg (fun z => Ideal.div 1 (1 + Ideal.exp (-(z + bo (ix1 (0 : Fin 1)))))) (Finset.sum_congr rfl fun k _ => ?_)
  rw [transpose_ix2_apply]

/-- The reference's readout is the specification's, index by index. -/
theorem head_eq (xp : FVec Ideal S512x512 .f32) (Wf1 : FVec Ideal S256x512 .f32) (bf1 : FVec Ideal S256 .f32)
    (Wf2 : FVec Ideal S128x256 .f32) (bf2 : FVec Ideal S128 .f32) (Wo : FVec Ideal S1x128 .f32)
    (bo : FVec Ideal S1 .f32) :
    head xp Wf1 bf1 Wf2 bf2 Wo bo
      = Cert.Sage.readout xp Wf1 (fun q => bf1 (ix1 q)) Wf2 (fun q => bf2 (ix1 q)) (fun q => Wo (ix2 (0 : Fin 1) q))
          (bo (ix1 (0 : Fin 1))) := by
  funext i
  obtain ⟨p, u, rfl⟩ : ∃ (p : Fin 512) (u : Fin 1), i = ix2 p u := ⟨i 0, i 1, eq_ix2 i⟩
  unfold head
  rw [output_apply]
  unfold readout hid2
  refine congrArg (fun z => Ideal.logistic (z + bo (ix1 (0 : Fin 1)))) (Finset.sum_congr rfl fun k _ => ?_)
  rw [hidden2_apply]
  refine congrArg (fun z => relu (z + bf2 (ix1 k)) * Wo (ix2 (0 : Fin 1) k)) (Finset.sum_congr rfl fun j _ => ?_)
  rw [hidden1_apply]

end Cert.Sage.Ref

end
-- ==== Proof.NetworkEq.lean ====
/-
  The reference's network is the specification's network: layer by layer, and at the readout, the reference's
  spelling and the specification are one function, and the shared host functions are applied to equal arrays.
-/
import proofs.«174828_j31147102831272_2_alg».proof.Proof.RefNetwork
import proofs.«174828_j31147102831272_2_alg».proof.Proof.RefLayer
import proofs.«174828_j31147102831272_2_alg».proof.Proof.HeadRef

noncomputable section

namespace Cert.Sage.Ref
open Idealize.ShloMosaic Idealize.ShloMosaic.ValueIdx Cert.KernelIdeal

/-- The reference's network is the specification's: layer by layer and at the readout the two spellings are one
    function, and the shared host functions are applied to equal arrays. -/
theorem network_eq (x : FVec Ideal S50000x50 .f32) (e : (⟨S2x800000, .i32⟩ : BufTy).Contents (Elt Ideal))
    (batch : (⟨S50000, .i32⟩ : BufTy).Contents (Elt Ideal))
    (Wl1 : FVec Ideal S128x50 .f32) (bl1 : FVec Ideal S128 .f32) (Wr1 : FVec Ideal S128x50 .f32)
    (Wl2 : FVec Ideal S256x128 .f32) (bl2 : FVec Ideal S256 .f32) (Wr2 : FVec Ideal S256x128 .f32)
    (Wl3 : FVec Ideal S512x256 .f32) (bl3 : FVec Ideal S512 .f32) (Wr3 : FVec Ideal S512x256 .f32)
    (Wf1 : FVec Ideal S256x512 .f32) (bf1 : FVec Ideal S256 .f32) (Wf2 : FVec Ideal S128x256 .f32)
    (bf2 : FVec Ideal S128 .f32) (Wo : FVec Ideal S1x128 .f32) (bo : FVec Ideal S1 .f32) :
    Ref.network x e batch Wl1 bl1 Wr1 Wl2 bl2 Wr2 Wl3 bl3 Wr3 Wf1 bf1 Wf2 bf2 Wo bo
      = Cert.Sage.network x e batch Wl1 bl1 Wr1 Wl2 bl2 Wr2 Wl3 bl3 Wr3 Wf1 bf1 Wf2 bf2 Wo bo := by
  unfold Ref.network Cert.Sage.network
  simp only [layer1_eq, layer2_eq, layer3_eq, head_eq]

end Cert.Sage.Ref

end
-- ==== Proof.lean ====
/-
  The certificate of a three-layer graph network with a per-graph readout.

  Each layer averages every node's neighbours (a gather along the edge list, a scatter-add into the destination
  rows, a row scaling by the reciprocal in-degree), then returns
  `act (Σₖ agg[r,k]·Wl[c,k] + Σₖ x[r,k]·Wr[c,k] + b[c])`; the node features of each graph are averaged; two affine
  maps with a clamp at zero, one output channel and the logistic function give one probability per graph.

  The kernel program computes the neighbour averages and the pool with host operations and each layer, and the
  readout, in a kernel; the reference computes everything with host operations.  At the extended reals both end at
  `Cert.Sage.network` of the argument arrays:
  • the host operations are the same on both sides and are carried as closed functions applied to equal arrays;
  • a layer's kernel, tile by tile, writes the layer's closed form (a product against a weight matrix contracts
    the channel axis of both operands; the reference multiplies by the transposed weight: the same sum), and the
    reference adds the bias between the two products where the kernel adds it after them — addition of extended
    reals is commutative and associative, so no finiteness is used;
  • the leaky clamp is a select on `z > 0` in the kernel and on `z ≥ 0` in the reference: they differ only at
    `z = 0`, where both branches are `0`;
  • the logistic function is, by definition at the extended reals, `1 / (1 + exp (-z))`, which is how the
    reference writes it.
  The frames of the two kernel programs are the generated ones; the reference's frame is its run with the result
  dropped.  The idealization rewrote no operation, so there is nothing to preserve.
-/
import proofs.«174828_j31147102831272_2_alg».proof.Defs
import proofs.«174828_j31147102831272_2_alg».proof.Proof.Gen.Kernel
import proofs.«174828_j31147102831272_2_alg».proof.Proof.Gen.Kernel.Skeleton
import proofs.«174828_j31147102831272_2_alg».proof.Proof.Gen.Kernel.Launch
import proofs.«174828_j31147102831272_2_alg».proof.Proof.Gen.Kernel.Points
import proofs.«174828_j31147102831272_2_alg».proof.Proof.Gen.Kernel.Frame
import proofs.«174828_j31147102831272_2_alg».proof.Proof.Gen.KernelIdeal
import proofs.«174828_j31147102831272_2_alg».proof.Proof.Gen.KernelIdeal.Skeleton
import proofs.«174828_j31147102831272_2_alg».proof.Proof.Gen.KernelIdeal.Launch
import proofs.«174828_j31147102831272_2_alg».proof.Proof.Gen.KernelIdeal.Points
import proofs.«174828_j31147102831272_2_alg».proof.Proof.Gen.KernelIdeal.Frame
import proofs.«174828_j31147102831272_2_alg».proof.Proof.Gen.ReferenceIdeal
import proofs.«174828_j31147102831272_2_alg».proof.Proof.Gen.Pre_finite_inputs
import proofs.«174828_j31147102831272_2_alg».proof.Proof.KRun
import proofs.«174828_j31147102831272_2_alg».proof.Proof.KernelValue
import proofs.«174828_j31147102831272_2_alg».proof.Proof.RefValue
import proofs.«174828_j31147102831272_2_alg».proof.Proof.NetworkEq
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.Sage.Ref.run m ρ)

/-- Both idealized programs end at the network's value of their argument arrays, and the arrays agree. -/
theorem algebraic : Cert.algebraic_KernelIdeal_ReferenceIdeal := by
  intro m ρ m' ρ' _ hagree
  refine ⟨fun c => Cert.Sage.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)), ?_, ?_⟩
  · exact (θ_run Cert.KernelIdeal.defs _ _).mono
      (fun r h c => ⟨(h c).1.trans (Cert.Sage.kernel_value m ρ c), (h c).2⟩) (Cert.Sage.kernel_run m ρ)
  · refine (θ_run Cert.ReferenceIdeal.defs _ _).mono (fun r h c => ⟨(h c).1.trans ?_, (h c).2⟩) (Cert.Sage.Ref.run m' ρ')
    obtain ⟨e0, e1, e2, e3, e4, e5, e6, e7, e8, e9, e10, e11, e12, e13, e14, e15, e16, e17⟩ := hagree c
    rw [Cert.Sage.Ref.network_eq, e0, e1, e2, e3, e4, e5, e6, e7, e8, e9, e10, e11, e12, e13, e14, e15, e16, e17]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
